-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v94)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128x128 .f32) (main_arg15 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128x128 .f32) (main_arg12 : FVec F S128 .f32) (main_arg13 : FVec F S128x128 .f32) (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128x128 .f32) (main_arg15 : FVec F S128 .f32) (main_arg16 : IVec S500000 32) (main_arg17 : IVec S500000 32) (main_arg18 : IVec S500000 32) (main_arg19 : IVec S500000 32) (main_arg20 : IVec S500000 32) (main_arg21 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S5000x128 : Shape := ⟨2, ![5000, 128]⟩
abbrev S5000x1 : Shape := ⟨2, ![5000, 1]⟩
abbrev S500000x128 : Shape := ⟨2, ![500000, 128]⟩
abbrev S1x128 : Shape := ⟨2, ![1, 128]⟩

abbrev nBuf : Space → Nat
  | .hbm => 180
  | .vmem => 70
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S500000, .i32⟩
  | 17 => ⟨S500000, .i32⟩
  | 18 => ⟨S500000, .i32⟩
  | 19 => ⟨S500000, .i32⟩
  | 20 => ⟨S500000, .i32⟩
  | 21 => ⟨S500000, .i32⟩
  | 22 => ⟨S_, .f32⟩
  | 23 => ⟨S500000, .f32⟩
  | 24 => ⟨S_, .f32⟩
  | 25 => ⟨S50000, .f32⟩
  | 26 => ⟨S500000x1, .i32⟩
  | 27 => ⟨S50000, .f32⟩
  | 28 => ⟨S_, .f32⟩
  | 29 => ⟨S50000, .f32⟩
  | 30 => ⟨S500000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S_, .f32⟩
  | 45 => ⟨S500000, .f32⟩
  | 46 => ⟨S_, .f32⟩
  | 47 => ⟨S50000, .f32⟩
  | 48 => ⟨S500000x1, .i32⟩
  | 49 => ⟨S50000, .f32⟩
  | 50 => ⟨S_, .f32⟩
  | 51 => ⟨S50000, .f32⟩
  | 52 => ⟨S500000x1, .i32⟩
  | 53 => ⟨S50000, .f32⟩
  | 54 => ⟨S_, .f32⟩
  | 55 => ⟨S50000, .f32⟩
  | 56 => ⟨S50000, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .f32⟩
  | 63 => ⟨S_, .f32⟩
  | 64 => ⟨S50000, .f32⟩
  | 65 => ⟨S50000, .f32⟩
  | 66 => ⟨S_, .f32⟩
  | 67 => ⟨S500000, .f32⟩
  | 68 => ⟨S_, .f32⟩
  | 69 => ⟨S50000, .f32⟩
  | 70 => ⟨S500000x1, .i32⟩
  | 71 => ⟨S50000, .f32⟩
  | 72 => ⟨S_, .f32⟩
  | 73 => ⟨S50000, .f32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x1, .f32⟩
  | 80 => ⟨S50000x128, .f32⟩
  | 81 => ⟨S50000x128, .f32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x128, .f32⟩
  | 91 => ⟨S_, .f32⟩
  | 92 => ⟨S50000x128, .f32⟩
  | 93 => ⟨S500000x1, .i32⟩
  | 94 => ⟨S50000x128, .f32⟩
  | 95 => ⟨S50000x1, .f32⟩
  | 96 => ⟨S1x128, .f32⟩
  | 97 => ⟨S50000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S50000x128, .f32⟩
  | 109 => ⟨S500000x1, .i32⟩
  | 110 => ⟨S50000x128, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x128, .f32⟩
  | 120 => ⟨S_, .f32⟩
  | 121 => ⟨S50000x128, .f32⟩
  | 122 => ⟨S500000x1, .i32⟩
  | 123 => ⟨S50000x128, .f32⟩
  | 124 => ⟨S50000x1, .f32⟩
  | 125 => ⟨S1x128, .f32⟩
  | 126 => ⟨S50000x1, .f32⟩
  | 127 => ⟨S1x128, .f32⟩
  | _ => ⟨S50000x128, .f32⟩

abbrev hbmTy0_1 (i : Nat) : BufTy := match i % 128 with
  | 0 => ⟨S50000x128, .f32⟩
  | 1 => ⟨S50000x1, .f32⟩
  | 2 => ⟨S50000x1, .f32⟩
  | 3 => ⟨S50000x128, .f32⟩
  | 4 => ⟨S50000x128, .f32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x128, .f32⟩
  | 14 => ⟨S_, .f32⟩
  | 15 => ⟨S50000x128, .f32⟩
  | 16 => ⟨S500000x1, .i32⟩
  | 17 => ⟨S50000x128, .f32⟩
  | 18 => ⟨S50000x1, .f32⟩
  | 19 => ⟨S1x128, .f32⟩
  | 20 => ⟨S50000x128, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S50000x128, .f32⟩
  | 32 => ⟨S500000x1, .i32⟩
  | 33 => ⟨S50000x128, .f32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S_, .f32⟩
  | 44 => ⟨S50000x128, .f32⟩
  | 45 => ⟨S500000x1, .i32⟩
  | 46 => ⟨S50000x128, .f32⟩
  | 47 => ⟨S50000x1, .f32⟩
  | 48 => ⟨S1x128, .f32⟩
  | 49 => ⟨S50000x1, .f32⟩
  | 50 => ⟨S1x128, .f32⟩
  | 51 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S5000x1, .f32⟩
  | .local _ .vmem, ⟨40, _⟩ => ⟨S5000x1, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x1, .f32⟩
  | .local _ .vmem, ⟨56, _⟩ => ⟨S5000x1, .f32⟩
  | .local _ .vmem, ⟨57, _⟩ => ⟨S128x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | .local _ .vmem, ⟨61, _⟩ => ⟨S128x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_cst_4 : Ref sig .tc := ⟨.hbm, 38, rfl⟩
abbrev main_v11 : Ref sig .tc := ⟨.hbm, 39, rfl⟩
abbrev main_v12 : Ref sig .tc := ⟨.hbm, 40, rfl⟩
abbrev main_cst_5 : Ref sig .tc := ⟨.hbm, 41, rfl⟩
abbrev main_v13 : Ref sig .tc := ⟨.hbm, 42, rfl⟩
abbrev main_v14 : Ref sig .tc := ⟨.hbm, 43, rfl⟩
abbrev main_cst_6 : Ref sig .tc := ⟨.hbm, 44, rfl⟩
abbrev main_v15 : Ref sig .tc := ⟨.hbm, 45, rfl⟩
abbrev main_cst_7 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_8 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_9 : Ref sig .tc := ⟨.hbm, 54, rfl⟩
abbrev main_v22 : Ref sig .tc := ⟨.hbm, 55, rfl⟩
abbrev main_v23 : Ref sig .tc := ⟨.hbm, 56, rfl⟩
abbrev main_cst_10 : Ref sig .tc := ⟨.hbm, 57, rfl⟩
abbrev main_v24 : Ref sig .tc := ⟨.hbm, 58, rfl⟩
abbrev main_v25 : Ref sig .tc := ⟨.hbm, 59, rfl⟩
abbrev main_cst_11 : Ref sig .tc := ⟨.hbm, 60, rfl⟩
abbrev main_v26 : Ref sig .tc := ⟨.hbm, 61, rfl⟩
abbrev main_v27 : Ref sig .tc := ⟨.hbm, 62, rfl⟩
abbrev main_cst_12 : Ref sig .tc := ⟨.hbm, 63, rfl⟩
abbrev main_v28 : Ref sig .tc := ⟨.hbm, 64, rfl⟩
abbrev main_v29 : Ref sig .tc := ⟨.hbm, 65, rfl⟩
abbrev main_cst_13 : Ref sig .tc := ⟨.hbm, 66, rfl⟩
abbrev main_v30 : Ref sig .tc := ⟨.hbm, 67, rfl⟩
abbrev main_cst_14 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_15 : Ref sig .tc := ⟨.hbm, 72, rfl⟩
abbrev main_v34 : Ref sig .tc := ⟨.hbm, 73, rfl⟩
abbrev main_v35 : Ref sig .tc := ⟨.hbm, 74, rfl⟩
abbrev main_cst_16 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40_0 : Ref sig .tc := ⟨.hbm, 80, rfl⟩
abbrev main_v40_1 : Ref sig .tc := ⟨.hbm, 81, rfl⟩
abbrev main_c : Ref sig .tc := ⟨.hbm, 82, rfl⟩
abbrev main_v41 : Ref sig .tc := ⟨.hbm, 83, rfl⟩
abbrev main_v42 : Ref sig .tc := ⟨.hbm, 84, rfl⟩
abbrev main_c_17 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_cst_18 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_c_19 : Ref sig .tc := ⟨.hbm, 98, rfl⟩
abbrev main_v54 : Ref sig .tc := ⟨.hbm, 99, rfl⟩
abbrev main_v55 : Ref sig .tc := ⟨.hbm, 100, rfl⟩
abbrev main_c_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_21 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_22 : Ref sig .tc := ⟨.hbm, 111, rfl⟩
abbrev main_v64 : Ref sig .tc := ⟨.hbm, 112, rfl⟩
abbrev main_v65 : Ref sig .tc := ⟨.hbm, 113, rfl⟩
abbrev main_c_23 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_24 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81_0 : Ref sig .tc := ⟨.hbm, 131, rfl⟩
abbrev main_v81_1 : Ref sig .tc := ⟨.hbm, 132, rfl⟩
abbrev main_c_25 : Ref sig .tc := ⟨.hbm, 133, rfl⟩
abbrev main_v82 : Ref sig .tc := ⟨.hbm, 134, rfl⟩
abbrev main_v83 : Ref sig .tc := ⟨.hbm, 135, rfl⟩
abbrev main_c_26 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_27 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_c_28 : Ref sig .tc := ⟨.hbm, 149, rfl⟩
abbrev main_v95 : Ref sig .tc := ⟨.hbm, 150, rfl⟩
abbrev main_v96 : Ref sig .tc := ⟨.hbm, 151, rfl⟩
abbrev main_c_29 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_30 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_c_31 : Ref sig .tc := ⟨.hbm, 162, rfl⟩
abbrev main_v105 : Ref sig .tc := ⟨.hbm, 163, rfl⟩
abbrev main_v106 : Ref sig .tc := ⟨.hbm, 164, rfl⟩
abbrev main_c_32 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_33 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_stg7_0 : Ref sig .tc := ⟨.vmem, 29, rfl⟩
abbrev cc2_stg7_1 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg10_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg4_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg4_1 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg6_1 : Ref sig .tc := ⟨.vmem, 63, rfl⟩
abbrev cc5_stg7_0 : Ref sig .tc := ⟨.vmem, 64, rfl⟩
abbrev cc5_stg7_1 : Ref sig .tc := ⟨.vmem, 65, rfl⟩
abbrev cc5_stg8_0 : Ref sig .tc := ⟨.vmem, 66, rfl⟩
abbrev cc5_stg9_0 : Ref sig .tc := ⟨.vmem, 67, rfl⟩
abbrev cc5_stg10_0 : Ref sig .tc := ⟨.vmem, 68, rfl⟩
abbrev cc5_stg10_1 : Ref sig .tc := ⟨.vmem, 69, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem6_1 : DmaSem sig := 28
abbrev cc2_sem7_0 : DmaSem sig := 29
abbrev cc2_sem7_1 : DmaSem sig := 30
abbrev cc2_sem8_0 : DmaSem sig := 31
abbrev cc2_sem9_0 : DmaSem sig := 32
abbrev cc2_sem10_0 : DmaSem sig := 33
abbrev cc2_sem10_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc4_sem3_0 : DmaSem sig := 50
abbrev cc4_sem4_0 : DmaSem sig := 51
abbrev cc4_sem4_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem4_1 : DmaSem sig := 60
abbrev cc5_sem5_0 : DmaSem sig := 61
abbrev cc5_sem6_0 : DmaSem sig := 62
abbrev cc5_sem6_1 : DmaSem sig := 63
abbrev cc5_sem7_0 : DmaSem sig := 64
abbrev cc5_sem7_1 : DmaSem sig := 65
abbrev cc5_sem8_0 : DmaSem sig := 66
abbrev cc5_sem9_0 : DmaSem sig := 67
abbrev cc5_sem10_0 : DmaSem sig := 68
abbrev cc5_sem10_1 : DmaSem sig := 69

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S5000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S50000x1.size a
  hwx2_7 : ∀ i : grid2.Coords, EltTy.bits .f32 = 32 ∨ (Rect.block (s := S50000x1) S5000x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x1.size a ≤ S50000x1.size a
  hwx5_7 : ∀ i : grid5.Coords, EltTy.bits .f32 = 32 ∨ (Rect.block (s := S50000x1) S5000x1.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S128x128.size a ≤ S128x128.size a
  hwx5_8 : ∀ i : grid5.Coords, EltTy.bits .f32 = 32 ∨ (Rect.block (s := S128x128) S128x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S1x128.size a ≤ S1x128.size a
  hwx5_9 : ∀ i : grid5.Coords, EltTy.bits .f32 = 32 ∨ (Rect.block (s := S1x128) S1x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S5000x128.size a ≤ S50000x128.size a
  hwx5_10 : ∀ i : grid5.Coords, EltTy.bits .f32 = 32 ∨ (Rect.block (s := S50000x128) S5000x128.size (cc5_transform_10 i) (hinb5_10 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S5000x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v76) S5000x1.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v77) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v78) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v53) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81_0) S5000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v81_1) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v91) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v93) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v104) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v116) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S5000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_arg13) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v114) S5000x128.size cc5_transform_6 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_v117) S5000x1.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_arg14) S128x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v118) S1x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v119) S5000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩

abbrev nBuf : Space → Nat
  | .hbm => 272
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S500000, .i32⟩
  | 17 => ⟨S500000, .i32⟩
  | 18 => ⟨S500000, .i32⟩
  | 19 => ⟨S500000, .i32⟩
  | 20 => ⟨S500000, .i32⟩
  | 21 => ⟨S500000, .i32⟩
  | 22 => ⟨S_, .f32⟩
  | 23 => ⟨S500000, .f32⟩
  | 24 => ⟨S_, .f32⟩
  | 25 => ⟨S50000, .f32⟩
  | 26 => ⟨S500000x1, .i32⟩
  | 27 => ⟨S50000, .f32⟩
  | 28 => ⟨S_, .f32⟩
  | 29 => ⟨S50000, .f32⟩
  | 30 => ⟨S500000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .f32⟩
  | 57 => ⟨S50000x128, .f32⟩
  | 58 => ⟨S500000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S500000, .f32⟩
  | 69 => ⟨S_, .f32⟩
  | 70 => ⟨S50000, .f32⟩
  | 71 => ⟨S500000x1, .i32⟩
  | 72 => ⟨S50000, .f32⟩
  | 73 => ⟨S_, .f32⟩
  | 74 => ⟨S50000, .f32⟩
  | 75 => ⟨S500000x1, .i32⟩
  | 76 => ⟨S50000, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x128, .f32⟩
  | 91 => ⟨S50000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S_, .f32⟩
  | 102 => ⟨S50000x128, .f32⟩
  | 103 => ⟨S500000x1, .i32⟩
  | 104 => ⟨S50000x128, .f32⟩
  | 105 => ⟨S50000x1, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S500000, .f32⟩
  | 114 => ⟨S_, .f32⟩
  | 115 => ⟨S50000, .f32⟩
  | 116 => ⟨S500000x1, .i32⟩
  | 117 => ⟨S50000, .f32⟩
  | 118 => ⟨S_, .f32⟩
  | 119 => ⟨S50000, .f32⟩
  | 120 => ⟨S50000, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S50000x128, .f32⟩

abbrev hbmTy0_1 (i : Nat) : BufTy := match i % 128 with
  | 0 => ⟨S500000x1, .i32⟩
  | 1 => ⟨S500000x128, .f32⟩
  | 2 => ⟨S_, .f32⟩
  | 3 => ⟨S50000x128, .f32⟩
  | 4 => ⟨S500000x1, .i32⟩
  | 5 => ⟨S50000x128, .f32⟩
  | 6 => ⟨S50000x1, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S_, .f32⟩
  | 23 => ⟨S500000, .f32⟩
  | 24 => ⟨S_, .f32⟩
  | 25 => ⟨S50000, .f32⟩
  | 26 => ⟨S500000x1, .i32⟩
  | 27 => ⟨S50000, .f32⟩
  | 28 => ⟨S_, .f32⟩
  | 29 => ⟨S50000, .f32⟩
  | 30 => ⟨S500000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S_, .f32⟩
  | 57 => ⟨S50000x128, .f32⟩
  | 58 => ⟨S500000x1, .i32⟩
  | 59 => ⟨S50000x128, .f32⟩
  | 60 => ⟨S50000x1, .f32⟩
  | 61 => ⟨S50000x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S500000, .f32⟩
  | 69 => ⟨S_, .f32⟩
  | 70 => ⟨S50000, .f32⟩
  | 71 => ⟨S500000x1, .i32⟩
  | 72 => ⟨S50000, .f32⟩
  | 73 => ⟨S_, .f32⟩
  | 74 => ⟨S50000, .f32⟩
  | 75 => ⟨S500000x1, .i32⟩
  | 76 => ⟨S50000, .f32⟩
  | 77 => ⟨S_, .f32⟩
  | 78 => ⟨S50000, .f32⟩
  | 79 => ⟨S50000, .f32⟩
  | 80 => ⟨S_, .f32⟩
  | 81 => ⟨S50000, .f32⟩
  | 82 => ⟨S50000, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x128, .f32⟩
  | 91 => ⟨S50000x128, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x128, .f32⟩
  | 101 => ⟨S_, .f32⟩
  | 102 => ⟨S50000x128, .f32⟩
  | 103 => ⟨S500000x1, .i32⟩
  | 104 => ⟨S50000x128, .f32⟩
  | 105 => ⟨S50000x1, .f32⟩
  | 106 => ⟨S50000x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S500000, .f32⟩
  | 114 => ⟨S_, .f32⟩
  | 115 => ⟨S50000, .f32⟩
  | 116 => ⟨S500000x1, .i32⟩
  | 117 => ⟨S50000, .f32⟩
  | 118 => ⟨S_, .f32⟩
  | 119 => ⟨S50000, .f32⟩
  | 120 => ⟨S50000, .f32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S50000x128, .f32⟩

abbrev hbmTy0_2 (i : Nat) : BufTy := match i % 128 with
  | 0 => ⟨S500000x1, .i32⟩
  | 1 => ⟨S500000x128, .f32⟩
  | 2 => ⟨S_, .f32⟩
  | 3 => ⟨S50000x128, .f32⟩
  | 4 => ⟨S500000x1, .i32⟩
  | 5 => ⟨S50000x128, .f32⟩
  | 6 => ⟨S50000x1, .f32⟩
  | 7 => ⟨S50000x128, .f32⟩
  | 8 => ⟨S50000x128, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_cst_4 : Ref sig .tc := ⟨.hbm, 38, rfl⟩
abbrev main_v11 : Ref sig .tc := ⟨.hbm, 39, rfl⟩
abbrev main_v12 : Ref sig .tc := ⟨.hbm, 40, rfl⟩
abbrev main_cst_5 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c : Ref sig .tc := ⟨.hbm, 47, rfl⟩
abbrev main_v18 : Ref sig .tc := ⟨.hbm, 48, rfl⟩
abbrev main_v19 : Ref sig .tc := ⟨.hbm, 49, rfl⟩
abbrev main_c_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_8 : Ref sig .tc := ⟨.hbm, 67, rfl⟩
abbrev main_v35 : Ref sig .tc := ⟨.hbm, 68, rfl⟩
abbrev main_cst_9 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_10 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst_11 : Ref sig .tc := ⟨.hbm, 77, rfl⟩
abbrev main_v42 : Ref sig .tc := ⟨.hbm, 78, rfl⟩
abbrev main_v43 : Ref sig .tc := ⟨.hbm, 79, rfl⟩
abbrev main_cst_12 : Ref sig .tc := ⟨.hbm, 80, rfl⟩
abbrev main_v44 : Ref sig .tc := ⟨.hbm, 81, rfl⟩
abbrev main_v45 : Ref sig .tc := ⟨.hbm, 82, rfl⟩
abbrev main_cst_13 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_c_15 : Ref sig .tc := ⟨.hbm, 92, rfl⟩
abbrev main_v53 : Ref sig .tc := ⟨.hbm, 93, rfl⟩
abbrev main_v54 : Ref sig .tc := ⟨.hbm, 94, rfl⟩
abbrev main_c_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_cst_19 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_20 : Ref sig .tc := ⟨.hbm, 118, rfl⟩
abbrev main_v74 : Ref sig .tc := ⟨.hbm, 119, rfl⟩
abbrev main_v75 : Ref sig .tc := ⟨.hbm, 120, rfl⟩
abbrev main_c_21 : Ref sig .tc := ⟨.hbm, 121, rfl⟩
abbrev main_v76 : Ref sig .tc := ⟨.hbm, 122, rfl⟩
abbrev main_v77 : Ref sig .tc := ⟨.hbm, 123, rfl⟩
abbrev main_c_22 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_23 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call0_cst : Ref sig .tc := ⟨.hbm, 144, rfl⟩
abbrev main_call0_v0 : Ref sig .tc := ⟨.hbm, 145, rfl⟩
abbrev main_v96 : Ref sig .tc := ⟨.hbm, 146, rfl⟩
abbrev main_call1_cst : Ref sig .tc := ⟨.hbm, 147, rfl⟩
abbrev main_call1_v0 : Ref sig .tc := ⟨.hbm, 148, rfl⟩
abbrev main_v97 : Ref sig .tc := ⟨.hbm, 149, rfl⟩
abbrev main_cst_24 : Ref sig .tc := ⟨.hbm, 150, rfl⟩
abbrev main_v98 : Ref sig .tc := ⟨.hbm, 151, rfl⟩
abbrev main_cst_25 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_cst_26 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_27 : Ref sig .tc := ⟨.hbm, 160, rfl⟩
abbrev main_v105 : Ref sig .tc := ⟨.hbm, 161, rfl⟩
abbrev main_v106 : Ref sig .tc := ⟨.hbm, 162, rfl⟩
abbrev main_cst_28 : Ref sig .tc := ⟨.hbm, 163, rfl⟩
abbrev main_v107 : Ref sig .tc := ⟨.hbm, 164, rfl⟩
abbrev main_v108 : Ref sig .tc := ⟨.hbm, 165, rfl⟩
abbrev main_cst_29 : Ref sig .tc := ⟨.hbm, 166, rfl⟩
abbrev main_v109 : Ref sig .tc := ⟨.hbm, 167, rfl⟩
abbrev main_v110 : Ref sig .tc := ⟨.hbm, 168, rfl⟩
abbrev main_cst_30 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_c_31 : Ref sig .tc := ⟨.hbm, 175, rfl⟩
abbrev main_v116 : Ref sig .tc := ⟨.hbm, 176, rfl⟩
abbrev main_v117 : Ref sig .tc := ⟨.hbm, 177, rfl⟩
abbrev main_c_32 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_33 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_cst_34 : Ref sig .tc := ⟨.hbm, 195, rfl⟩
abbrev main_v133 : Ref sig .tc := ⟨.hbm, 196, rfl⟩
abbrev main_cst_35 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_36 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_37 : Ref sig .tc := ⟨.hbm, 205, rfl⟩
abbrev main_v140 : Ref sig .tc := ⟨.hbm, 206, rfl⟩
abbrev main_v141 : Ref sig .tc := ⟨.hbm, 207, rfl⟩
abbrev main_cst_38 : Ref sig .tc := ⟨.hbm, 208, rfl⟩
abbrev main_v142 : Ref sig .tc := ⟨.hbm, 209, rfl⟩
abbrev main_v143 : Ref sig .tc := ⟨.hbm, 210, rfl⟩
abbrev main_cst_39 : Ref sig .tc := ⟨.hbm, 211, rfl⟩
abbrev main_v144 : Ref sig .tc := ⟨.hbm, 212, rfl⟩
abbrev main_v145 : Ref sig .tc := ⟨.hbm, 213, rfl⟩
abbrev main_cst_40 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_c_41 : Ref sig .tc := ⟨.hbm, 220, rfl⟩
abbrev main_v151 : Ref sig .tc := ⟨.hbm, 221, rfl⟩
abbrev main_v152 : Ref sig .tc := ⟨.hbm, 222, rfl⟩
abbrev main_c_42 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_43 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_44 : Ref sig .tc := ⟨.hbm, 240, rfl⟩
abbrev main_v168 : Ref sig .tc := ⟨.hbm, 241, rfl⟩
abbrev main_cst_45 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_cst_46 : Ref sig .tc := ⟨.hbm, 246, rfl⟩
abbrev main_v172 : Ref sig .tc := ⟨.hbm, 247, rfl⟩
abbrev main_v173 : Ref sig .tc := ⟨.hbm, 248, rfl⟩
abbrev main_c_47 : Ref sig .tc := ⟨.hbm, 249, rfl⟩
abbrev main_v174 : Ref sig .tc := ⟨.hbm, 250, rfl⟩
abbrev main_v175 : Ref sig .tc := ⟨.hbm, 251, rfl⟩
abbrev main_c_48 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_cst_49 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer functions of the two-layer heterogeneous graph network, as whole-array functions on the
  extended reals, index by index.  Rows are nodes (50000 of them), columns are the 128 features.

  * `scaleRows x n`     : row p of x times the p-th entry of the column n        (degree normalisation)
  * `rowDot a W`        : the matrix product a · W, entry (p,q) = Σ_k a(p,k) · W(k,q)
  * `convOut`           : (agg scaled by n) · W + b                               (graph convolution)
  * `heteroOut`         : the graph convolution of one relation, plus x · W_self, plus
                          (g scaled by r) · W_neigh, plus the second bias            (the node-type sum)
  and the two rectified forms, max(·, 0).
-/
import Idealize.ShloMosaic.PureOps.Ideal
import Idealize.ShloMosaic.Lib.ValueIdx

noncomputable section

open scoped BigOperators

namespace HeteroConv

open Idealize.ShloMosaic Idealize.ShloMosaic.ValueIdx

/-- node features: 50000 rows of 128 -/
abbrev NxD : Shape := ⟨2, ![50000, 128]⟩
/-- one number per node, as a column -/
abbrev Nx1 : Shape := ⟨2, ![50000, 1]⟩
/-- a weight matrix -/
abbrev DxD : Shape := ⟨2, ![128, 128]⟩
/-- a bias, as a row -/
abbrev OnexD : Shape := ⟨2, ![1, 128]⟩

/-- The zero the rectifier compares with (the float word of +0.0; its value is 0). -/
abbrev zeroLit : EReal := Ideal.ofBits .f32 0x00000000#32

/-- The float word of 1.0 (its value is 1). -/
abbrev oneLit : EReal := Ideal.ofBits .f32 0x3F800000#32

/-- The column of reciprocals 1 / d(p): what the mean over neighbours multiplies by. -/
def recipCol (d : Nx1.Idx → EReal) : Nx1.Idx → EReal :=
  fun i => Ideal.div oneLit (d i)

/-- Row p of `x` multiplied by the p-th entry of the column `n`. -/
def scaleRows (x : NxD.Idx → EReal) (n : Nx1.Idx → EReal) : NxD.Idx → EReal :=
  fun i => x i * n (ix2 (n0 := 50000) (n1 := 1) (i 0) 0)

/-- The matrix product: entry (p,q) is the sum over k of a(p,k) · W(k,q). -/
def rowDot (a : NxD.Idx → EReal) (W : DxD.Idx → EReal) : NxD.Idx → EReal :=
  fun i => ∑ k : Fin 128, a (ix2 (n0 := 50000) (n1 := 128) (i 0) k) * W (ix2 (n0 := 128) (n1 := 128) k (i 1))

/-- Graph convolution's dense part: the aggregated messages scaled by the destination norm, times the
    weights, plus the bias. -/
def convOut (agg : NxD.Idx → EReal) (n : Nx1.Idx → EReal) (W : DxD.Idx → EReal) (b : OnexD.Idx → EReal) :
    NxD.Idx → EReal :=
  fun i => rowDot (scaleRows agg n) W i + b (ix2 (n0 := 1) (n1 := 128) 0 (i 1))

/-- `convOut` rectified. -/
def convOutRelu (agg : NxD.Idx → EReal) (n : Nx1.Idx → EReal) (W : DxD.Idx → EReal) (b : OnexD.Idx → EReal) :
    NxD.Idx → EReal :=
  fun i => max (convOut agg n W b i) zeroLit

/-- The node-type sum of two relations: the graph convolution of the first relation (a, n, W, b), the
    self term x · Ws, the neighbour mean (g scaled by the reciprocal degree r) times Wn, and the second
    bias — added in this order, left to right. -/
def heteroOut (a : NxD.Idx → EReal) (n : Nx1.Idx → EReal) (W : DxD.Idx → EReal) (b : OnexD.Idx → EReal)
    (x : NxD.Idx → EReal) (Ws : DxD.Idx → EReal)
    (g : NxD.Idx → EReal) (r : Nx1.Idx → EReal) (Wn : DxD.Idx → EReal) (bn : OnexD.Idx → EReal) :
    NxD.Idx → EReal :=
  fun i => (((rowDot (scaleRows a n) W i + b (ix2 (n0 := 1) (n1 := 128) 0 (i 1))) + rowDot x Ws i)
              + rowDot (scaleRows g r) Wn i) + bn (ix2 (n0 := 1) (n1 := 128) 0 (i 1))

/-- `heteroOut` rectified. -/
def heteroOutRelu (a : NxD.Idx → EReal) (n : Nx1.Idx → EReal) (W : DxD.Idx → EReal) (b : OnexD.Idx → EReal)
    (x : NxD.Idx → EReal) (Ws : DxD.Idx → EReal)
    (g : NxD.Idx → EReal) (r : Nx1.Idx → EReal) (Wn : DxD.Idx → EReal) (bn : OnexD.Idx → EReal) :
    NxD.Idx → EReal :=
  fun i => max (heteroOut a n W b x Ws g r Wn bn i) zeroLit

end HeteroConv

end
-- ==== Proof.Net.lean ====
/-
  The two-layer heterogeneous graph network as ONE function of the arguments.

  Node types C and N (50000 nodes each, 128 features); three relations given by edge lists
  (source, destination), 500000 edges each: C→C, C→N and N→N.

  * `degree idx`      : how many edges name each node (a sum of ones scattered by the index list)
  * `invSqrtDeg idx`  : max(degree, 1)^(-1/2), the symmetric normalisation of a graph convolution
  * `recipDeg idx`    : 1 / max(degree, 1), the mean over in-neighbours
  * `aggregate x s d` : for every edge, row s(e) of x is added into row d(e) (gather, then segment sum)
  * `col`, `row`      : a per-node vector read as a column, a bias read as a row

  Layer 1:  hC = relu(conv_cc(feat_C)),   hN = relu(conv_cn(feat_C) + sage_nn(feat_N))
  Layer 2:  oC = conv_cc(hC),             oN = conv_cn(hC) + sage_nn(hN)
  where conv(x) = (aggregate(x scaled by invSqrtDeg(src)) scaled by invSqrtDeg(dst)) · W + b and
  sage(x) = x · W_self + (aggregate(x) scaled by recipDeg(dst)) · W_neigh + b.
-/
import proofs.«162621_j68298569941171_1_alg».proof.KernelIdeal
import proofs.«162621_j68298569941171_1_alg».proof.Proof.Gen.KernelIdeal
import proofs.«162621_j68298569941171_1_alg».proof.Proof.Spec
import Idealize.ShloMosaic.PureOps.Ideal

noncomputable section

namespace HeteroConv.Net

open Cert.KernelIdeal Cert.KernelIdeal.Facts₀ Cert.KernelIdeal.Facts Idealize.ShloMosaic Idealize.SL.Sem HeteroConv

/-- an edge list's source or destination indices -/
abbrev EdgeIdx := IVec S500000 32
/-- one number per node -/
abbrev NodeVec := FVec Ideal S50000 .f32
/-- node features -/
abbrev Feat := FVec Ideal S50000x128 .f32
/-- one feature row per edge -/
abbrev EdgeFeat := FVec Ideal S500000x128 .f32
/-- a weight matrix -/
abbrev Weight := FVec Ideal S128x128 .f32
/-- a bias vector -/
abbrev Bias := FVec Ideal S128 .f32

/-- The number of edges naming each node: ones, scattered by the index list and added up from zero. -/
def degree (idx : EdgeIdx) : NodeVec :=
  Host.scatterAdd (F := Ideal) scatter_S50000_S500000x1_S500000_n_0_0_1
    (broadcastInDim S50000 ![] bcast_S_S50000 (constant (F := Ideal) S_ .f32 0x00000000#32))
    (broadcastInDim S500000x1 ![0] bcast_S500000_S500000x1_0 idx)
    (broadcastInDim S500000 ![] bcast_S_S500000 (constant (F := Ideal) S_ .f32 0x3F800000#32))

/-- max(degree, 1). -/
def degree1 (idx : EdgeIdx) : NodeVec :=
  maximumf (F := Ideal) (degree idx) (broadcastInDim S50000 ![] bcast_S_S50000 (constant (F := Ideal) S_ .f32 0x3F800000#32))

/-- max(degree, 1) to the power -1/2. -/
def invSqrtDeg (idx : EdgeIdx) : NodeVec :=
  Host.powf (F := Ideal) (degree1 idx) (broadcastInDim S50000 ![] bcast_S_S50000 (constant (F := Ideal) S_ .f32 0xBF000000#32))

/-- 1 / max(degree, 1). -/
def recipDeg (idx : EdgeIdx) : NodeVec :=
  Host.divf (F := Ideal) (broadcastInDim S50000 ![] bcast_S_S50000 (constant (F := Ideal) S_ .f32 0x3F800000#32)) (degree1 idx)

/-- A per-node vector as a column [50000, 1]. -/
def col (v : NodeVec) : FVec Ideal S50000x1 .f32 :=
  fun i => shapeCast S50000x1 v shapeCasts_S50000_S50000x1 i

/-- A bias as a row [1, 128]. -/
def row (b : Bias) : FVec Ideal S1x128 .f32 :=
  fun i => shapeCast S1x128 b shapeCasts_S128_S1x128 i

/-- Negative indices count from the end (jnp indexing): idx < 0 ↦ idx + 50000. -/
def wrapIdx (idx : EdgeIdx) : EdgeIdx :=
  select (cmpi .slt idx (broadcastInDim S500000 ![] bcast_S_S500000 (constantI S_ 32 0#32)))
    (addi idx (broadcastInDim S500000 ![] bcast_S_S500000 (constantI S_ 32 50000#32))) idx

/-- Row src(e) of x, for every edge e. -/
def gatherRows (x : Feat) (src : EdgeIdx) : EdgeFeat :=
  Host.gather gather_S50000x128_S500000x1_S500000x128_1_0_n_n_0_1_1128 x
    (broadcastInDim S500000x1 ![0] bcast_S500000_S500000x1_0 (wrapIdx src))

/-- Every edge's row added into row dst(e), from zero. -/
def segSum (u : EdgeFeat) (dst : EdgeIdx) : Feat :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 dst) u

/-- Message passing along one relation: gather by source, sum by destination. -/
def aggregate (x : Feat) (src dst : EdgeIdx) : Feat := segSum (gatherRows x src) dst

/-- A graph convolution's aggregated input: x scaled by the source norm, passed along the edges. -/
def convAgg (x : Feat) (src dst : EdgeIdx) : Feat :=
  aggregate (scaleRows x (col (invSqrtDeg src))) src dst

/-- Layer 1 on the C nodes. -/
def hC (featC : Feat) (Wcc : Weight) (bcc : Bias) (ccSrc ccDst : EdgeIdx) : Feat :=
  convOutRelu (convAgg featC ccSrc ccDst) (col (invSqrtDeg ccDst)) Wcc (row bcc)

/-- Layer 1 on the N nodes. -/
def hN (featC featN : Feat) (Wcn : Weight) (bcn : Bias) (Wself Wneigh : Weight) (bnn : Bias)
    (cnSrc cnDst nnSrc nnDst : EdgeIdx) : Feat :=
  heteroOutRelu (convAgg featC cnSrc cnDst) (col (invSqrtDeg cnDst)) Wcn (row bcn) featN Wself
    (aggregate featN nnSrc nnDst) (col (recipDeg nnDst)) Wneigh (row bnn)

/-- Layer 2 on the C nodes, from layer 1's `hC`. -/
def oC (h : Feat) (Wcc : Weight) (bcc : Bias) (ccSrc ccDst : EdgeIdx) : Feat :=
  convOut (convAgg h ccSrc ccDst) (col (invSqrtDeg ccDst)) Wcc (row bcc)

/-- Layer 2 on the N nodes, from layer 1's `hC` and `hN`. -/
def oN (hc hn : Feat) (Wcn : Weight) (bcn : Bias) (Wself Wneigh : Weight) (bnn : Bias)
    (cnSrc cnDst nnSrc nnDst : EdgeIdx) : Feat :=
  heteroOut (convAgg hc cnSrc cnDst) (col (invSqrtDeg cnDst)) Wcn (row bcn) hn Wself
    (aggregate hn nnSrc nnDst) (col (recipDeg nnDst)) Wneigh (row bnn)

end HeteroConv.Net

end
-- ==== Proof.KernelRun.lean ====
/-
  The idealized kernel program's run with its final buffer contents named: every weakly fair execution of
  @main terminates without a fault, and each unscoped buffer of each core ends at the contents the fold
  through @main's twelve segments (six stretches of host operations, six grid regions) gives it.
-/
import proofs.«162621_j68298569941171_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting,
    and every unscoped buffer `b` of core `c` ends holding `W12 m ρ c b`: the contents after the last region. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run read at one TensorCore buffer. -/
theorem run_at (b : Ref sig .tc) (hb : ¬ (Proc.devRef .tc b : DevRef τ sig).isScoped) (r : PUnit × MemSt nD τ sig (Elt F))
    (h : ∀ c : Dev nD, ∀ b ∈ Pipeline.ucRefs τ sig, r.2.mem (((c : Thread nD τ)).1, b) = W12 m ρ c b) (c : Dev nD) :
    r.2.mem ((c.tc : Thread nD τ).loc b) = W12 m ρ c (Proc.devRef .tc b) :=
  h c _ (mem_uc b hb)

end Cert.KernelIdeal.KernelRun

end
-- ==== Proof.KernelKeep.lean ====
/-
  Which buffers each segment of the idealized kernel's @main leaves alone.  @main is twelve segments: a stretch
  of host operations, then a grid region, six times over.  A stretch rewrites only the buffers its own operations
  produce; a region rewrites only its own output arrays.  So an argument array holds its launch contents at every
  boundary, and an intermediate array holds, at every later boundary where it is read, what its producer wrote.
  One lemma per (buffer, segment) pair that the value proof needs, then their chains.
-/
import proofs.«162621_j68298569941171_1_alg».proof.Proof.Gen.KernelIdeal.Frame
import Idealize.ShloMosaic.PureOps.Ideal
import Idealize.ShloMosaic.Lib.StableHlo.Run
set_option maxRecDepth 16384

noncomputable section

namespace Cert.KernelIdeal.KernelKeep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A buffer that no operation of a stretch of host operations writes keeps its contents across the stretch. -/
macro "host_keeps " ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem keep1_arg0 (c : Dev nD) : W1 m ρ c (Proc.devRef .tc main_arg0) = W0 m ρ c (Proc.devRef .tc main_arg0) := by
  show StableHlo.after hostOps0 (W0 m ρ c) (Proc.devRef .tc main_arg0) = _
  host_keeps hostOps0
theorem arg0_at1 (c : Dev nD) : W1 m ρ c (Proc.devRef .tc main_arg0) = m ((c : Thread nD τ).loc main_arg0) := (keep1_arg0 m ρ c).trans rfl

theorem keep1_arg1 (c : Dev nD) : W1 m ρ c (Proc.devRef .tc main_arg1) = W0 m ρ c (Proc.devRef .tc main_arg1) := by
  show StableHlo.after hostOps0 (W0 m ρ c) (Proc.devRef .tc main_arg1) = _
  host_keeps hostOps0
theorem keep2_arg1 (c : Dev nD) : W2 m ρ c (Proc.devRef .tc main_arg1) = W1 m ρ c (Proc.devRef .tc main_arg1) := W2_of_ne m ρ c main_arg1 (by decide)
theorem keep3_arg1 (c : Dev nD) : W3 m ρ c (Proc.devRef .tc main_arg1) = W2 m ρ c (Proc.devRef .tc main_arg1) := by
  show StableHlo.after hostOps1 (W2 m ρ c) (Proc.devRef .tc main_arg1) = _
  host_keeps hostOps1
theorem keep4_arg1 (c : Dev nD) : W4 m ρ c (Proc.devRef .tc main_arg1) = W3 m ρ c (Proc.devRef .tc main_arg1) := W4_of_ne m ρ c main_arg1 (by decide)
theorem keep5_arg1 (c : Dev nD) : W5 m ρ c (Proc.devRef .tc main_arg1) = W4 m ρ c (Proc.devRef .tc main_arg1) := by
  show StableHlo.after hostOps2 (W4 m ρ c) (Proc.devRef .tc main_arg1) = _
  host_keeps hostOps2
theorem arg1_at1 (c : Dev nD) : W1 m ρ c (Proc.devRef .tc main_arg1) = m ((c : Thread nD τ).loc main_arg1) := (keep1_arg1 m ρ c).trans rfl
theorem arg1_at2 (c : Dev nD) : W2 m ρ c (Proc.devRef .tc main_arg1) = m ((c : Thread nD τ).loc main_arg1) := (keep2_arg1 m ρ c).trans (arg1_at1 m ρ c)
theorem arg1_at3 (c : Dev nD) : W3 m ρ c (Proc.devRef .tc main_arg1) = m ((c : Thread nD τ).loc main_arg1) := (keep3_arg1 m ρ c).trans (arg1_at2 m ρ c)
theorem arg1_at4 (c : Dev nD) : W4 m ρ c (Proc.devRef .tc main_arg1) = m ((c : Thread nD τ).loc main_arg1) := (keep4_arg1 m ρ c).trans (arg1_at3 m ρ c)
theorem arg1_at5 (c : Dev nD) : W5 m ρ c (Proc.devRef .tc main_arg1) = m ((c : Thread nD τ).loc main_arg1) := (keep5_arg1 m ρ c).trans (arg1_at4 m ρ c)

theorem keep1_arg2 (c : Dev nD) : W1 m ρ c (Proc.devRef .tc main_arg2) = W0 m ρ c (Proc.devRef .tc main_arg2) := by
  show StableHlo.after hostOps0 (W0 m ρ c) (Proc.devRef .tc main_arg2) = _
  host_keeps hostOps0
theorem keep2_arg2 (c : Dev nD) : W2 m ρ c (Proc.devRef .tc main_arg2) = W1 m ρ c (Proc.devRef .tc main_arg2) := W2_of_ne m ρ c main_arg2 (by decide)
theorem keep3_arg2 (c : Dev nD) : W3 m ρ c (Proc.devRef .tc main_arg2) = W2 m ρ c (Proc.devRef .tc main_arg2) := by
  show StableHlo.after hostOps1 (W2 m ρ c) (Proc.devRef .tc main_arg2) = _
  host_keeps hostOps1
theorem arg2_at1 (c : Dev nD) : W1 m ρ c (Proc.devRef .tc main_arg2) = m ((c : Thread nD τ).loc main_arg2) := (keep1_arg2 m ρ c).trans rfl
theorem arg2_at2 (c : Dev nD) : W2 m ρ c (Proc.devRef .tc main_arg2) = m ((c : Thread nD τ).loc main_arg2) := (keep2_arg2 m ρ c).trans (arg2_at1 m ρ c)
theorem arg2_at3 (c : Dev nD) : W3 m ρ c (Proc.devRef .tc main_arg2) = m ((c : Thread nD τ).loc main_arg2) := (keep3_arg2 m ρ c).trans (arg2_at2 m ρ c)

theorem keep1_arg3 (c : Dev nD) : W1 m ρ c (Proc.devRef .tc main_arg3) = W0 m ρ c (Proc.devRef .tc main_arg3) := by
  show StableHlo.after hostOps0 (W0 m ρ c) (Proc.devRef .tc main_arg3) = _
  host_keeps hostOps0
theorem keep2_arg3 (c : Dev nD) : W2 m ρ c (Proc.devRef .tc main_arg3) = W1 m ρ c (Proc.devRef .tc main_arg3) := W2_of_ne m ρ c main_arg3 (by decide)
theorem arg3_at1 (c : Dev nD) : W1 m ρ c (Proc.devRef .tc main_arg3) = m ((c : Thread nD τ).loc main_arg3) := (keep1_arg3 m ρ c).trans rfl
theorem arg3_at2 (c : Dev nD) : W2 m ρ c (Proc.devRef .tc main_arg3) = m ((c : Thread nD τ).loc main_arg3) := (keep2_arg3 m ρ c).trans (arg3_at1 m ρ c)

theorem keep1_arg4 (c : Dev nD) : W1 m ρ c (Proc.devRef .tc main_arg4) = W0 m ρ c (Proc.devRef .tc main_arg4) := by
  show StableHlo.after hostOps0 (W0 m ρ c) (Proc.devRef .tc main_arg4) = _
  host_keeps hostOps0
theorem keep2_arg4 (c : Dev nD) : W2 m ρ c (Proc.devRef .tc main_arg4) = W1 m ρ c (Proc.devRef .tc main_arg4) := W2_of_ne m ρ c main_arg4 (by decide)
theorem keep3_arg4 (c : Dev nD) : W3 m ρ c (Proc.devRef .tc main_arg4) = W2 m ρ c (Proc.devRef .tc main_arg4) := by
  show StableHlo.after hostOps1 (W2 m ρ c) (Proc.devRef .tc main_arg4) = _
  host_keeps hostOps1
theorem keep4_arg4 (c : Dev nD) : W4 m ρ c (Proc.devRef .tc main_arg4) = W3 m ρ c (Proc.devRef .tc main_arg4) := W4_of_ne m ρ c main_arg4 (by decide)
theorem keep5_arg4 (c : Dev nD) : W5 m ρ c (Proc.devRef .tc main_arg4) = W4 m ρ c (Proc.devRef .tc main_arg4) := by
  show StableHlo.after hostOps2 (W4 m ρ c) (Proc.devRef .tc main_arg4) = _
  host_keeps hostOps2
theorem arg4_at1 (c : Dev nD) : W1 m ρ c (Proc.devRef .tc main_arg4) = m ((c : Thread nD τ).loc main_arg4) := (keep1_arg4 m ρ c).trans rfl
theorem arg4_at2 (c : Dev nD) : W2 m ρ c (Proc.devRef .tc main_arg4) = m ((c : Thread nD τ).loc main_arg4) := (keep2_arg4 m ρ c).trans (arg4_at1 m ρ c)
theorem arg4_at3 (c : Dev nD) : W3 m ρ c (Proc.devRef .tc main_arg4) = m ((c : Thread nD τ).loc main_arg4) := (keep3_arg4 m ρ c).trans (arg4_at2 m ρ c)
theorem arg4_at4 (c : Dev nD) : W4 m ρ c (Proc.devRef .tc main_arg4) = m ((c : Thread nD τ).loc main_arg4) := (keep4_arg4 m ρ c).trans (arg4_at3 m ρ c)
theorem arg4_at5 (c : Dev nD) : W5 m ρ c (Proc.devRef .tc main_arg4) = m ((c : Thread nD τ).loc main_arg4) := (keep5_arg4 m ρ c).trans (arg4_at4 m ρ c)

theorem keep1_arg5 (c : Dev nD) : W1 m ρ c (Proc.devRef .tc main_arg5) = W0 m ρ c (Proc.devRef .tc main_arg5) := by
  show StableHlo.after hostOps0 (W0 m ρ c) (Proc.devRef .tc main_arg5) = _
  host_keeps hostOps0
theorem keep2_arg5 (c : Dev nD) : W2 m ρ c (Proc.devRef .tc main_arg5) = W1 m ρ c (Proc.devRef .tc main_arg5) := W2_of_ne m ρ c main_arg5 (by decide)
theorem keep3_arg5 (c : Dev nD) : W3 m ρ c (Proc.devRef .tc main_arg5) = W2 m ρ c (Proc.devRef .tc main_arg5) := by
  show StableHlo.after hostOps1 (W2 m ρ c) (Proc.devRef .tc main_arg5) = _
  host_keeps hostOps1
theorem keep4_arg5 (c : Dev nD) : W4 m ρ c (Proc.devRef .tc main_arg5) = W3 m ρ c (Proc.devRef .tc main_arg5) := W4_of_ne m ρ c main_arg5 (by decide)
theorem arg5_at1 (c : Dev nD) : W1 m ρ c (Proc.devRef .tc main_arg5) = m ((c : Thread nD τ).loc main_arg5) := (keep1_arg5 m ρ c).trans rfl
theorem arg5_at2 (c : Dev nD) : W2 m ρ c (Proc.devRef .tc main_arg5) = m ((c : Thread nD τ).loc main_arg5) := (keep2_arg5 m ρ c).trans (arg5_at1 m ρ c)
theorem arg5_at3 (c : Dev nD) : W3 m ρ c (Proc.devRef .tc main_arg5) = m ((c : Thread nD τ).loc main_arg5) := (keep3_arg5 m ρ c).trans (arg5_at2 m ρ c)
theorem arg5_at4 (c : Dev nD) : W4 m ρ c (Proc.devRef .tc main_arg5) = m ((c : Thread nD τ).loc main_arg5) := (keep4_arg5 m ρ c).trans (arg5_at3 m ρ c)

theorem keep1_arg6 (c : Dev nD) : W1 m ρ c (Proc.devRef .tc main_arg6) = W0 m ρ c (Proc.devRef .tc main_arg6) := by
  show StableHlo.after hostOps0 (W0 m ρ c) (Proc.devRef .tc main_arg6) = _
  host_keeps hostOps0
theorem keep2_arg6 (c : Dev nD) : W2 m ρ c (Proc.devRef .tc main_arg6) = W1 m ρ c (Proc.devRef .tc main_arg6) := W2_of_ne m ρ c main_arg6 (by decide)
theorem keep3_arg6 (c : Dev nD) : W3 m ρ c (Proc.devRef .tc main_arg6) = W2 m ρ c (Proc.devRef .tc main_arg6) := by
  show StableHlo.after hostOps1 (W2 m ρ c) (Proc.devRef .tc main_arg6) = _
  host_keeps hostOps1
theorem keep4_arg6 (c : Dev nD) : W4 m ρ c (Proc.devRef .tc main_arg6) = W3 m ρ c (Proc.devRef .tc main_arg6) := W4_of_ne m ρ c main_arg6 (by decide)
theorem keep5_arg6 (c : Dev nD) : W5 m ρ c (Proc.devRef .tc main_arg6) = W4 m ρ c (Proc.devRef .tc main_arg6) := by
  show StableHlo.after hostOps2 (W4 m ρ c) (Proc.devRef .tc main_arg6) = _
  host_keeps hostOps2
theorem arg6_at1 (c : Dev nD) : W1 m ρ c (Proc.devRef .tc main_arg6) = m ((c : Thread nD τ).loc main_arg6) := (keep1_arg6 m ρ c).trans rfl
theorem arg6_at2 (c : Dev nD) : W2 m ρ c (Proc.devRef .tc main_arg6) = m ((c : Thread nD τ).loc main_arg6) := (keep2_arg6 m ρ c).trans (arg6_at1 m ρ c)
theorem arg6_at3 (c : Dev nD) : W3 m ρ c (Proc.devRef .tc main_arg6) = m ((c : Thread nD τ).loc main_arg6) := (keep3_arg6 m ρ c).trans (arg6_at2 m ρ c)
theorem arg6_at4 (c : Dev nD) : W4 m ρ c (Proc.devRef .tc main_arg6) = m ((c : Thread nD τ).loc main_arg6) := (keep4_arg6 m ρ c).trans (arg6_at3 m ρ c)
theorem arg6_at5 (c : Dev nD) : W5 m ρ c (Proc.devRef .tc main_arg6) = m ((c : Thread nD τ).loc main_arg6) := (keep5_arg6 m ρ c).trans (arg6_at4 m ρ c)

theorem keep1_arg7 (c : Dev nD) : W1 m ρ c (Proc.devRef .tc main_arg7) = W0 m ρ c (Proc.devRef .tc main_arg7) := by
  show StableHlo.after hostOps0 (W0 m ρ c) (Proc.devRef .tc main_arg7) = _
  host_keeps hostOps0
theorem keep2_arg7 (c : Dev nD) : W2 m ρ c (Proc.devRef .tc main_arg7) = W1 m ρ c (Proc.devRef .tc main_arg7) := W2_of_ne m ρ c main_arg7 (by decide)
theorem keep3_arg7 (c : Dev nD) : W3 m ρ c (Proc.devRef .tc main_arg7) = W2 m ρ c (Proc.devRef .tc main_arg7) := by
  show StableHlo.after hostOps1 (W2 m ρ c) (Proc.devRef .tc main_arg7) = _
  host_keeps hostOps1
theorem keep4_arg7 (c : Dev nD) : W4 m ρ c (Proc.devRef .tc main_arg7) = W3 m ρ c (Proc.devRef .tc main_arg7) := W4_of_ne m ρ c main_arg7 (by decide)
theorem keep5_arg7 (c : Dev nD) : W5 m ρ c (Proc.devRef .tc main_arg7) = W4 m ρ c (Proc.devRef .tc main_arg7) := by
  show StableHlo.after hostOps2 (W4 m ρ c) (Proc.devRef .tc main_arg7) = _
  host_keeps hostOps2
theorem arg7_at1 (c : Dev nD) : W1 m ρ c (Proc.devRef .tc main_arg7) = m ((c : Thread nD τ).loc main_arg7) := (keep1_arg7 m ρ c).trans rfl
theorem arg7_at2 (c : Dev nD) : W2 m ρ c (Proc.devRef .tc main_arg7) = m ((c : Thread nD τ).loc main_arg7) := (keep2_arg7 m ρ c).trans (arg7_at1 m ρ c)
theorem arg7_at3 (c : Dev nD) : W3 m ρ c (Proc.devRef .tc main_arg7) = m ((c : Thread nD τ).loc main_arg7) := (keep3_arg7 m ρ c).trans (arg7_at2 m ρ c)
theorem arg7_at4 (c : Dev nD) : W4 m ρ c (Proc.devRef .tc main_arg7) = m ((c : Thread nD τ).loc main_arg7) := (keep4_arg7 m ρ c).trans (arg7_at3 m ρ c)
theorem arg7_at5 (c : Dev nD) : W5 m ρ c (Proc.devRef .tc main_arg7) = m ((c : Thread nD τ).loc main_arg7) := (keep5_arg7 m ρ c).trans (arg7_at4 m ρ c)

theorem keep1_arg8 (c : Dev nD) : W1 m ρ c (Proc.devRef .tc main_arg8) = W0 m ρ c (Proc.devRef .tc main_arg8) := by
  show StableHlo.after hostOps0 (W0 m ρ c) (Proc.devRef .tc main_arg8) = _
  host_keeps hostOps0
theorem keep2_arg8 (c : Dev nD) : W2 m ρ c (Proc.devRef .tc main_arg8) = W1 m ρ c (Proc.devRef .tc main_arg8) := W2_of_ne m ρ c main_arg8 (by decide)
theorem keep3_arg8 (c : Dev nD) : W3 m ρ c (Proc.devRef .tc main_arg8) = W2 m ρ c (Proc.devRef .tc main_arg8) := by
  show StableHlo.after hostOps1 (W2 m ρ c) (Proc.devRef .tc main_arg8) = _
  host_keeps hostOps1
theorem keep4_arg8 (c : Dev nD) : W4 m ρ c (Proc.devRef .tc main_arg8) = W3 m ρ c (Proc.devRef .tc main_arg8) := W4_of_ne m ρ c main_arg8 (by decide)
theorem arg8_at1 (c : Dev nD) : W1 m ρ c (Proc.devRef .tc main_arg8) = m ((c : Thread nD τ).loc main_arg8) := (keep1_arg8 m ρ c).trans rfl
theorem arg8_at2 (c : Dev nD) : W2 m ρ c (Proc.devRef .tc main_arg8) = m ((c : Thread nD τ).loc main_arg8) := (keep2_arg8 m ρ c).trans (arg8_at1 m ρ c)
theorem arg8_at3 (c : Dev nD) : W3 m ρ c (Proc.devRef .tc main_arg8) = m ((c : Thread nD τ).loc main_arg8) := (keep3_arg8 m ρ c).trans (arg8_at2 m ρ c)
theorem arg8_at4 (c : Dev nD) : W4 m ρ c (Proc.devRef .tc main_arg8) = m ((c : Thread nD τ).loc main_arg8) := (keep4_arg8 m ρ c).trans (arg8_at3 m ρ c)

theorem keep1_arg9 (c : Dev nD) : W1 m ρ c (Proc.devRef .tc main_arg9) = W0 m ρ c (Proc.devRef .tc main_arg9) := by
  show StableHlo.after hostOps0 (W0 m ρ c) (Proc.devRef .tc main_arg9) = _
  host_keeps hostOps0
theorem keep2_arg9 (c : Dev nD) : W2 m ρ c (Proc.devRef .tc main_arg9) = W1 m ρ c (Proc.devRef .tc main_arg9) := W2_of_ne m ρ c main_arg9 (by decide)
theorem keep3_arg9 (c : Dev nD) : W3 m ρ c (Proc.devRef .tc main_arg9) = W2 m ρ c (Proc.devRef .tc main_arg9) := by
  show StableHlo.after hostOps1 (W2 m ρ c) (Proc.devRef .tc main_arg9) = _
  host_keeps hostOps1
theorem keep4_arg9 (c : Dev nD) : W4 m ρ c (Proc.devRef .tc main_arg9) = W3 m ρ c (Proc.devRef .tc main_arg9) := W4_of_ne m ρ c main_arg9 (by decide)
theorem keep5_arg9 (c : Dev nD) : W5 m ρ c (Proc.devRef .tc main_arg9) = W4 m ρ c (Proc.devRef .tc main_arg9) := by
  show StableHlo.after hostOps2 (W4 m ρ c) (Proc.devRef .tc main_arg9) = _
  host_keeps hostOps2
theorem keep6_arg9 (c : Dev nD) : W6 m ρ c (Proc.devRef .tc main_arg9) = W5 m ρ c (Proc.devRef .tc main_arg9) := W6_of_ne m ρ c main_arg9 (by decide)
theorem keep7_arg9 (c : Dev nD) : W7 m ρ c (Proc.devRef .tc main_arg9) = W6 m ρ c (Proc.devRef .tc main_arg9) := by
  show StableHlo.after hostOps3 (W6 m ρ c) (Proc.devRef .tc main_arg9) = _
  host_keeps hostOps3
theorem keep8_arg9 (c : Dev nD) : W8 m ρ c (Proc.devRef .tc main_arg9) = W7 m ρ c (Proc.devRef .tc main_arg9) := W8_of_ne m ρ c main_arg9 (by decide)
theorem keep9_arg9 (c : Dev nD) : W9 m ρ c (Proc.devRef .tc main_arg9) = W8 m ρ c (Proc.devRef .tc main_arg9) := by
  show StableHlo.after hostOps4 (W8 m ρ c) (Proc.devRef .tc main_arg9) = _
  host_keeps hostOps4
theorem arg9_at1 (c : Dev nD) : W1 m ρ c (Proc.devRef .tc main_arg9) = m ((c : Thread nD τ).loc main_arg9) := (keep1_arg9 m ρ c).trans rfl
theorem arg9_at2 (c : Dev nD) : W2 m ρ c (Proc.devRef .tc main_arg9) = m ((c : Thread nD τ).loc main_arg9) := (keep2_arg9 m ρ c).trans (arg9_at1 m ρ c)
theorem arg9_at3 (c : Dev nD) : W3 m ρ c (Proc.devRef .tc main_arg9) = m ((c : Thread nD τ).loc main_arg9) := (keep3_arg9 m ρ c).trans (arg9_at2 m ρ c)
theorem arg9_at4 (c : Dev nD) : W4 m ρ c (Proc.devRef .tc main_arg9) = m ((c : Thread nD τ).loc main_arg9) := (keep4_arg9 m ρ c).trans (arg9_at3 m ρ c)
theorem arg9_at5 (c : Dev nD) : W5 m ρ c (Proc.devRef .tc main_arg9) = m ((c : Thread nD τ).loc main_arg9) := (keep5_arg9 m ρ c).trans (arg9_at4 m ρ c)
theorem arg9_at6 (c : Dev nD) : W6 m ρ c (Proc.devRef .tc main_arg9) = m ((c : Thread nD τ).loc main_arg9) := (keep6_arg9 m ρ c).trans (arg9_at5 m ρ c)
theorem arg9_at7 (c : Dev nD) : W7 m ρ c (Proc.devRef .tc main_arg9) = m ((c : Thread nD τ).loc main_arg9) := (keep7_arg9 m ρ c).trans (arg9_at6 m ρ c)
theorem arg9_at8 (c : Dev nD) : W8 m ρ c (Proc.devRef .tc main_arg9) = m ((c : Thread nD τ).loc main_arg9) := (keep8_arg9 m ρ c).trans (arg9_at7 m ρ c)
theorem arg9_at9 (c : Dev nD) : W9 m ρ c (Proc.devRef .tc main_arg9) = m ((c : Thread nD τ).loc main_arg9) := (keep9_arg9 m ρ c).trans (arg9_at8 m ρ c)

theorem keep1_arg10 (c : Dev nD) : W1 m ρ c (Proc.devRef .tc main_arg10) = W0 m ρ c (Proc.devRef .tc main_arg10) := by
  show StableHlo.after hostOps0 (W0 m ρ c) (Proc.devRef .tc main_arg10) = _
  host_keeps hostOps0
theorem keep2_arg10 (c : Dev nD) : W2 m ρ c (Proc.devRef .tc main_arg10) = W1 m ρ c (Proc.devRef .tc main_arg10) := W2_of_ne m ρ c main_arg10 (by decide)
theorem keep3_arg10 (c : Dev nD) : W3 m ρ c (Proc.devRef .tc main_arg10) = W2 m ρ c (Proc.devRef .tc main_arg10) := by
  show StableHlo.after hostOps1 (W2 m ρ c) (Proc.devRef .tc main_arg10) = _
  host_keeps hostOps1
theorem keep4_arg10 (c : Dev nD) : W4 m ρ c (Proc.devRef .tc main_arg10) = W3 m ρ c (Proc.devRef .tc main_arg10) := W4_of_ne m ρ c main_arg10 (by decide)
theorem keep5_arg10 (c : Dev nD) : W5 m ρ c (Proc.devRef .tc main_arg10) = W4 m ρ c (Proc.devRef .tc main_arg10) := by
  show StableHlo.after hostOps2 (W4 m ρ c) (Proc.devRef .tc main_arg10) = _
  host_keeps hostOps2
theorem keep6_arg10 (c : Dev nD) : W6 m ρ c (Proc.devRef .tc main_arg10) = W5 m ρ c (Proc.devRef .tc main_arg10) := W6_of_ne m ρ c main_arg10 (by decide)
theorem keep7_arg10 (c : Dev nD) : W7 m ρ c (Proc.devRef .tc main_arg10) = W6 m ρ c (Proc.devRef .tc main_arg10) := by
  show StableHlo.after hostOps3 (W6 m ρ c) (Proc.devRef .tc main_arg10) = _
  host_keeps hostOps3
theorem keep8_arg10 (c : Dev nD) : W8 m ρ c (Proc.devRef .tc main_arg10) = W7 m ρ c (Proc.devRef .tc main_arg10) := W8_of_ne m ρ c main_arg10 (by decide)
theorem arg10_at1 (c : Dev nD) : W1 m ρ c (Proc.devRef .tc main_arg10) = m ((c : Thread nD τ).loc main_arg10) := (keep1_arg10 m ρ c).trans rfl
theorem arg10_at2 (c : Dev nD) : W2 m ρ c (Proc.devRef .tc main_arg10) = m ((c : Thread nD τ).loc main_arg10) := (keep2_arg10 m ρ c).trans (arg10_at1 m ρ c)
theorem arg10_at3 (c : Dev nD) : W3 m ρ c (Proc.devRef .tc main_arg10) = m ((c : Thread nD τ).loc main_arg10) := (keep3_arg10 m ρ c).trans (arg10_at2 m ρ c)
theorem arg10_at4 (c : Dev nD) : W4 m ρ c (Proc.devRef .tc main_arg10) = m ((c : Thread nD τ).loc main_arg10) := (keep4_arg10 m ρ c).trans (arg10_at3 m ρ c)
theorem arg10_at5 (c : Dev nD) : W5 m ρ c (Proc.devRef .tc main_arg10) = m ((c : Thread nD τ).loc main_arg10) := (keep5_arg10 m ρ c).trans (arg10_at4 m ρ c)
theorem arg10_at6 (c : Dev nD) : W6 m ρ c (Proc.devRef .tc main_arg10) = m ((c : Thread nD τ).loc main_arg10) := (keep6_arg10 m ρ c).trans (arg10_at5 m ρ c)
theorem arg10_at7 (c : Dev nD) : W7 m ρ c (Proc.devRef .tc main_arg10) = m ((c : Thread nD τ).loc main_arg10) := (keep7_arg10 m ρ c).trans (arg10_at6 m ρ c)
theorem arg10_at8 (c : Dev nD) : W8 m ρ c (Proc.devRef .tc main_arg10) = m ((c : Thread nD τ).loc main_arg10) := (keep8_arg10 m ρ c).trans (arg10_at7 m ρ c)

theorem keep1_arg11 (c : Dev nD) : W1 m ρ c (Proc.devRef .tc main_arg11) = W0 m ρ c (Proc.devRef .tc main_arg11) := by
  show StableHlo.after hostOps0 (W0 m ρ c) (Proc.devRef .tc main_arg11) = _
  host_keeps hostOps0
theorem keep2_arg11 (c : Dev nD) : W2 m ρ c (Proc.devRef .tc main_arg11) = W1 m ρ c (Proc.devRef .tc main_arg11) := W2_of_ne m ρ c main_arg11 (by decide)
theorem keep3_arg11 (c : Dev nD) : W3 m ρ c (Proc.devRef .tc main_arg11) = W2 m ρ c (Proc.devRef .tc main_arg11) := by
  show StableHlo.after hostOps1 (W2 m ρ c) (Proc.devRef .tc main_arg11) = _
  host_keeps hostOps1
theorem keep4_arg11 (c : Dev nD) : W4 m ρ c (Proc.devRef .tc main_arg11) = W3 m ρ c (Proc.devRef .tc main_arg11) := W4_of_ne m ρ c main_arg11 (by decide)
theorem keep5_arg11 (c : Dev nD) : W5 m ρ c (Proc.devRef .tc main_arg11) = W4 m ρ c (Proc.devRef .tc main_arg11) := by
  show StableHlo.after hostOps2 (W4 m ρ c) (Proc.devRef .tc main_arg11) = _
  host_keeps hostOps2
theorem keep6_arg11 (c : Dev nD) : W6 m ρ c (Proc.devRef .tc main_arg11) = W5 m ρ c (Proc.devRef .tc main_arg11) := W6_of_ne m ρ c main_arg11 (by decide)
theorem keep7_arg11 (c : Dev nD) : W7 m ρ c (Proc.devRef .tc main_arg11) = W6 m ρ c (Proc.devRef .tc main_arg11) := by
  show StableHlo.after hostOps3 (W6 m ρ c) (Proc.devRef .tc main_arg11) = _
  host_keeps hostOps3
theorem keep8_arg11 (c : Dev nD) : W8 m ρ c (Proc.devRef .tc main_arg11) = W7 m ρ c (Proc.devRef .tc main_arg11) := W8_of_ne m ρ c main_arg11 (by decide)
theorem keep9_arg11 (c : Dev nD) : W9 m ρ c (Proc.devRef .tc main_arg11) = W8 m ρ c (Proc.devRef .tc main_arg11) := by
  show StableHlo.after hostOps4 (W8 m ρ c) (Proc.devRef .tc main_arg11) = _
  host_keeps hostOps4
theorem keep10_arg11 (c : Dev nD) : W10 m ρ c (Proc.devRef .tc main_arg11) = W9 m ρ c (Proc.devRef .tc main_arg11) := W10_of_ne m ρ c main_arg11 (by decide)
theorem keep11_arg11 (c : Dev nD) : W11 m ρ c (Proc.devRef .tc main_arg11) = W10 m ρ c (Proc.devRef .tc main_arg11) := by
  show StableHlo.after hostOps5 (W10 m ρ c) (Proc.devRef .tc main_arg11) = _
  host_keeps hostOps5
theorem arg11_at1 (c : Dev nD) : W1 m ρ c (Proc.devRef .tc main_arg11) = m ((c : Thread nD τ).loc main_arg11) := (keep1_arg11 m ρ c).trans rfl
theorem arg11_at2 (c : Dev nD) : W2 m ρ c (Proc.devRef .tc main_arg11) = m ((c : Thread nD τ).loc main_arg11) := (keep2_arg11 m ρ c).trans (arg11_at1 m ρ c)
theorem arg11_at3 (c : Dev nD) : W3 m ρ c (Proc.devRef .tc main_arg11) = m ((c : Thread nD τ).loc main_arg11) := (keep3_arg11 m ρ c).trans (arg11_at2 m ρ c)
theorem arg11_at4 (c : Dev nD) : W4 m ρ c (Proc.devRef .tc main_arg11) = m ((c : Thread nD τ).loc main_arg11) := (keep4_arg11 m ρ c).trans (arg11_at3 m ρ c)
theorem arg11_at5 (c : Dev nD) : W5 m ρ c (Proc.devRef .tc main_arg11) = m ((c : Thread nD τ).loc main_arg11) := (keep5_arg11 m ρ c).trans (arg11_at4 m ρ c)
theorem arg11_at6 (c : Dev nD) : W6 m ρ c (Proc.devRef .tc main_arg11) = m ((c : Thread nD τ).loc main_arg11) := (keep6_arg11 m ρ c).trans (arg11_at5 m ρ c)
theorem arg11_at7 (c : Dev nD) : W7 m ρ c (Proc.devRef .tc main_arg11) = m ((c : Thread nD τ).loc main_arg11) := (keep7_arg11 m ρ c).trans (arg11_at6 m ρ c)
theorem arg11_at8 (c : Dev nD) : W8 m ρ c (Proc.devRef .tc main_arg11) = m ((c : Thread nD τ).loc main_arg11) := (keep8_arg11 m ρ c).trans (arg11_at7 m ρ c)
theorem arg11_at9 (c : Dev nD) : W9 m ρ c (Proc.devRef .tc main_arg11) = m ((c : Thread nD τ).loc main_arg11) := (keep9_arg11 m ρ c).trans (arg11_at8 m ρ c)
theorem arg11_at10 (c : Dev nD) : W10 m ρ c (Proc.devRef .tc main_arg11) = m ((c : Thread nD τ).loc main_arg11) := (keep10_arg11 m ρ c).trans (arg11_at9 m ρ c)
theorem arg11_at11 (c : Dev nD) : W11 m ρ c (Proc.devRef .tc main_arg11) = m ((c : Thread nD τ).loc main_arg11) := (keep11_arg11 m ρ c).trans (arg11_at10 m ρ c)

theorem keep1_arg12 (c : Dev nD) : W1 m ρ c (Proc.devRef .tc main_arg12) = W0 m ρ c (Proc.devRef .tc main_arg12) := by
  show StableHlo.after hostOps0 (W0 m ρ c) (Proc.devRef .tc main_arg12) = _
  host_keeps hostOps0
theorem keep2_arg12 (c : Dev nD) : W2 m ρ c (Proc.devRef .tc main_arg12) = W1 m ρ c (Proc.devRef .tc main_arg12) := W2_of_ne m ρ c main_arg12 (by decide)
theorem keep3_arg12 (c : Dev nD) : W3 m ρ c (Proc.devRef .tc main_arg12) = W2 m ρ c (Proc.devRef .tc main_arg12) := by
  show StableHlo.after hostOps1 (W2 m ρ c) (Proc.devRef .tc main_arg12) = _
  host_keeps hostOps1
theorem keep4_arg12 (c : Dev nD) : W4 m ρ c (Proc.devRef .tc main_arg12) = W3 m ρ c (Proc.devRef .tc main_arg12) := W4_of_ne m ρ c main_arg12 (by decide)
theorem keep5_arg12 (c : Dev nD) : W5 m ρ c (Proc.devRef .tc main_arg12) = W4 m ρ c (Proc.devRef .tc main_arg12) := by
  show StableHlo.after hostOps2 (W4 m ρ c) (Proc.devRef .tc main_arg12) = _
  host_keeps hostOps2
theorem keep6_arg12 (c : Dev nD) : W6 m ρ c (Proc.devRef .tc main_arg12) = W5 m ρ c (Proc.devRef .tc main_arg12) := W6_of_ne m ρ c main_arg12 (by decide)
theorem keep7_arg12 (c : Dev nD) : W7 m ρ c (Proc.devRef .tc main_arg12) = W6 m ρ c (Proc.devRef .tc main_arg12) := by
  show StableHlo.after hostOps3 (W6 m ρ c) (Proc.devRef .tc main_arg12) = _
  host_keeps hostOps3
theorem keep8_arg12 (c : Dev nD) : W8 m ρ c (Proc.devRef .tc main_arg12) = W7 m ρ c (Proc.devRef .tc main_arg12) := W8_of_ne m ρ c main_arg12 (by decide)
theorem keep9_arg12 (c : Dev nD) : W9 m ρ c (Proc.devRef .tc main_arg12) = W8 m ρ c (Proc.devRef .tc main_arg12) := by
  show StableHlo.after hostOps4 (W8 m ρ c) (Proc.devRef .tc main_arg12) = _
  host_keeps hostOps4
theorem keep10_arg12 (c : Dev nD) : W10 m ρ c (Proc.devRef .tc main_arg12) = W9 m ρ c (Proc.devRef .tc main_arg12) := W10_of_ne m ρ c main_arg12 (by decide)
theorem arg12_at1 (c : Dev nD) : W1 m ρ c (Proc.devRef .tc main_arg12) = m ((c : Thread nD τ).loc main_arg12) := (keep1_arg12 m ρ c).trans rfl
theorem arg12_at2 (c : Dev nD) : W2 m ρ c (Proc.devRef .tc main_arg12) = m ((c : Thread nD τ).loc main_arg12) := (keep2_arg12 m ρ c).trans (arg12_at1 m ρ c)
theorem arg12_at3 (c : Dev nD) : W3 m ρ c (Proc.devRef .tc main_arg12) = m ((c : Thread nD τ).loc main_arg12) := (keep3_arg12 m ρ c).trans (arg12_at2 m ρ c)
theorem arg12_at4 (c : Dev nD) : W4 m ρ c (Proc.devRef .tc main_arg12) = m ((c : Thread nD τ).loc main_arg12) := (keep4_arg12 m ρ c).trans (arg12_at3 m ρ c)
theorem arg12_at5 (c : Dev nD) : W5 m ρ c (Proc.devRef .tc main_arg12) = m ((c : Thread nD τ).loc main_arg12) := (keep5_arg12 m ρ c).trans (arg12_at4 m ρ c)
theorem arg12_at6 (c : Dev nD) : W6 m ρ c (Proc.devRef .tc main_arg12) = m ((c : Thread nD τ).loc main_arg12) := (keep6_arg12 m ρ c).trans (arg12_at5 m ρ c)
theorem arg12_at7 (c : Dev nD) : W7 m ρ c (Proc.devRef .tc main_arg12) = m ((c : Thread nD τ).loc main_arg12) := (keep7_arg12 m ρ c).trans (arg12_at6 m ρ c)
theorem arg12_at8 (c : Dev nD) : W8 m ρ c (Proc.devRef .tc main_arg12) = m ((c : Thread nD τ).loc main_arg12) := (keep8_arg12 m ρ c).trans (arg12_at7 m ρ c)
theorem arg12_at9 (c : Dev nD) : W9 m ρ c (Proc.devRef .tc main_arg12) = m ((c : Thread nD τ).loc main_arg12) := (keep9_arg12 m ρ c).trans (arg12_at8 m ρ c)
theorem arg12_at10 (c : Dev nD) : W10 m ρ c (Proc.devRef .tc main_arg12) = m ((c : Thread nD τ).loc main_arg12) := (keep10_arg12 m ρ c).trans (arg12_at9 m ρ c)

theorem keep1_arg13 (c : Dev nD) : W1 m ρ c (Proc.devRef .tc main_arg13) = W0 m ρ c (Proc.devRef .tc main_arg13) := by
  show StableHlo.after hostOps0 (W0 m ρ c) (Proc.devRef .tc main_arg13) = _
  host_keeps hostOps0
theorem keep2_arg13 (c : Dev nD) : W2 m ρ c (Proc.devRef .tc main_arg13) = W1 m ρ c (Proc.devRef .tc main_arg13) := W2_of_ne m ρ c main_arg13 (by decide)
theorem keep3_arg13 (c : Dev nD) : W3 m ρ c (Proc.devRef .tc main_arg13) = W2 m ρ c (Proc.devRef .tc main_arg13) := by
  show StableHlo.after hostOps1 (W2 m ρ c) (Proc.devRef .tc main_arg13) = _
  host_keeps hostOps1
theorem keep4_arg13 (c : Dev nD) : W4 m ρ c (Proc.devRef .tc main_arg13) = W3 m ρ c (Proc.devRef .tc main_arg13) := W4_of_ne m ρ c main_arg13 (by decide)
theorem keep5_arg13 (c : Dev nD) : W5 m ρ c (Proc.devRef .tc main_arg13) = W4 m ρ c (Proc.devRef .tc main_arg13) := by
  show StableHlo.after hostOps2 (W4 m ρ c) (Proc.devRef .tc main_arg13) = _
  host_keeps hostOps2
theorem keep6_arg13 (c : Dev nD) : W6 m ρ c (Proc.devRef .tc main_arg13) = W5 m ρ c (Proc.devRef .tc main_arg13) := W6_of_ne m ρ c main_arg13 (by decide)
theorem keep7_arg13 (c : Dev nD) : W7 m ρ c (Proc.devRef .tc main_arg13) = W6 m ρ c (Proc.devRef .tc main_arg13) := by
  show StableHlo.after hostOps3 (W6 m ρ c) (Proc.devRef .tc main_arg13) = _
  host_keeps hostOps3
theorem keep8_arg13 (c : Dev nD) : W8 m ρ c (Proc.devRef .tc main_arg13) = W7 m ρ c (Proc.devRef .tc main_arg13) := W8_of_ne m ρ c main_arg13 (by decide)
theorem keep9_arg13 (c : Dev nD) : W9 m ρ c (Proc.devRef .tc main_arg13) = W8 m ρ c (Proc.devRef .tc main_arg13) := by
  show StableHlo.after hostOps4 (W8 m ρ c) (Proc.devRef .tc main_arg13) = _
  host_keeps hostOps4
theorem keep10_arg13 (c : Dev nD) : W10 m ρ c (Proc.devRef .tc main_arg13) = W9 m ρ c (Proc.devRef .tc main_arg13) := W10_of_ne m ρ c main_arg13 (by decide)
theorem keep11_arg13 (c : Dev nD) : W11 m ρ c (Proc.devRef .tc main_arg13) = W10 m ρ c (Proc.devRef .tc main_arg13) := by
  show StableHlo.after hostOps5 (W10 m ρ c) (Proc.devRef .tc main_arg13) = _
  host_keeps hostOps5
theorem arg13_at1 (c : Dev nD) : W1 m ρ c (Proc.devRef .tc main_arg13) = m ((c : Thread nD τ).loc main_arg13) := (keep1_arg13 m ρ c).trans rfl
theorem arg13_at2 (c : Dev nD) : W2 m ρ c (Proc.devRef .tc main_arg13) = m ((c : Thread nD τ).loc main_arg13) := (keep2_arg13 m ρ c).trans (arg13_at1 m ρ c)
theorem arg13_at3 (c : Dev nD) : W3 m ρ c (Proc.devRef .tc main_arg13) = m ((c : Thread nD τ).loc main_arg13) := (keep3_arg13 m ρ c).trans (arg13_at2 m ρ c)
theorem arg13_at4 (c : Dev nD) : W4 m ρ c (Proc.devRef .tc main_arg13) = m ((c : Thread nD τ).loc main_arg13) := (keep4_arg13 m ρ c).trans (arg13_at3 m ρ c)
theorem arg13_at5 (c : Dev nD) : W5 m ρ c (Proc.devRef .tc main_arg13) = m ((c : Thread nD τ).loc main_arg13) := (keep5_arg13 m ρ c).trans (arg13_at4 m ρ c)
theorem arg13_at6 (c : Dev nD) : W6 m ρ c (Proc.devRef .tc main_arg13) = m ((c : Thread nD τ).loc main_arg13) := (keep6_arg13 m ρ c).trans (arg13_at5 m ρ c)
theorem arg13_at7 (c : Dev nD) : W7 m ρ c (Proc.devRef .tc main_arg13) = m ((c : Thread nD τ).loc main_arg13) := (keep7_arg13 m ρ c).trans (arg13_at6 m ρ c)
theorem arg13_at8 (c : Dev nD) : W8 m ρ c (Proc.devRef .tc main_arg13) = m ((c : Thread nD τ).loc main_arg13) := (keep8_arg13 m ρ c).trans (arg13_at7 m ρ c)
theorem arg13_at9 (c : Dev nD) : W9 m ρ c (Proc.devRef .tc main_arg13) = m ((c : Thread nD τ).loc main_arg13) := (keep9_arg13 m ρ c).trans (arg13_at8 m ρ c)
theorem arg13_at10 (c : Dev nD) : W10 m ρ c (Proc.devRef .tc main_arg13) = m ((c : Thread nD τ).loc main_arg13) := (keep10_arg13 m ρ c).trans (arg13_at9 m ρ c)
theorem arg13_at11 (c : Dev nD) : W11 m ρ c (Proc.devRef .tc main_arg13) = m ((c : Thread nD τ).loc main_arg13) := (keep11_arg13 m ρ c).trans (arg13_at10 m ρ c)

theorem keep1_arg14 (c : Dev nD) : W1 m ρ c (Proc.devRef .tc main_arg14) = W0 m ρ c (Proc.devRef .tc main_arg14) := by
  show StableHlo.after hostOps0 (W0 m ρ c) (Proc.devRef .tc main_arg14) = _
  host_keeps hostOps0
theorem keep2_arg14 (c : Dev nD) : W2 m ρ c (Proc.devRef .tc main_arg14) = W1 m ρ c (Proc.devRef .tc main_arg14) := W2_of_ne m ρ c main_arg14 (by decide)
theorem keep3_arg14 (c : Dev nD) : W3 m ρ c (Proc.devRef .tc main_arg14) = W2 m ρ c (Proc.devRef .tc main_arg14) := by
  show StableHlo.after hostOps1 (W2 m ρ c) (Proc.devRef .tc main_arg14) = _
  host_keeps hostOps1
theorem keep4_arg14 (c : Dev nD) : W4 m ρ c (Proc.devRef .tc main_arg14) = W3 m ρ c (Proc.devRef .tc main_arg14) := W4_of_ne m ρ c main_arg14 (by decide)
theorem keep5_arg14 (c : Dev nD) : W5 m ρ c (Proc.devRef .tc main_arg14) = W4 m ρ c (Proc.devRef .tc main_arg14) := by
  show StableHlo.after hostOps2 (W4 m ρ c) (Proc.devRef .tc main_arg14) = _
  host_keeps hostOps2
theorem keep6_arg14 (c : Dev nD) : W6 m ρ c (Proc.devRef .tc main_arg14) = W5 m ρ c (Proc.devRef .tc main_arg14) := W6_of_ne m ρ c main_arg14 (by decide)
theorem keep7_arg14 (c : Dev nD) : W7 m ρ c (Proc.devRef .tc main_arg14) = W6 m ρ c (Proc.devRef .tc main_arg14) := by
  show StableHlo.after hostOps3 (W6 m ρ c) (Proc.devRef .tc main_arg14) = _
  host_keeps hostOps3
theorem keep8_arg14 (c : Dev nD) : W8 m ρ c (Proc.devRef .tc main_arg14) = W7 m ρ c (Proc.devRef .tc main_arg14) := W8_of_ne m ρ c main_arg14 (by decide)
theorem keep9_arg14 (c : Dev nD) : W9 m ρ c (Proc.devRef .tc main_arg14) = W8 m ρ c (Proc.devRef .tc main_arg14) := by
  show StableHlo.after hostOps4 (W8 m ρ c) (Proc.devRef .tc main_arg14) = _
  host_keeps hostOps4
theorem keep10_arg14 (c : Dev nD) : W10 m ρ c (Proc.devRef .tc main_arg14) = W9 m ρ c (Proc.devRef .tc main_arg14) := W10_of_ne m ρ c main_arg14 (by decide)
theorem keep11_arg14 (c : Dev nD) : W11 m ρ c (Proc.devRef .tc main_arg14) = W10 m ρ c (Proc.devRef .tc main_arg14) := by
  show StableHlo.after hostOps5 (W10 m ρ c) (Proc.devRef .tc main_arg14) = _
  host_keeps hostOps5
theorem arg14_at1 (c : Dev nD) : W1 m ρ c (Proc.devRef .tc main_arg14) = m ((c : Thread nD τ).loc main_arg14) := (keep1_arg14 m ρ c).trans rfl
theorem arg14_at2 (c : Dev nD) : W2 m ρ c (Proc.devRef .tc main_arg14) = m ((c : Thread nD τ).loc main_arg14) := (keep2_arg14 m ρ c).trans (arg14_at1 m ρ c)
theorem arg14_at3 (c : Dev nD) : W3 m ρ c (Proc.devRef .tc main_arg14) = m ((c : Thread nD τ).loc main_arg14) := (keep3_arg14 m ρ c).trans (arg14_at2 m ρ c)
theorem arg14_at4 (c : Dev nD) : W4 m ρ c (Proc.devRef .tc main_arg14) = m ((c : Thread nD τ).loc main_arg14) := (keep4_arg14 m ρ c).trans (arg14_at3 m ρ c)
theorem arg14_at5 (c : Dev nD) : W5 m ρ c (Proc.devRef .tc main_arg14) = m ((c : Thread nD τ).loc main_arg14) := (keep5_arg14 m ρ c).trans (arg14_at4 m ρ c)
theorem arg14_at6 (c : Dev nD) : W6 m ρ c (Proc.devRef .tc main_arg14) = m ((c : Thread nD τ).loc main_arg14) := (keep6_arg14 m ρ c).trans (arg14_at5 m ρ c)
theorem arg14_at7 (c : Dev nD) : W7 m ρ c (Proc.devRef .tc main_arg14) = m ((c : Thread nD τ).loc main_arg14) := (keep7_arg14 m ρ c).trans (arg14_at6 m ρ c)
theorem arg14_at8 (c : Dev nD) : W8 m ρ c (Proc.devRef .tc main_arg14) = m ((c : Thread nD τ).loc main_arg14) := (keep8_arg14 m ρ c).trans (arg14_at7 m ρ c)
theorem arg14_at9 (c : Dev nD) : W9 m ρ c (Proc.devRef .tc main_arg14) = m ((c : Thread nD τ).loc main_arg14) := (keep9_arg14 m ρ c).trans (arg14_at8 m ρ c)
theorem arg14_at10 (c : Dev nD) : W10 m ρ c (Proc.devRef .tc main_arg14) = m ((c : Thread nD τ).loc main_arg14) := (keep10_arg14 m ρ c).trans (arg14_at9 m ρ c)
theorem arg14_at11 (c : Dev nD) : W11 m ρ c (Proc.devRef .tc main_arg14) = m ((c : Thread nD τ).loc main_arg14) := (keep11_arg14 m ρ c).trans (arg14_at10 m ρ c)

theorem keep1_arg15 (c : Dev nD) : W1 m ρ c (Proc.devRef .tc main_arg15) = W0 m ρ c (Proc.devRef .tc main_arg15) := by
  show StableHlo.after hostOps0 (W0 m ρ c) (Proc.devRef .tc main_arg15) = _
  host_keeps hostOps0
theorem keep2_arg15 (c : Dev nD) : W2 m ρ c (Proc.devRef .tc main_arg15) = W1 m ρ c (Proc.devRef .tc main_arg15) := W2_of_ne m ρ c main_arg15 (by decide)
theorem keep3_arg15 (c : Dev nD) : W3 m ρ c (Proc.devRef .tc main_arg15) = W2 m ρ c (Proc.devRef .tc main_arg15) := by
  show StableHlo.after hostOps1 (W2 m ρ c) (Proc.devRef .tc main_arg15) = _
  host_keeps hostOps1
theorem keep4_arg15 (c : Dev nD) : W4 m ρ c (Proc.devRef .tc main_arg15) = W3 m ρ c (Proc.devRef .tc main_arg15) := W4_of_ne m ρ c main_arg15 (by decide)
theorem keep5_arg15 (c : Dev nD) : W5 m ρ c (Proc.devRef .tc main_arg15) = W4 m ρ c (Proc.devRef .tc main_arg15) := by
  show StableHlo.after hostOps2 (W4 m ρ c) (Proc.devRef .tc main_arg15) = _
  host_keeps hostOps2
theorem keep6_arg15 (c : Dev nD) : W6 m ρ c (Proc.devRef .tc main_arg15) = W5 m ρ c (Proc.devRef .tc main_arg15) := W6_of_ne m ρ c main_arg15 (by decide)
theorem keep7_arg15 (c : Dev nD) : W7 m ρ c (Proc.devRef .tc main_arg15) = W6 m ρ c (Proc.devRef .tc main_arg15) := by
  show StableHlo.after hostOps3 (W6 m ρ c) (Proc.devRef .tc main_arg15) = _
  host_keeps hostOps3
theorem keep8_arg15 (c : Dev nD) : W8 m ρ c (Proc.devRef .tc main_arg15) = W7 m ρ c (Proc.devRef .tc main_arg15) := W8_of_ne m ρ c main_arg15 (by decide)
theorem keep9_arg15 (c : Dev nD) : W9 m ρ c (Proc.devRef .tc main_arg15) = W8 m ρ c (Proc.devRef .tc main_arg15) := by
  show StableHlo.after hostOps4 (W8 m ρ c) (Proc.devRef .tc main_arg15) = _
  host_keeps hostOps4
theorem keep10_arg15 (c : Dev nD) : W10 m ρ c (Proc.devRef .tc main_arg15) = W9 m ρ c (Proc.devRef .tc main_arg15) := W10_of_ne m ρ c main_arg15 (by decide)
theorem arg15_at1 (c : Dev nD) : W1 m ρ c (Proc.devRef .tc main_arg15) = m ((c : Thread nD τ).loc main_arg15) := (keep1_arg15 m ρ c).trans rfl
theorem arg15_at2 (c : Dev nD) : W2 m ρ c (Proc.devRef .tc main_arg15) = m ((c : Thread nD τ).loc main_arg15) := (keep2_arg15 m ρ c).trans (arg15_at1 m ρ c)
theorem arg15_at3 (c : Dev nD) : W3 m ρ c (Proc.devRef .tc main_arg15) = m ((c : Thread nD τ).loc main_arg15) := (keep3_arg15 m ρ c).trans (arg15_at2 m ρ c)
theorem arg15_at4 (c : Dev nD) : W4 m ρ c (Proc.devRef .tc main_arg15) = m ((c : Thread nD τ).loc main_arg15) := (keep4_arg15 m ρ c).trans (arg15_at3 m ρ c)
theorem arg15_at5 (c : Dev nD) : W5 m ρ c (Proc.devRef .tc main_arg15) = m ((c : Thread nD τ).loc main_arg15) := (keep5_arg15 m ρ c).trans (arg15_at4 m ρ c)
theorem arg15_at6 (c : Dev nD) : W6 m ρ c (Proc.devRef .tc main_arg15) = m ((c : Thread nD τ).loc main_arg15) := (keep6_arg15 m ρ c).trans (arg15_at5 m ρ c)
theorem arg15_at7 (c : Dev nD) : W7 m ρ c (Proc.devRef .tc main_arg15) = m ((c : Thread nD τ).loc main_arg15) := (keep7_arg15 m ρ c).trans (arg15_at6 m ρ c)
theorem arg15_at8 (c : Dev nD) : W8 m ρ c (Proc.devRef .tc main_arg15) = m ((c : Thread nD τ).loc main_arg15) := (keep8_arg15 m ρ c).trans (arg15_at7 m ρ c)
theorem arg15_at9 (c : Dev nD) : W9 m ρ c (Proc.devRef .tc main_arg15) = m ((c : Thread nD τ).loc main_arg15) := (keep9_arg15 m ρ c).trans (arg15_at8 m ρ c)
theorem arg15_at10 (c : Dev nD) : W10 m ρ c (Proc.devRef .tc main_arg15) = m ((c : Thread nD τ).loc main_arg15) := (keep10_arg15 m ρ c).trans (arg15_at9 m ρ c)

theorem keep1_arg16 (c : Dev nD) : W1 m ρ c (Proc.devRef .tc main_arg16) = W0 m ρ c (Proc.devRef .tc main_arg16) := by
  show StableHlo.after hostOps0 (W0 m ρ c) (Proc.devRef .tc main_arg16) = _
  host_keeps hostOps0
theorem keep2_arg16 (c : Dev nD) : W2 m ρ c (Proc.devRef .tc main_arg16) = W1 m ρ c (Proc.devRef .tc main_arg16) := W2_of_ne m ρ c main_arg16 (by decide)
theorem keep3_arg16 (c : Dev nD) : W3 m ρ c (Proc.devRef .tc main_arg16) = W2 m ρ c (Proc.devRef .tc main_arg16) := by
  show StableHlo.after hostOps1 (W2 m ρ c) (Proc.devRef .tc main_arg16) = _
  host_keeps hostOps1
theorem keep4_arg16 (c : Dev nD) : W4 m ρ c (Proc.devRef .tc main_arg16) = W3 m ρ c (Proc.devRef .tc main_arg16) := W4_of_ne m ρ c main_arg16 (by decide)
theorem keep5_arg16 (c : Dev nD) : W5 m ρ c (Proc.devRef .tc main_arg16) = W4 m ρ c (Proc.devRef .tc main_arg16) := by
  show StableHlo.after hostOps2 (W4 m ρ c) (Proc.devRef .tc main_arg16) = _
  host_keeps hostOps2
theorem keep6_arg16 (c : Dev nD) : W6 m ρ c (Proc.devRef .tc main_arg16) = W5 m ρ c (Proc.devRef .tc main_arg16) := W6_of_ne m ρ c main_arg16 (by decide)
theorem keep7_arg16 (c : Dev nD) : W7 m ρ c (Proc.devRef .tc main_arg16) = W6 m ρ c (Proc.devRef .tc main_arg16) := by
  show StableHlo.after hostOps3 (W6 m ρ c) (Proc.devRef .tc main_arg16) = _
  host_keeps hostOps3
theorem keep8_arg16 (c : Dev nD) : W8 m ρ c (Proc.devRef .tc main_arg16) = W7 m ρ c (Proc.devRef .tc main_arg16) := W8_of_ne m ρ c main_arg16 (by decide)
theorem arg16_at1 (c : Dev nD) : W1 m ρ c (Proc.devRef .tc main_arg16) = m ((c : Thread nD τ).loc main_arg16) := (keep1_arg16 m ρ c).trans rfl
theorem arg16_at2 (c : Dev nD) : W2 m ρ c (Proc.devRef .tc main_arg16) = m ((c : Thread nD τ).loc main_arg16) := (keep2_arg16 m ρ c).trans (arg16_at1 m ρ c)
theorem arg16_at3 (c : Dev nD) : W3 m ρ c (Proc.devRef .tc main_arg16) = m ((c : Thread nD τ).loc main_arg16) := (keep3_arg16 m ρ c).trans (arg16_at2 m ρ c)
theorem arg16_at4 (c : Dev nD) : W4 m ρ c (Proc.devRef .tc main_arg16) = m ((c : Thread nD τ).loc main_arg16) := (keep4_arg16 m ρ c).trans (arg16_at3 m ρ c)
theorem arg16_at5 (c : Dev nD) : W5 m ρ c (Proc.devRef .tc main_arg16) = m ((c : Thread nD τ).loc main_arg16) := (keep5_arg16 m ρ c).trans (arg16_at4 m ρ c)
theorem arg16_at6 (c : Dev nD) : W6 m ρ c (Proc.devRef .tc main_arg16) = m ((c : Thread nD τ).loc main_arg16) := (keep6_arg16 m ρ c).trans (arg16_at5 m ρ c)
theorem arg16_at7 (c : Dev nD) : W7 m ρ c (Proc.devRef .tc main_arg16) = m ((c : Thread nD τ).loc main_arg16) := (keep7_arg16 m ρ c).trans (arg16_at6 m ρ c)
theorem arg16_at8 (c : Dev nD) : W8 m ρ c (Proc.devRef .tc main_arg16) = m ((c : Thread nD τ).loc main_arg16) := (keep8_arg16 m ρ c).trans (arg16_at7 m ρ c)

theorem keep1_arg17 (c : Dev nD) : W1 m ρ c (Proc.devRef .tc main_arg17) = W0 m ρ c (Proc.devRef .tc main_arg17) := by
  show StableHlo.after hostOps0 (W0 m ρ c) (Proc.devRef .tc main_arg17) = _
  host_keeps hostOps0
theorem keep2_arg17 (c : Dev nD) : W2 m ρ c (Proc.devRef .tc main_arg17) = W1 m ρ c (Proc.devRef .tc main_arg17) := W2_of_ne m ρ c main_arg17 (by decide)
theorem keep3_arg17 (c : Dev nD) : W3 m ρ c (Proc.devRef .tc main_arg17) = W2 m ρ c (Proc.devRef .tc main_arg17) := by
  show StableHlo.after hostOps1 (W2 m ρ c) (Proc.devRef .tc main_arg17) = _
  host_keeps hostOps1
theorem keep4_arg17 (c : Dev nD) : W4 m ρ c (Proc.devRef .tc main_arg17) = W3 m ρ c (Proc.devRef .tc main_arg17) := W4_of_ne m ρ c main_arg17 (by decide)
theorem keep5_arg17 (c : Dev nD) : W5 m ρ c (Proc.devRef .tc main_arg17) = W4 m ρ c (Proc.devRef .tc main_arg17) := by
  show StableHlo.after hostOps2 (W4 m ρ c) (Proc.devRef .tc main_arg17) = _
  host_keeps hostOps2
theorem keep6_arg17 (c : Dev nD) : W6 m ρ c (Proc.devRef .tc main_arg17) = W5 m ρ c (Proc.devRef .tc main_arg17) := W6_of_ne m ρ c main_arg17 (by decide)
theorem keep7_arg17 (c : Dev nD) : W7 m ρ c (Proc.devRef .tc main_arg17) = W6 m ρ c (Proc.devRef .tc main_arg17) := by
  show StableHlo.after hostOps3 (W6 m ρ c) (Proc.devRef .tc main_arg17) = _
  host_keeps hostOps3
theorem keep8_arg17 (c : Dev nD) : W8 m ρ c (Proc.devRef .tc main_arg17) = W7 m ρ c (Proc.devRef .tc main_arg17) := W8_of_ne m ρ c main_arg17 (by decide)
theorem arg17_at1 (c : Dev nD) : W1 m ρ c (Proc.devRef .tc main_arg17) = m ((c : Thread nD τ).loc main_arg17) := (keep1_arg17 m ρ c).trans rfl
theorem arg17_at2 (c : Dev nD) : W2 m ρ c (Proc.devRef .tc main_arg17) = m ((c : Thread nD τ).loc main_arg17) := (keep2_arg17 m ρ c).trans (arg17_at1 m ρ c)
theorem arg17_at3 (c : Dev nD) : W3 m ρ c (Proc.devRef .tc main_arg17) = m ((c : Thread nD τ).loc main_arg17) := (keep3_arg17 m ρ c).trans (arg17_at2 m ρ c)
theorem arg17_at4 (c : Dev nD) : W4 m ρ c (Proc.devRef .tc main_arg17) = m ((c : Thread nD τ).loc main_arg17) := (keep4_arg17 m ρ c).trans (arg17_at3 m ρ c)
theorem arg17_at5 (c : Dev nD) : W5 m ρ c (Proc.devRef .tc main_arg17) = m ((c : Thread nD τ).loc main_arg17) := (keep5_arg17 m ρ c).trans (arg17_at4 m ρ c)
theorem arg17_at6 (c : Dev nD) : W6 m ρ c (Proc.devRef .tc main_arg17) = m ((c : Thread nD τ).loc main_arg17) := (keep6_arg17 m ρ c).trans (arg17_at5 m ρ c)
theorem arg17_at7 (c : Dev nD) : W7 m ρ c (Proc.devRef .tc main_arg17) = m ((c : Thread nD τ).loc main_arg17) := (keep7_arg17 m ρ c).trans (arg17_at6 m ρ c)
theorem arg17_at8 (c : Dev nD) : W8 m ρ c (Proc.devRef .tc main_arg17) = m ((c : Thread nD τ).loc main_arg17) := (keep8_arg17 m ρ c).trans (arg17_at7 m ρ c)

theorem keep1_arg18 (c : Dev nD) : W1 m ρ c (Proc.devRef .tc main_arg18) = W0 m ρ c (Proc.devRef .tc main_arg18) := by
  show StableHlo.after hostOps0 (W0 m ρ c) (Proc.devRef .tc main_arg18) = _
  host_keeps hostOps0
theorem keep2_arg18 (c : Dev nD) : W2 m ρ c (Proc.devRef .tc main_arg18) = W1 m ρ c (Proc.devRef .tc main_arg18) := W2_of_ne m ρ c main_arg18 (by decide)
theorem keep3_arg18 (c : Dev nD) : W3 m ρ c (Proc.devRef .tc main_arg18) = W2 m ρ c (Proc.devRef .tc main_arg18) := by
  show StableHlo.after hostOps1 (W2 m ρ c) (Proc.devRef .tc main_arg18) = _
  host_keeps hostOps1
theorem keep4_arg18 (c : Dev nD) : W4 m ρ c (Proc.devRef .tc main_arg18) = W3 m ρ c (Proc.devRef .tc main_arg18) := W4_of_ne m ρ c main_arg18 (by decide)
theorem keep5_arg18 (c : Dev nD) : W5 m ρ c (Proc.devRef .tc main_arg18) = W4 m ρ c (Proc.devRef .tc main_arg18) := by
  show StableHlo.after hostOps2 (W4 m ρ c) (Proc.devRef .tc main_arg18) = _
  host_keeps hostOps2
theorem keep6_arg18 (c : Dev nD) : W6 m ρ c (Proc.devRef .tc main_arg18) = W5 m ρ c (Proc.devRef .tc main_arg18) := W6_of_ne m ρ c main_arg18 (by decide)
theorem keep7_arg18 (c : Dev nD) : W7 m ρ c (Proc.devRef .tc main_arg18) = W6 m ρ c (Proc.devRef .tc main_arg18) := by
  show StableHlo.after hostOps3 (W6 m ρ c) (Proc.devRef .tc main_arg18) = _
  host_keeps hostOps3
theorem keep8_arg18 (c : Dev nD) : W8 m ρ c (Proc.devRef .tc main_arg18) = W7 m ρ c (Proc.devRef .tc main_arg18) := W8_of_ne m ρ c main_arg18 (by decide)
theorem keep9_arg18 (c : Dev nD) : W9 m ρ c (Proc.devRef .tc main_arg18) = W8 m ρ c (Proc.devRef .tc main_arg18) := by
  show StableHlo.after hostOps4 (W8 m ρ c) (Proc.devRef .tc main_arg18) = _
  host_keeps hostOps4
theorem keep10_arg18 (c : Dev nD) : W10 m ρ c (Proc.devRef .tc main_arg18) = W9 m ρ c (Proc.devRef .tc main_arg18) := W10_of_ne m ρ c main_arg18 (by decide)
theorem arg18_at1 (c : Dev nD) : W1 m ρ c (Proc.devRef .tc main_arg18) = m ((c : Thread nD τ).loc main_arg18) := (keep1_arg18 m ρ c).trans rfl
theorem arg18_at2 (c : Dev nD) : W2 m ρ c (Proc.devRef .tc main_arg18) = m ((c : Thread nD τ).loc main_arg18) := (keep2_arg18 m ρ c).trans (arg18_at1 m ρ c)
theorem arg18_at3 (c : Dev nD) : W3 m ρ c (Proc.devRef .tc main_arg18) = m ((c : Thread nD τ).loc main_arg18) := (keep3_arg18 m ρ c).trans (arg18_at2 m ρ c)
theorem arg18_at4 (c : Dev nD) : W4 m ρ c (Proc.devRef .tc main_arg18) = m ((c : Thread nD τ).loc main_arg18) := (keep4_arg18 m ρ c).trans (arg18_at3 m ρ c)
theorem arg18_at5 (c : Dev nD) : W5 m ρ c (Proc.devRef .tc main_arg18) = m ((c : Thread nD τ).loc main_arg18) := (keep5_arg18 m ρ c).trans (arg18_at4 m ρ c)
theorem arg18_at6 (c : Dev nD) : W6 m ρ c (Proc.devRef .tc main_arg18) = m ((c : Thread nD τ).loc main_arg18) := (keep6_arg18 m ρ c).trans (arg18_at5 m ρ c)
theorem arg18_at7 (c : Dev nD) : W7 m ρ c (Proc.devRef .tc main_arg18) = m ((c : Thread nD τ).loc main_arg18) := (keep7_arg18 m ρ c).trans (arg18_at6 m ρ c)
theorem arg18_at8 (c : Dev nD) : W8 m ρ c (Proc.devRef .tc main_arg18) = m ((c : Thread nD τ).loc main_arg18) := (keep8_arg18 m ρ c).trans (arg18_at7 m ρ c)
theorem arg18_at9 (c : Dev nD) : W9 m ρ c (Proc.devRef .tc main_arg18) = m ((c : Thread nD τ).loc main_arg18) := (keep9_arg18 m ρ c).trans (arg18_at8 m ρ c)
theorem arg18_at10 (c : Dev nD) : W10 m ρ c (Proc.devRef .tc main_arg18) = m ((c : Thread nD τ).loc main_arg18) := (keep10_arg18 m ρ c).trans (arg18_at9 m ρ c)

theorem keep1_arg19 (c : Dev nD) : W1 m ρ c (Proc.devRef .tc main_arg19) = W0 m ρ c (Proc.devRef .tc main_arg19) := by
  show StableHlo.after hostOps0 (W0 m ρ c) (Proc.devRef .tc main_arg19) = _
  host_keeps hostOps0
theorem keep2_arg19 (c : Dev nD) : W2 m ρ c (Proc.devRef .tc main_arg19) = W1 m ρ c (Proc.devRef .tc main_arg19) := W2_of_ne m ρ c main_arg19 (by decide)
theorem keep3_arg19 (c : Dev nD) : W3 m ρ c (Proc.devRef .tc main_arg19) = W2 m ρ c (Proc.devRef .tc main_arg19) := by
  show StableHlo.after hostOps1 (W2 m ρ c) (Proc.devRef .tc main_arg19) = _
  host_keeps hostOps1
theorem keep4_arg19 (c : Dev nD) : W4 m ρ c (Proc.devRef .tc main_arg19) = W3 m ρ c (Proc.devRef .tc main_arg19) := W4_of_ne m ρ c main_arg19 (by decide)
theorem keep5_arg19 (c : Dev nD) : W5 m ρ c (Proc.devRef .tc main_arg19) = W4 m ρ c (Proc.devRef .tc main_arg19) := by
  show StableHlo.after hostOps2 (W4 m ρ c) (Proc.devRef .tc main_arg19) = _
  host_keeps hostOps2
theorem keep6_arg19 (c : Dev nD) : W6 m ρ c (Proc.devRef .tc main_arg19) = W5 m ρ c (Proc.devRef .tc main_arg19) := W6_of_ne m ρ c main_arg19 (by decide)
theorem keep7_arg19 (c : Dev nD) : W7 m ρ c (Proc.devRef .tc main_arg19) = W6 m ρ c (Proc.devRef .tc main_arg19) := by
  show StableHlo.after hostOps3 (W6 m ρ c) (Proc.devRef .tc main_arg19) = _
  host_keeps hostOps3
theorem keep8_arg19 (c : Dev nD) : W8 m ρ c (Proc.devRef .tc main_arg19) = W7 m ρ c (Proc.devRef .tc main_arg19) := W8_of_ne m ρ c main_arg19 (by decide)
theorem keep9_arg19 (c : Dev nD) : W9 m ρ c (Proc.devRef .tc main_arg19) = W8 m ρ c (Proc.devRef .tc main_arg19) := by
  show StableHlo.after hostOps4 (W8 m ρ c) (Proc.devRef .tc main_arg19) = _
  host_keeps hostOps4
theorem keep10_arg19 (c : Dev nD) : W10 m ρ c (Proc.devRef .tc main_arg19) = W9 m ρ c (Proc.devRef .tc main_arg19) := W10_of_ne m ρ c main_arg19 (by decide)
theorem arg19_at1 (c : Dev nD) : W1 m ρ c (Proc.devRef .tc main_arg19) = m ((c : Thread nD τ).loc main_arg19) := (keep1_arg19 m ρ c).trans rfl
theorem arg19_at2 (c : Dev nD) : W2 m ρ c (Proc.devRef .tc main_arg19) = m ((c : Thread nD τ).loc main_arg19) := (keep2_arg19 m ρ c).trans (arg19_at1 m ρ c)
theorem arg19_at3 (c : Dev nD) : W3 m ρ c (Proc.devRef .tc main_arg19) = m ((c : Thread nD τ).loc main_arg19) := (keep3_arg19 m ρ c).trans (arg19_at2 m ρ c)
theorem arg19_at4 (c : Dev nD) : W4 m ρ c (Proc.devRef .tc main_arg19) = m ((c : Thread nD τ).loc main_arg19) := (keep4_arg19 m ρ c).trans (arg19_at3 m ρ c)
theorem arg19_at5 (c : Dev nD) : W5 m ρ c (Proc.devRef .tc main_arg19) = m ((c : Thread nD τ).loc main_arg19) := (keep5_arg19 m ρ c).trans (arg19_at4 m ρ c)
theorem arg19_at6 (c : Dev nD) : W6 m ρ c (Proc.devRef .tc main_arg19) = m ((c : Thread nD τ).loc main_arg19) := (keep6_arg19 m ρ c).trans (arg19_at5 m ρ c)
theorem arg19_at7 (c : Dev nD) : W7 m ρ c (Proc.devRef .tc main_arg19) = m ((c : Thread nD τ).loc main_arg19) := (keep7_arg19 m ρ c).trans (arg19_at6 m ρ c)
theorem arg19_at8 (c : Dev nD) : W8 m ρ c (Proc.devRef .tc main_arg19) = m ((c : Thread nD τ).loc main_arg19) := (keep8_arg19 m ρ c).trans (arg19_at7 m ρ c)
theorem arg19_at9 (c : Dev nD) : W9 m ρ c (Proc.devRef .tc main_arg19) = m ((c : Thread nD τ).loc main_arg19) := (keep9_arg19 m ρ c).trans (arg19_at8 m ρ c)
theorem arg19_at10 (c : Dev nD) : W10 m ρ c (Proc.devRef .tc main_arg19) = m ((c : Thread nD τ).loc main_arg19) := (keep10_arg19 m ρ c).trans (arg19_at9 m ρ c)

theorem keep1_arg20 (c : Dev nD) : W1 m ρ c (Proc.devRef .tc main_arg20) = W0 m ρ c (Proc.devRef .tc main_arg20) := by
  show StableHlo.after hostOps0 (W0 m ρ c) (Proc.devRef .tc main_arg20) = _
  host_keeps hostOps0
theorem keep2_arg20 (c : Dev nD) : W2 m ρ c (Proc.devRef .tc main_arg20) = W1 m ρ c (Proc.devRef .tc main_arg20) := W2_of_ne m ρ c main_arg20 (by decide)
theorem keep3_arg20 (c : Dev nD) : W3 m ρ c (Proc.devRef .tc main_arg20) = W2 m ρ c (Proc.devRef .tc main_arg20) := by
  show StableHlo.after hostOps1 (W2 m ρ c) (Proc.devRef .tc main_arg20) = _
  host_keeps hostOps1
theorem keep4_arg20 (c : Dev nD) : W4 m ρ c (Proc.devRef .tc main_arg20) = W3 m ρ c (Proc.devRef .tc main_arg20) := W4_of_ne m ρ c main_arg20 (by decide)
theorem keep5_arg20 (c : Dev nD) : W5 m ρ c (Proc.devRef .tc main_arg20) = W4 m ρ c (Proc.devRef .tc main_arg20) := by
  show StableHlo.after hostOps2 (W4 m ρ c) (Proc.devRef .tc main_arg20) = _
  host_keeps hostOps2
theorem keep6_arg20 (c : Dev nD) : W6 m ρ c (Proc.devRef .tc main_arg20) = W5 m ρ c (Proc.devRef .tc main_arg20) := W6_of_ne m ρ c main_arg20 (by decide)
theorem keep7_arg20 (c : Dev nD) : W7 m ρ c (Proc.devRef .tc main_arg20) = W6 m ρ c (Proc.devRef .tc main_arg20) := by
  show StableHlo.after hostOps3 (W6 m ρ c) (Proc.devRef .tc main_arg20) = _
  host_keeps hostOps3
theorem keep8_arg20 (c : Dev nD) : W8 m ρ c (Proc.devRef .tc main_arg20) = W7 m ρ c (Proc.devRef .tc main_arg20) := W8_of_ne m ρ c main_arg20 (by decide)
theorem keep9_arg20 (c : Dev nD) : W9 m ρ c (Proc.devRef .tc main_arg20) = W8 m ρ c (Proc.devRef .tc main_arg20) := by
  show StableHlo.after hostOps4 (W8 m ρ c) (Proc.devRef .tc main_arg20) = _
  host_keeps hostOps4
theorem keep10_arg20 (c : Dev nD) : W10 m ρ c (Proc.devRef .tc main_arg20) = W9 m ρ c (Proc.devRef .tc main_arg20) := W10_of_ne m ρ c main_arg20 (by decide)
theorem arg20_at1 (c : Dev nD) : W1 m ρ c (Proc.devRef .tc main_arg20) = m ((c : Thread nD τ).loc main_arg20) := (keep1_arg20 m ρ c).trans rfl
theorem arg20_at2 (c : Dev nD) : W2 m ρ c (Proc.devRef .tc main_arg20) = m ((c : Thread nD τ).loc main_arg20) := (keep2_arg20 m ρ c).trans (arg20_at1 m ρ c)
theorem arg20_at3 (c : Dev nD) : W3 m ρ c (Proc.devRef .tc main_arg20) = m ((c : Thread nD τ).loc main_arg20) := (keep3_arg20 m ρ c).trans (arg20_at2 m ρ c)
theorem arg20_at4 (c : Dev nD) : W4 m ρ c (Proc.devRef .tc main_arg20) = m ((c : Thread nD τ).loc main_arg20) := (keep4_arg20 m ρ c).trans (arg20_at3 m ρ c)
theorem arg20_at5 (c : Dev nD) : W5 m ρ c (Proc.devRef .tc main_arg20) = m ((c : Thread nD τ).loc main_arg20) := (keep5_arg20 m ρ c).trans (arg20_at4 m ρ c)
theorem arg20_at6 (c : Dev nD) : W6 m ρ c (Proc.devRef .tc main_arg20) = m ((c : Thread nD τ).loc main_arg20) := (keep6_arg20 m ρ c).trans (arg20_at5 m ρ c)
theorem arg20_at7 (c : Dev nD) : W7 m ρ c (Proc.devRef .tc main_arg20) = m ((c : Thread nD τ).loc main_arg20) := (keep7_arg20 m ρ c).trans (arg20_at6 m ρ c)
theorem arg20_at8 (c : Dev nD) : W8 m ρ c (Proc.devRef .tc main_arg20) = m ((c : Thread nD τ).loc main_arg20) := (keep8_arg20 m ρ c).trans (arg20_at7 m ρ c)
theorem arg20_at9 (c : Dev nD) : W9 m ρ c (Proc.devRef .tc main_arg20) = m ((c : Thread nD τ).loc main_arg20) := (keep9_arg20 m ρ c).trans (arg20_at8 m ρ c)
theorem arg20_at10 (c : Dev nD) : W10 m ρ c (Proc.devRef .tc main_arg20) = m ((c : Thread nD τ).loc main_arg20) := (keep10_arg20 m ρ c).trans (arg20_at9 m ρ c)

theorem keep1_arg21 (c : Dev nD) : W1 m ρ c (Proc.devRef .tc main_arg21) = W0 m ρ c (Proc.devRef .tc main_arg21) := by
  show StableHlo.after hostOps0 (W0 m ρ c) (Proc.devRef .tc main_arg21) = _
  host_keeps hostOps0
theorem keep2_arg21 (c : Dev nD) : W2 m ρ c (Proc.devRef .tc main_arg21) = W1 m ρ c (Proc.devRef .tc main_arg21) := W2_of_ne m ρ c main_arg21 (by decide)
theorem keep3_arg21 (c : Dev nD) : W3 m ρ c (Proc.devRef .tc main_arg21) = W2 m ρ c (Proc.devRef .tc main_arg21) := by
  show StableHlo.after hostOps1 (W2 m ρ c) (Proc.devRef .tc main_arg21) = _
  host_keeps hostOps1
theorem keep4_arg21 (c : Dev nD) : W4 m ρ c (Proc.devRef .tc main_arg21) = W3 m ρ c (Proc.devRef .tc main_arg21) := W4_of_ne m ρ c main_arg21 (by decide)
theorem keep5_arg21 (c : Dev nD) : W5 m ρ c (Proc.devRef .tc main_arg21) = W4 m ρ c (Proc.devRef .tc main_arg21) := by
  show StableHlo.after hostOps2 (W4 m ρ c) (Proc.devRef .tc main_arg21) = _
  host_keeps hostOps2
theorem keep6_arg21 (c : Dev nD) : W6 m ρ c (Proc.devRef .tc main_arg21) = W5 m ρ c (Proc.devRef .tc main_arg21) := W6_of_ne m ρ c main_arg21 (by decide)
theorem keep7_arg21 (c : Dev nD) : W7 m ρ c (Proc.devRef .tc main_arg21) = W6 m ρ c (Proc.devRef .tc main_arg21) := by
  show StableHlo.after hostOps3 (W6 m ρ c) (Proc.devRef .tc main_arg21) = _
  host_keeps hostOps3
theorem keep8_arg21 (c : Dev nD) : W8 m ρ c (Proc.devRef .tc main_arg21) = W7 m ρ c (Proc.devRef .tc main_arg21) := W8_of_ne m ρ c main_arg21 (by decide)
theorem keep9_arg21 (c : Dev nD) : W9 m ρ c (Proc.devRef .tc main_arg21) = W8 m ρ c (Proc.devRef .tc main_arg21) := by
  show StableHlo.after hostOps4 (W8 m ρ c) (Proc.devRef .tc main_arg21) = _
  host_keeps hostOps4
theorem keep10_arg21 (c : Dev nD) : W10 m ρ c (Proc.devRef .tc main_arg21) = W9 m ρ c (Proc.devRef .tc main_arg21) := W10_of_ne m ρ c main_arg21 (by decide)
theorem arg21_at1 (c : Dev nD) : W1 m ρ c (Proc.devRef .tc main_arg21) = m ((c : Thread nD τ).loc main_arg21) := (keep1_arg21 m ρ c).trans rfl
theorem arg21_at2 (c : Dev nD) : W2 m ρ c (Proc.devRef .tc main_arg21) = m ((c : Thread nD τ).loc main_arg21) := (keep2_arg21 m ρ c).trans (arg21_at1 m ρ c)
theorem arg21_at3 (c : Dev nD) : W3 m ρ c (Proc.devRef .tc main_arg21) = m ((c : Thread nD τ).loc main_arg21) := (keep3_arg21 m ρ c).trans (arg21_at2 m ρ c)
theorem arg21_at4 (c : Dev nD) : W4 m ρ c (Proc.devRef .tc main_arg21) = m ((c : Thread nD τ).loc main_arg21) := (keep4_arg21 m ρ c).trans (arg21_at3 m ρ c)
theorem arg21_at5 (c : Dev nD) : W5 m ρ c (Proc.devRef .tc main_arg21) = m ((c : Thread nD τ).loc main_arg21) := (keep5_arg21 m ρ c).trans (arg21_at4 m ρ c)
theorem arg21_at6 (c : Dev nD) : W6 m ρ c (Proc.devRef .tc main_arg21) = m ((c : Thread nD τ).loc main_arg21) := (keep6_arg21 m ρ c).trans (arg21_at5 m ρ c)
theorem arg21_at7 (c : Dev nD) : W7 m ρ c (Proc.devRef .tc main_arg21) = m ((c : Thread nD τ).loc main_arg21) := (keep7_arg21 m ρ c).trans (arg21_at6 m ρ c)
theorem arg21_at8 (c : Dev nD) : W8 m ρ c (Proc.devRef .tc main_arg21) = m ((c : Thread nD τ).loc main_arg21) := (keep8_arg21 m ρ c).trans (arg21_at7 m ρ c)
theorem arg21_at9 (c : Dev nD) : W9 m ρ c (Proc.devRef .tc main_arg21) = m ((c : Thread nD τ).loc main_arg21) := (keep9_arg21 m ρ c).trans (arg21_at8 m ρ c)
theorem arg21_at10 (c : Dev nD) : W10 m ρ c (Proc.devRef .tc main_arg21) = m ((c : Thread nD τ).loc main_arg21) := (keep10_arg21 m ρ c).trans (arg21_at9 m ρ c)

theorem keep2_v10 (c : Dev nD) : W2 m ρ c (Proc.devRef .tc main_v10) = W1 m ρ c (Proc.devRef .tc main_v10) := W2_of_ne m ρ c main_v10 (by decide)
theorem keep3_v10 (c : Dev nD) : W3 m ρ c (Proc.devRef .tc main_v10) = W2 m ρ c (Proc.devRef .tc main_v10) := by
  show StableHlo.after hostOps1 (W2 m ρ c) (Proc.devRef .tc main_v10) = _
  host_keeps hostOps1
theorem keep4_v10 (c : Dev nD) : W4 m ρ c (Proc.devRef .tc main_v10) = W3 m ρ c (Proc.devRef .tc main_v10) := W4_of_ne m ρ c main_v10 (by decide)
theorem keep5_v10 (c : Dev nD) : W5 m ρ c (Proc.devRef .tc main_v10) = W4 m ρ c (Proc.devRef .tc main_v10) := by
  show StableHlo.after hostOps2 (W4 m ρ c) (Proc.devRef .tc main_v10) = _
  host_keeps hostOps2
theorem keep6_v10 (c : Dev nD) : W6 m ρ c (Proc.devRef .tc main_v10) = W5 m ρ c (Proc.devRef .tc main_v10) := W6_of_ne m ρ c main_v10 (by decide)
theorem v10_at2 (c : Dev nD) : W2 m ρ c (Proc.devRef .tc main_v10) = W1 m ρ c (Proc.devRef .tc main_v10) := keep2_v10 m ρ c
theorem v10_at3 (c : Dev nD) : W3 m ρ c (Proc.devRef .tc main_v10) = W1 m ρ c (Proc.devRef .tc main_v10) := (keep3_v10 m ρ c).trans (v10_at2 m ρ c)
theorem v10_at4 (c : Dev nD) : W4 m ρ c (Proc.devRef .tc main_v10) = W1 m ρ c (Proc.devRef .tc main_v10) := (keep4_v10 m ρ c).trans (v10_at3 m ρ c)
theorem v10_at5 (c : Dev nD) : W5 m ρ c (Proc.devRef .tc main_v10) = W1 m ρ c (Proc.devRef .tc main_v10) := (keep5_v10 m ρ c).trans (v10_at4 m ρ c)
theorem v10_at6 (c : Dev nD) : W6 m ρ c (Proc.devRef .tc main_v10) = W1 m ρ c (Proc.devRef .tc main_v10) := (keep6_v10 m ρ c).trans (v10_at5 m ρ c)

theorem keep2_v25 (c : Dev nD) : W2 m ρ c (Proc.devRef .tc main_v25) = W1 m ρ c (Proc.devRef .tc main_v25) := W2_of_ne m ρ c main_v25 (by decide)
theorem keep3_v25 (c : Dev nD) : W3 m ρ c (Proc.devRef .tc main_v25) = W2 m ρ c (Proc.devRef .tc main_v25) := by
  show StableHlo.after hostOps1 (W2 m ρ c) (Proc.devRef .tc main_v25) = _
  host_keeps hostOps1
theorem keep4_v25 (c : Dev nD) : W4 m ρ c (Proc.devRef .tc main_v25) = W3 m ρ c (Proc.devRef .tc main_v25) := W4_of_ne m ρ c main_v25 (by decide)
theorem keep5_v25 (c : Dev nD) : W5 m ρ c (Proc.devRef .tc main_v25) = W4 m ρ c (Proc.devRef .tc main_v25) := by
  show StableHlo.after hostOps2 (W4 m ρ c) (Proc.devRef .tc main_v25) = _
  host_keeps hostOps2
theorem keep6_v25 (c : Dev nD) : W6 m ρ c (Proc.devRef .tc main_v25) = W5 m ρ c (Proc.devRef .tc main_v25) := W6_of_ne m ρ c main_v25 (by decide)
theorem v25_at2 (c : Dev nD) : W2 m ρ c (Proc.devRef .tc main_v25) = W1 m ρ c (Proc.devRef .tc main_v25) := keep2_v25 m ρ c
theorem v25_at3 (c : Dev nD) : W3 m ρ c (Proc.devRef .tc main_v25) = W1 m ρ c (Proc.devRef .tc main_v25) := (keep3_v25 m ρ c).trans (v25_at2 m ρ c)
theorem v25_at4 (c : Dev nD) : W4 m ρ c (Proc.devRef .tc main_v25) = W1 m ρ c (Proc.devRef .tc main_v25) := (keep4_v25 m ρ c).trans (v25_at3 m ρ c)
theorem v25_at5 (c : Dev nD) : W5 m ρ c (Proc.devRef .tc main_v25) = W1 m ρ c (Proc.devRef .tc main_v25) := (keep5_v25 m ρ c).trans (v25_at4 m ρ c)
theorem v25_at6 (c : Dev nD) : W6 m ρ c (Proc.devRef .tc main_v25) = W1 m ρ c (Proc.devRef .tc main_v25) := (keep6_v25 m ρ c).trans (v25_at5 m ρ c)

theorem keep2_v14 (c : Dev nD) : W2 m ρ c (Proc.devRef .tc main_v14) = W1 m ρ c (Proc.devRef .tc main_v14) := W2_of_ne m ρ c main_v14 (by decide)
theorem keep3_v14 (c : Dev nD) : W3 m ρ c (Proc.devRef .tc main_v14) = W2 m ρ c (Proc.devRef .tc main_v14) := by
  show StableHlo.after hostOps1 (W2 m ρ c) (Proc.devRef .tc main_v14) = _
  host_keeps hostOps1
theorem keep4_v14 (c : Dev nD) : W4 m ρ c (Proc.devRef .tc main_v14) = W3 m ρ c (Proc.devRef .tc main_v14) := W4_of_ne m ρ c main_v14 (by decide)
theorem keep5_v14 (c : Dev nD) : W5 m ρ c (Proc.devRef .tc main_v14) = W4 m ρ c (Proc.devRef .tc main_v14) := by
  show StableHlo.after hostOps2 (W4 m ρ c) (Proc.devRef .tc main_v14) = _
  host_keeps hostOps2
theorem keep6_v14 (c : Dev nD) : W6 m ρ c (Proc.devRef .tc main_v14) = W5 m ρ c (Proc.devRef .tc main_v14) := W6_of_ne m ρ c main_v14 (by decide)
theorem keep7_v14 (c : Dev nD) : W7 m ρ c (Proc.devRef .tc main_v14) = W6 m ρ c (Proc.devRef .tc main_v14) := by
  show StableHlo.after hostOps3 (W6 m ρ c) (Proc.devRef .tc main_v14) = _
  host_keeps hostOps3
theorem keep8_v14 (c : Dev nD) : W8 m ρ c (Proc.devRef .tc main_v14) = W7 m ρ c (Proc.devRef .tc main_v14) := W8_of_ne m ρ c main_v14 (by decide)
theorem v14_at2 (c : Dev nD) : W2 m ρ c (Proc.devRef .tc main_v14) = W1 m ρ c (Proc.devRef .tc main_v14) := keep2_v14 m ρ c
theorem v14_at3 (c : Dev nD) : W3 m ρ c (Proc.devRef .tc main_v14) = W1 m ρ c (Proc.devRef .tc main_v14) := (keep3_v14 m ρ c).trans (v14_at2 m ρ c)
theorem v14_at4 (c : Dev nD) : W4 m ρ c (Proc.devRef .tc main_v14) = W1 m ρ c (Proc.devRef .tc main_v14) := (keep4_v14 m ρ c).trans (v14_at3 m ρ c)
theorem v14_at5 (c : Dev nD) : W5 m ρ c (Proc.devRef .tc main_v14) = W1 m ρ c (Proc.devRef .tc main_v14) := (keep5_v14 m ρ c).trans (v14_at4 m ρ c)
theorem v14_at6 (c : Dev nD) : W6 m ρ c (Proc.devRef .tc main_v14) = W1 m ρ c (Proc.devRef .tc main_v14) := (keep6_v14 m ρ c).trans (v14_at5 m ρ c)
theorem v14_at7 (c : Dev nD) : W7 m ρ c (Proc.devRef .tc main_v14) = W1 m ρ c (Proc.devRef .tc main_v14) := (keep7_v14 m ρ c).trans (v14_at6 m ρ c)
theorem v14_at8 (c : Dev nD) : W8 m ρ c (Proc.devRef .tc main_v14) = W1 m ρ c (Proc.devRef .tc main_v14) := (keep8_v14 m ρ c).trans (v14_at7 m ρ c)

theorem keep2_v29 (c : Dev nD) : W2 m ρ c (Proc.devRef .tc main_v29) = W1 m ρ c (Proc.devRef .tc main_v29) := W2_of_ne m ρ c main_v29 (by decide)
theorem keep3_v29 (c : Dev nD) : W3 m ρ c (Proc.devRef .tc main_v29) = W2 m ρ c (Proc.devRef .tc main_v29) := by
  show StableHlo.after hostOps1 (W2 m ρ c) (Proc.devRef .tc main_v29) = _
  host_keeps hostOps1
theorem keep4_v29 (c : Dev nD) : W4 m ρ c (Proc.devRef .tc main_v29) = W3 m ρ c (Proc.devRef .tc main_v29) := W4_of_ne m ρ c main_v29 (by decide)
theorem keep5_v29 (c : Dev nD) : W5 m ρ c (Proc.devRef .tc main_v29) = W4 m ρ c (Proc.devRef .tc main_v29) := by
  show StableHlo.after hostOps2 (W4 m ρ c) (Proc.devRef .tc main_v29) = _
  host_keeps hostOps2
theorem keep6_v29 (c : Dev nD) : W6 m ρ c (Proc.devRef .tc main_v29) = W5 m ρ c (Proc.devRef .tc main_v29) := W6_of_ne m ρ c main_v29 (by decide)
theorem keep7_v29 (c : Dev nD) : W7 m ρ c (Proc.devRef .tc main_v29) = W6 m ρ c (Proc.devRef .tc main_v29) := by
  show StableHlo.after hostOps3 (W6 m ρ c) (Proc.devRef .tc main_v29) = _
  host_keeps hostOps3
theorem keep8_v29 (c : Dev nD) : W8 m ρ c (Proc.devRef .tc main_v29) = W7 m ρ c (Proc.devRef .tc main_v29) := W8_of_ne m ρ c main_v29 (by decide)
theorem keep9_v29 (c : Dev nD) : W9 m ρ c (Proc.devRef .tc main_v29) = W8 m ρ c (Proc.devRef .tc main_v29) := by
  show StableHlo.after hostOps4 (W8 m ρ c) (Proc.devRef .tc main_v29) = _
  host_keeps hostOps4
theorem keep10_v29 (c : Dev nD) : W10 m ρ c (Proc.devRef .tc main_v29) = W9 m ρ c (Proc.devRef .tc main_v29) := W10_of_ne m ρ c main_v29 (by decide)
theorem v29_at2 (c : Dev nD) : W2 m ρ c (Proc.devRef .tc main_v29) = W1 m ρ c (Proc.devRef .tc main_v29) := keep2_v29 m ρ c
theorem v29_at3 (c : Dev nD) : W3 m ρ c (Proc.devRef .tc main_v29) = W1 m ρ c (Proc.devRef .tc main_v29) := (keep3_v29 m ρ c).trans (v29_at2 m ρ c)
theorem v29_at4 (c : Dev nD) : W4 m ρ c (Proc.devRef .tc main_v29) = W1 m ρ c (Proc.devRef .tc main_v29) := (keep4_v29 m ρ c).trans (v29_at3 m ρ c)
theorem v29_at5 (c : Dev nD) : W5 m ρ c (Proc.devRef .tc main_v29) = W1 m ρ c (Proc.devRef .tc main_v29) := (keep5_v29 m ρ c).trans (v29_at4 m ρ c)
theorem v29_at6 (c : Dev nD) : W6 m ρ c (Proc.devRef .tc main_v29) = W1 m ρ c (Proc.devRef .tc main_v29) := (keep6_v29 m ρ c).trans (v29_at5 m ρ c)
theorem v29_at7 (c : Dev nD) : W7 m ρ c (Proc.devRef .tc main_v29) = W1 m ρ c (Proc.devRef .tc main_v29) := (keep7_v29 m ρ c).trans (v29_at6 m ρ c)
theorem v29_at8 (c : Dev nD) : W8 m ρ c (Proc.devRef .tc main_v29) = W1 m ρ c (Proc.devRef .tc main_v29) := (keep8_v29 m ρ c).trans (v29_at7 m ρ c)
theorem v29_at9 (c : Dev nD) : W9 m ρ c (Proc.devRef .tc main_v29) = W1 m ρ c (Proc.devRef .tc main_v29) := (keep9_v29 m ρ c).trans (v29_at8 m ρ c)
theorem v29_at10 (c : Dev nD) : W10 m ρ c (Proc.devRef .tc main_v29) = W1 m ρ c (Proc.devRef .tc main_v29) := (keep10_v29 m ρ c).trans (v29_at9 m ρ c)

theorem keep2_v37 (c : Dev nD) : W2 m ρ c (Proc.devRef .tc main_v37) = W1 m ρ c (Proc.devRef .tc main_v37) := W2_of_ne m ρ c main_v37 (by decide)
theorem keep3_v37 (c : Dev nD) : W3 m ρ c (Proc.devRef .tc main_v37) = W2 m ρ c (Proc.devRef .tc main_v37) := by
  show StableHlo.after hostOps1 (W2 m ρ c) (Proc.devRef .tc main_v37) = _
  host_keeps hostOps1
theorem keep4_v37 (c : Dev nD) : W4 m ρ c (Proc.devRef .tc main_v37) = W3 m ρ c (Proc.devRef .tc main_v37) := W4_of_ne m ρ c main_v37 (by decide)
theorem keep5_v37 (c : Dev nD) : W5 m ρ c (Proc.devRef .tc main_v37) = W4 m ρ c (Proc.devRef .tc main_v37) := by
  show StableHlo.after hostOps2 (W4 m ρ c) (Proc.devRef .tc main_v37) = _
  host_keeps hostOps2
theorem keep6_v37 (c : Dev nD) : W6 m ρ c (Proc.devRef .tc main_v37) = W5 m ρ c (Proc.devRef .tc main_v37) := W6_of_ne m ρ c main_v37 (by decide)
theorem keep7_v37 (c : Dev nD) : W7 m ρ c (Proc.devRef .tc main_v37) = W6 m ρ c (Proc.devRef .tc main_v37) := by
  show StableHlo.after hostOps3 (W6 m ρ c) (Proc.devRef .tc main_v37) = _
  host_keeps hostOps3
theorem keep8_v37 (c : Dev nD) : W8 m ρ c (Proc.devRef .tc main_v37) = W7 m ρ c (Proc.devRef .tc main_v37) := W8_of_ne m ρ c main_v37 (by decide)
theorem keep9_v37 (c : Dev nD) : W9 m ρ c (Proc.devRef .tc main_v37) = W8 m ρ c (Proc.devRef .tc main_v37) := by
  show StableHlo.after hostOps4 (W8 m ρ c) (Proc.devRef .tc main_v37) = _
  host_keeps hostOps4
theorem keep10_v37 (c : Dev nD) : W10 m ρ c (Proc.devRef .tc main_v37) = W9 m ρ c (Proc.devRef .tc main_v37) := W10_of_ne m ρ c main_v37 (by decide)
theorem v37_at2 (c : Dev nD) : W2 m ρ c (Proc.devRef .tc main_v37) = W1 m ρ c (Proc.devRef .tc main_v37) := keep2_v37 m ρ c
theorem v37_at3 (c : Dev nD) : W3 m ρ c (Proc.devRef .tc main_v37) = W1 m ρ c (Proc.devRef .tc main_v37) := (keep3_v37 m ρ c).trans (v37_at2 m ρ c)
theorem v37_at4 (c : Dev nD) : W4 m ρ c (Proc.devRef .tc main_v37) = W1 m ρ c (Proc.devRef .tc main_v37) := (keep4_v37 m ρ c).trans (v37_at3 m ρ c)
theorem v37_at5 (c : Dev nD) : W5 m ρ c (Proc.devRef .tc main_v37) = W1 m ρ c (Proc.devRef .tc main_v37) := (keep5_v37 m ρ c).trans (v37_at4 m ρ c)
theorem v37_at6 (c : Dev nD) : W6 m ρ c (Proc.devRef .tc main_v37) = W1 m ρ c (Proc.devRef .tc main_v37) := (keep6_v37 m ρ c).trans (v37_at5 m ρ c)
theorem v37_at7 (c : Dev nD) : W7 m ρ c (Proc.devRef .tc main_v37) = W1 m ρ c (Proc.devRef .tc main_v37) := (keep7_v37 m ρ c).trans (v37_at6 m ρ c)
theorem v37_at8 (c : Dev nD) : W8 m ρ c (Proc.devRef .tc main_v37) = W1 m ρ c (Proc.devRef .tc main_v37) := (keep8_v37 m ρ c).trans (v37_at7 m ρ c)
theorem v37_at9 (c : Dev nD) : W9 m ρ c (Proc.devRef .tc main_v37) = W1 m ρ c (Proc.devRef .tc main_v37) := (keep9_v37 m ρ c).trans (v37_at8 m ρ c)
theorem v37_at10 (c : Dev nD) : W10 m ρ c (Proc.devRef .tc main_v37) = W1 m ρ c (Proc.devRef .tc main_v37) := (keep10_v37 m ρ c).trans (v37_at9 m ρ c)

theorem keep3_v40_1 (c : Dev nD) : W3 m ρ c (Proc.devRef .tc main_v40_1) = W2 m ρ c (Proc.devRef .tc main_v40_1) := by
  show StableHlo.after hostOps1 (W2 m ρ c) (Proc.devRef .tc main_v40_1) = _
  host_keeps hostOps1
theorem keep4_v40_1 (c : Dev nD) : W4 m ρ c (Proc.devRef .tc main_v40_1) = W3 m ρ c (Proc.devRef .tc main_v40_1) := W4_of_ne m ρ c main_v40_1 (by decide)
theorem v40_1_at3 (c : Dev nD) : W3 m ρ c (Proc.devRef .tc main_v40_1) = W2 m ρ c (Proc.devRef .tc main_v40_1) := keep3_v40_1 m ρ c
theorem v40_1_at4 (c : Dev nD) : W4 m ρ c (Proc.devRef .tc main_v40_1) = W2 m ρ c (Proc.devRef .tc main_v40_1) := (keep4_v40_1 m ρ c).trans (v40_1_at3 m ρ c)

theorem keep5_v53 (c : Dev nD) : W5 m ρ c (Proc.devRef .tc main_v53) = W4 m ρ c (Proc.devRef .tc main_v53) := by
  show StableHlo.after hostOps2 (W4 m ρ c) (Proc.devRef .tc main_v53) = _
  host_keeps hostOps2
theorem keep6_v53 (c : Dev nD) : W6 m ρ c (Proc.devRef .tc main_v53) = W5 m ρ c (Proc.devRef .tc main_v53) := W6_of_ne m ρ c main_v53 (by decide)
theorem keep7_v53 (c : Dev nD) : W7 m ρ c (Proc.devRef .tc main_v53) = W6 m ρ c (Proc.devRef .tc main_v53) := by
  show StableHlo.after hostOps3 (W6 m ρ c) (Proc.devRef .tc main_v53) = _
  host_keeps hostOps3
theorem v53_at5 (c : Dev nD) : W5 m ρ c (Proc.devRef .tc main_v53) = W4 m ρ c (Proc.devRef .tc main_v53) := keep5_v53 m ρ c
theorem v53_at6 (c : Dev nD) : W6 m ρ c (Proc.devRef .tc main_v53) = W4 m ρ c (Proc.devRef .tc main_v53) := (keep6_v53 m ρ c).trans (v53_at5 m ρ c)
theorem v53_at7 (c : Dev nD) : W7 m ρ c (Proc.devRef .tc main_v53) = W4 m ρ c (Proc.devRef .tc main_v53) := (keep7_v53 m ρ c).trans (v53_at6 m ρ c)

theorem keep7_v78 (c : Dev nD) : W7 m ρ c (Proc.devRef .tc main_v78) = W6 m ρ c (Proc.devRef .tc main_v78) := by
  show StableHlo.after hostOps3 (W6 m ρ c) (Proc.devRef .tc main_v78) = _
  host_keeps hostOps3
theorem keep8_v78 (c : Dev nD) : W8 m ρ c (Proc.devRef .tc main_v78) = W7 m ρ c (Proc.devRef .tc main_v78) := W8_of_ne m ρ c main_v78 (by decide)
theorem keep9_v78 (c : Dev nD) : W9 m ρ c (Proc.devRef .tc main_v78) = W8 m ρ c (Proc.devRef .tc main_v78) := by
  show StableHlo.after hostOps4 (W8 m ρ c) (Proc.devRef .tc main_v78) = _
  host_keeps hostOps4
theorem keep10_v78 (c : Dev nD) : W10 m ρ c (Proc.devRef .tc main_v78) = W9 m ρ c (Proc.devRef .tc main_v78) := W10_of_ne m ρ c main_v78 (by decide)
theorem keep11_v78 (c : Dev nD) : W11 m ρ c (Proc.devRef .tc main_v78) = W10 m ρ c (Proc.devRef .tc main_v78) := by
  show StableHlo.after hostOps5 (W10 m ρ c) (Proc.devRef .tc main_v78) = _
  host_keeps hostOps5
theorem v78_at7 (c : Dev nD) : W7 m ρ c (Proc.devRef .tc main_v78) = W6 m ρ c (Proc.devRef .tc main_v78) := keep7_v78 m ρ c
theorem v78_at8 (c : Dev nD) : W8 m ρ c (Proc.devRef .tc main_v78) = W6 m ρ c (Proc.devRef .tc main_v78) := (keep8_v78 m ρ c).trans (v78_at7 m ρ c)
theorem v78_at9 (c : Dev nD) : W9 m ρ c (Proc.devRef .tc main_v78) = W6 m ρ c (Proc.devRef .tc main_v78) := (keep9_v78 m ρ c).trans (v78_at8 m ρ c)
theorem v78_at10 (c : Dev nD) : W10 m ρ c (Proc.devRef .tc main_v78) = W6 m ρ c (Proc.devRef .tc main_v78) := (keep10_v78 m ρ c).trans (v78_at9 m ρ c)
theorem v78_at11 (c : Dev nD) : W11 m ρ c (Proc.devRef .tc main_v78) = W6 m ρ c (Proc.devRef .tc main_v78) := (keep11_v78 m ρ c).trans (v78_at10 m ρ c)

theorem keep9_v81_1 (c : Dev nD) : W9 m ρ c (Proc.devRef .tc main_v81_1) = W8 m ρ c (Proc.devRef .tc main_v81_1) := by
  show StableHlo.after hostOps4 (W8 m ρ c) (Proc.devRef .tc main_v81_1) = _
  host_keeps hostOps4
theorem keep10_v81_1 (c : Dev nD) : W10 m ρ c (Proc.devRef .tc main_v81_1) = W9 m ρ c (Proc.devRef .tc main_v81_1) := W10_of_ne m ρ c main_v81_1 (by decide)
theorem v81_1_at9 (c : Dev nD) : W9 m ρ c (Proc.devRef .tc main_v81_1) = W8 m ρ c (Proc.devRef .tc main_v81_1) := keep9_v81_1 m ρ c
theorem v81_1_at10 (c : Dev nD) : W10 m ρ c (Proc.devRef .tc main_v81_1) = W8 m ρ c (Proc.devRef .tc main_v81_1) := (keep10_v81_1 m ρ c).trans (v81_1_at9 m ρ c)

theorem keep11_v94 (c : Dev nD) : W11 m ρ c (Proc.devRef .tc main_v94) = W10 m ρ c (Proc.devRef .tc main_v94) := by
  show StableHlo.after hostOps5 (W10 m ρ c) (Proc.devRef .tc main_v94) = _
  host_keeps hostOps5
theorem keep12_v94 (c : Dev nD) : W12 m ρ c (Proc.devRef .tc main_v94) = W11 m ρ c (Proc.devRef .tc main_v94) := W12_of_ne m ρ c main_v94 (by decide)
theorem v94_at11 (c : Dev nD) : W11 m ρ c (Proc.devRef .tc main_v94) = W10 m ρ c (Proc.devRef .tc main_v94) := keep11_v94 m ρ c
theorem v94_at12 (c : Dev nD) : W12 m ρ c (Proc.devRef .tc main_v94) = W10 m ρ c (Proc.devRef .tc main_v94) := (keep12_v94 m ρ c).trans (v94_at11 m ρ c)

end Cert.KernelIdeal.KernelKeep

end
-- ==== Proof.RegionScale.lean ====
/-
  The two row-scaling regions of the kernel, read as whole arrays.

  Each of the two regions walks the 50000 rows of a feature array x in ten blocks of 5000 rows.  At block t it
  reads rows 5000·t … 5000·t + 4999 of x and of two columns n and n' (one number per row), and writes x · n and
  x · n', each column broadcast along the 128 features, into block t of its two outputs.  Entry (p,q) of an output
  therefore depends only on x(p,q) and on the column's entry (p,0), both in the same row block; and the ten blocks
  cover every row.  So each output array is `scaleRows x n`: row p of x times n(p,0).

  The order below: the product of a row block by a broadcast column at an entry; then, per region and per output,
  what one grid point writes back (block t of the whole-array function), which rows a block holds, the cover of
  the rows by the ten blocks, and the whole array.
-/
import proofs.«162621_j68298569941171_1_alg».proof.Proof.Gen.KernelIdeal.Frame
import proofs.«162621_j68298569941171_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionScale

open Cert.KernelIdeal Cert.KernelIdeal.Gen Idealize.ShloMosaic Idealize.ShloMosaic.TcCoe Idealize.SL.Sem HeteroConv
open Idealize.ShloMosaic.ValueIdx
open Idealize.ShloMosaic.Pipeline (Dat)

variable (V : (c : Dev nD) → (b : Ref sig .tc) → Buf (Elt Ideal) ((c : Thread nD τ).loc b))

/-! ## One block of rows times a column -/

/-- A whole-block access starts at the block's origin. -/
theorem zeroOff : (![0, 0] : Fin 2 → Nat) = fun _ => 0 := funext fun a => by fin_cases a <;> rfl

/-- A column of 5000 numbers broadcast along the 128 features: entry (p,q) is the column's p-th entry. -/
theorem colBroadcast_apply (v : FVec Ideal S5000x1 .f32) (h : S5000x1.Broadcasts S5000x128) (p : Fin 5000) (q : Fin 128) :
    broadcastTo S5000x128 v h (ix2 p q) = v (ix2 p 0) :=
  broadcastTo_apply v h (ix2 p q) (ix2 p 0) (fun a => by
    match a with
    | ⟨0, _⟩ => rfl
    | ⟨1, _⟩ => rfl)

/-- A block of rows times a column broadcast along the features: entry (p,q) is x(p,q) · n(p,0). -/
theorem scaleBlock_apply (x : FVec Ideal S5000x128 .f32) (n : FVec Ideal S5000x1 .f32)
    (hc : S5000x1.ShapeCasts S5000x1) (hb : S5000x1.Broadcasts S5000x128) (p : Fin 5000) (q : Fin 128) :
    mulf x (broadcastTo S5000x128 (shapeCast S5000x1 n hc) hb) (ix2 p q) = x (ix2 p q) * n (ix2 p 0) := by
  rw [mulf_apply, shapeCast_self, colBroadcast_apply]

/-- The same product read against the whole arrays: if entry j of the row block is entry i of the array X, and the
    column block's entry in j's row is the column N's entry in i's row, the product at j is X with its rows scaled
    by N, at i. -/
theorem scaleBlock_at (x : FVec Ideal S5000x128 .f32) (n : FVec Ideal S5000x1 .f32)
    (hc : S5000x1.ShapeCasts S5000x1) (hb : S5000x1.Broadcasts S5000x128)
    (X : NxD.Idx → EReal) (N : Nx1.Idx → EReal) (j : S5000x128.Idx) (i : NxD.Idx) (hx : x j = X i)
    (hn : n (ix2 (n0 := 5000) (n1 := 1) (j 0) 0) = N (ix2 (n0 := 50000) (n1 := 1) (i 0) 0)) :
    mulf x (broadcastTo S5000x128 (shapeCast S5000x1 n hc) hb) j = scaleRows X N i := by
  obtain ⟨p, q, rfl⟩ : ∃ (p : Fin 5000) (q : Fin 128), j = ix2 p q := ⟨j 0, j 1, eq_ix2 j⟩
  refine (scaleBlock_apply x n hc hb p q).trans ?_
  exact congrArg₂ (· * ·) hx hn

/-! ## The first row-scaling region -/

/-- At point t every window of the region is at block (t, 0): rows 5000·t … 5000·t + 4999. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The value stored into output one's block, read against the whole arrays. -/
theorem pay0_3_at (x : Vec Ideal S5000x128 .f32) (n : Vec Ideal S5000x1 .f32) (X : NxD.Idx → EReal) (N : Nx1.Idx → EReal)
    (j : S5000x128.Idx) (i : NxD.Idx) (hx : x j = X i)
    (hn : n (ix2 (n0 := 5000) (n1 := 1) (j 0) 0) = N (ix2 (n0 := 50000) (n1 := 1) (i 0) 0)) :
    k0_pay1 (F := Ideal) x n j = scaleRows X N i := by
  unfold k0_pay1
  exact scaleBlock_at x n _ _ X N j i hx hn

/-- What point t writes back to output one is block t of the features with each row scaled by the
    first column's entry: the row block and the column block are both rows 5000·t … 5000·t + 4999. -/
theorem flushed0_3 (c : Dev nD) (t : Fin cfg0.N) :
    (dat0 (F := Ideal) V c).flushed 3 t
      = ((cfg0.win 3).blk t).view.read (Elt Ideal) (scaleRows (V c main_arg0) (V c main_v38)) := by
  show (cfg0.win 3).cut (grid0.coords t) ((dat0 (F := Ideal) V c).after 3 t) = _
  rw [after0_3]
  unfold out0_3
  rw [View.canon_unit_zero zeroOff]
  simp only [View.ld_unit_zero (S := S5000x128) zeroOff, View.ld_unit_zero (S := S5000x1) zeroOff]
  obtain ⟨x0, x1, n0, n1, -, -, o0, o1, -, -⟩ := blockIdx0 t
  funext j
  refine pay0_3_at (iblk0 V c 0 t) (iblk0 V c 1 t) (V c main_arg0) (V c main_v38)
    ((cfg0.win 3).xinj (grid0.coords t) j) (((cfg0.win 3).blk t).view.emb j) ?_ ?_
  · show V c main_arg0 (((cfg0.win 0).blk t).view.emb j) = V c main_arg0 (((cfg0.win 3).blk t).view.emb j)
    refine congrArg (V c main_arg0) (funext fun a => Fin.ext ?_)
    match a with
    | ⟨0, _⟩ =>
      show win0_0.index t (0 : Fin 2) * 5000 + 1 * (j 0).val = win0_3.index t (0 : Fin 2) * 5000 + 1 * (j 0).val
      rw [x0, o0]
    | ⟨1, _⟩ =>
      show win0_0.index t (1 : Fin 2) * 128 + 1 * (j 1).val = win0_3.index t (1 : Fin 2) * 128 + 1 * (j 1).val
      rw [x1, o1]
  · show V c main_v38 (((cfg0.win 1).blk t).view.emb (ix2 (n0 := 5000) (n1 := 1) (j 0) 0))
      = V c main_v38 (ix2 (n0 := 50000) (n1 := 1) ((((cfg0.win 3).blk t).view.emb j) 0) 0)
    refine congrArg (V c main_v38) (funext fun a => Fin.ext ?_)
    match a with
    | ⟨0, _⟩ =>
      show win0_1.index t (0 : Fin 2) * 5000 + 1 * (j 0).val = win0_3.index t (0 : Fin 2) * 5000 + 1 * (j 0).val
      rw [n0, o0]
    | ⟨1, _⟩ =>
      show win0_1.index t (1 : Fin 2) * 1 + 1 * 0 = 0
      rw [n1]

/-- An array index lies in the block written back at point t iff each coordinate lies in the block's range. -/
theorem mem_blk0_3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v40_0).slice (win0_3.rect t)).set ↔ _
  rw [View.set_slice_whole, Rect.mem_set_unit]
  exact Iff.rfl

/-- Row r is written back at point r / 5000: the ten row blocks cover the array. -/
theorem rowsCovered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, o0, o1, -, -⟩ := blockIdx0 t
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [o0, ht]; omega
  | ⟨1, _⟩ =>
    show win0_3.index t (1 : Fin 2) * 128 ≤ (i 1).val ∧ (i 1).val < win0_3.index t (1 : Fin 2) * 128 + 128
    rw [o1]; omega

/-- The first region's output one: the features, each row scaled by the first column's entry. -/
theorem scale0_out3 (c : Dev nD) :
    (dat0 (F := Ideal) V c).arrAt 3 cfg0.N = scaleRows (V c main_arg0) (V c main_v38) :=
  (dat0 (F := Ideal) V c).arrAt_eq_of_cover 3 (scaleRows (V c main_arg0) (V c main_v38))
    (fun t _ => flushed0_3 V c t) rowsCovered0_3

/-- The value stored into output two's block, read against the whole arrays. -/
theorem pay0_4_at (x : Vec Ideal S5000x128 .f32) (n : Vec Ideal S5000x1 .f32) (X : NxD.Idx → EReal) (N : Nx1.Idx → EReal)
    (j : S5000x128.Idx) (i : NxD.Idx) (hx : x j = X i)
    (hn : n (ix2 (n0 := 5000) (n1 := 1) (j 0) 0) = N (ix2 (n0 := 50000) (n1 := 1) (i 0) 0)) :
    k0_pay2 (F := Ideal) x n j = scaleRows X N i := by
  unfold k0_pay2
  exact scaleBlock_at x n _ _ X N j i hx hn

/-- What point t writes back to output two is block t of the features with each row scaled by the
    second column's entry: the row block and the column block are both rows 5000·t … 5000·t + 4999. -/
theorem flushed0_4 (c : Dev nD) (t : Fin cfg0.N) :
    (dat0 (F := Ideal) V c).flushed 4 t
      = ((cfg0.win 4).blk t).view.read (Elt Ideal) (scaleRows (V c main_arg0) (V c main_v39)) := by
  show (cfg0.win 4).cut (grid0.coords t) ((dat0 (F := Ideal) V c).after 4 t) = _
  rw [after0_4]
  unfold out0_4
  rw [View.canon_unit_zero zeroOff]
  simp only [View.ld_unit_zero (S := S5000x128) zeroOff, View.ld_unit_zero (S := S5000x1) zeroOff]
  obtain ⟨x0, x1, -, -, n0, n1, -, -, o0, o1⟩ := blockIdx0 t
  funext j
  refine pay0_4_at (iblk0 V c 0 t) (iblk0 V c 2 t) (V c main_arg0) (V c main_v39)
    ((cfg0.win 4).xinj (grid0.coords t) j) (((cfg0.win 4).blk t).view.emb j) ?_ ?_
  · show V c main_arg0 (((cfg0.win 0).blk t).view.emb j) = V c main_arg0 (((cfg0.win 4).blk t).view.emb j)
    refine congrArg (V c main_arg0) (funext fun a => Fin.ext ?_)
    match a with
    | ⟨0, _⟩ =>
      show win0_0.index t (0 : Fin 2) * 5000 + 1 * (j 0).val = win0_4.index t (0 : Fin 2) * 5000 + 1 * (j 0).val
      rw [x0, o0]
    | ⟨1, _⟩ =>
      show win0_0.index t (1 : Fin 2) * 128 + 1 * (j 1).val = win0_4.index t (1 : Fin 2) * 128 + 1 * (j 1).val
      rw [x1, o1]
  · show V c main_v39 (((cfg0.win 2).blk t).view.emb (ix2 (n0 := 5000) (n1 := 1) (j 0) 0))
      = V c main_v39 (ix2 (n0 := 50000) (n1 := 1) ((((cfg0.win 4).blk t).view.emb j) 0) 0)
    refine congrArg (V c main_v39) (funext fun a => Fin.ext ?_)
    match a with
    | ⟨0, _⟩ =>
      show win0_2.index t (0 : Fin 2) * 5000 + 1 * (j 0).val = win0_4.index t (0 : Fin 2) * 5000 + 1 * (j 0).val
      rw [n0, o0]
    | ⟨1, _⟩ =>
      show win0_2.index t (1 : Fin 2) * 1 + 1 * 0 = 0
      rw [n1]

/-- An array index lies in the block written back at point t iff each coordinate lies in the block's range. -/
theorem mem_blk0_4 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v40_1).slice (win0_4.rect t)).set ↔ _
  rw [View.set_slice_whole, Rect.mem_set_unit]
  exact Iff.rfl

/-- Row r is written back at point r / 5000: the ten row blocks cover the array. -/
theorem rowsCovered0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, -, -, o0, o1⟩ := blockIdx0 t
  refine ⟨t, flush0_4 t, ?_⟩
  rw [mem_blk0_4]
  intro a
  match a with
  | ⟨0, _⟩ =>
    show win0_4.index t (0 : Fin 2) * 5000 ≤ (i 0).val ∧ (i 0).val < win0_4.index t (0 : Fin 2) * 5000 + 5000
    rw [o0, ht]; omega
  | ⟨1, _⟩ =>
    show win0_4.index t (1 : Fin 2) * 128 ≤ (i 1).val ∧ (i 1).val < win0_4.index t (1 : Fin 2) * 128 + 128
    rw [o1]; omega

/-- The first region's output two: the features, each row scaled by the second column's entry. -/
theorem scale0_out4 (c : Dev nD) :
    (dat0 (F := Ideal) V c).arrAt 4 cfg0.N = scaleRows (V c main_arg0) (V c main_v39) :=
  (dat0 (F := Ideal) V c).arrAt_eq_of_cover 4 (scaleRows (V c main_arg0) (V c main_v39))
    (fun t _ => flushed0_4 V c t) rowsCovered0_4

/-! ## The second row-scaling region -/

/-- At point t every window of the region is at block (t, 0): rows 5000·t … 5000·t + 4999. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The value stored into output one's block, read against the whole arrays (the block of rows passes through a reshape to its own shape first). -/
theorem pay3_3_at (x : Vec Ideal S5000x128 .f32) (n : Vec Ideal S5000x1 .f32) (X : NxD.Idx → EReal) (N : Nx1.Idx → EReal)
    (j : S5000x128.Idx) (i : NxD.Idx) (hx : x j = X i)
    (hn : n (ix2 (n0 := 5000) (n1 := 1) (j 0) 0) = N (ix2 (n0 := 50000) (n1 := 1) (i 0) 0)) :
    k3_pay2 (F := Ideal) x n j = scaleRows X N i := by
  unfold k3_pay2 k3_pay1
  exact scaleBlock_at (shapeCast S5000x128 x _) n _ _ X N j i ((congrFun (shapeCast_self x _) j).trans hx) hn

/-- What point t writes back to output one is block t of the features with each row scaled by the
    first column's entry: the row block and the column block are both rows 5000·t … 5000·t + 4999. -/
theorem flushed3_3 (c : Dev nD) (t : Fin cfg3.N) :
    (dat3 (F := Ideal) V c).flushed 3 t
      = ((cfg3.win 3).blk t).view.read (Elt Ideal) (scaleRows (V c main_v53) (V c main_v79)) := by
  show (cfg3.win 3).cut (grid3.coords t) ((dat3 (F := Ideal) V c).after 3 t) = _
  rw [after3_3]
  unfold out3_3
  rw [View.canon_unit_zero zeroOff]
  simp only [View.ld_unit_zero (S := S5000x128) zeroOff, View.ld_unit_zero (S := S5000x1) zeroOff]
  obtain ⟨x0, x1, n0, n1, -, -, o0, o1, -, -⟩ := blockIdx3 t
  funext j
  refine pay3_3_at (iblk3 V c 0 t) (iblk3 V c 1 t) (V c main_v53) (V c main_v79)
    ((cfg3.win 3).xinj (grid3.coords t) j) (((cfg3.win 3).blk t).view.emb j) ?_ ?_
  · show V c main_v53 (((cfg3.win 0).blk t).view.emb j) = V c main_v53 (((cfg3.win 3).blk t).view.emb j)
    refine congrArg (V c main_v53) (funext fun a => Fin.ext ?_)
    match a with
    | ⟨0, _⟩ =>
      show win3_0.index t (0 : Fin 2) * 5000 + 1 * (j 0).val = win3_3.index t (0 : Fin 2) * 5000 + 1 * (j 0).val
      rw [x0, o0]
    | ⟨1, _⟩ =>
      show win3_0.index t (1 : Fin 2) * 128 + 1 * (j 1).val = win3_3.index t (1 : Fin 2) * 128 + 1 * (j 1).val
      rw [x1, o1]
  · show V c main_v79 (((cfg3.win 1).blk t).view.emb (ix2 (n0 := 5000) (n1 := 1) (j 0) 0))
      = V c main_v79 (ix2 (n0 := 50000) (n1 := 1) ((((cfg3.win 3).blk t).view.emb j) 0) 0)
    refine congrArg (V c main_v79) (funext fun a => Fin.ext ?_)
    match a with
    | ⟨0, _⟩ =>
      show win3_1.index t (0 : Fin 2) * 5000 + 1 * (j 0).val = win3_3.index t (0 : Fin 2) * 5000 + 1 * (j 0).val
      rw [n0, o0]
    | ⟨1, _⟩ =>
      show win3_1.index t (1 : Fin 2) * 1 + 1 * 0 = 0
      rw [n1]

/-- An array index lies in the block written back at point t iff each coordinate lies in the block's range. -/
theorem mem_blk3_3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v81_0).slice (win3_3.rect t)).set ↔ _
  rw [View.set_slice_whole, Rect.mem_set_unit]
  exact Iff.rfl

/-- Row r is written back at point r / 5000: the ten row blocks cover the array. -/
theorem rowsCovered3_3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, o0, o1, -, -⟩ := blockIdx3 t
  refine ⟨t, flush3_3 t, ?_⟩
  rw [mem_blk3_3]
  intro a
  match a with
  | ⟨0, _⟩ =>
    show win3_3.index t (0 : Fin 2) * 5000 ≤ (i 0).val ∧ (i 0).val < win3_3.index t (0 : Fin 2) * 5000 + 5000
    rw [o0, ht]; omega
  | ⟨1, _⟩ =>
    show win3_3.index t (1 : Fin 2) * 128 ≤ (i 1).val ∧ (i 1).val < win3_3.index t (1 : Fin 2) * 128 + 128
    rw [o1]; omega

/-- The second region's output one: the features, each row scaled by the first column's entry. -/
theorem scale3_out3 (c : Dev nD) :
    (dat3 (F := Ideal) V c).arrAt 3 cfg3.N = scaleRows (V c main_v53) (V c main_v79) :=
  (dat3 (F := Ideal) V c).arrAt_eq_of_cover 3 (scaleRows (V c main_v53) (V c main_v79))
    (fun t _ => flushed3_3 V c t) rowsCovered3_3

/-- The value stored into output two's block, read against the whole arrays (the block of rows passes through a reshape to its own shape first). -/
theorem pay3_4_at (x : Vec Ideal S5000x128 .f32) (n : Vec Ideal S5000x1 .f32) (X : NxD.Idx → EReal) (N : Nx1.Idx → EReal)
    (j : S5000x128.Idx) (i : NxD.Idx) (hx : x j = X i)
    (hn : n (ix2 (n0 := 5000) (n1 := 1) (j 0) 0) = N (ix2 (n0 := 50000) (n1 := 1) (i 0) 0)) :
    k3_pay3 (F := Ideal) x n j = scaleRows X N i := by
  unfold k3_pay3 k3_pay1
  exact scaleBlock_at (shapeCast S5000x128 x _) n _ _ X N j i ((congrFun (shapeCast_self x _) j).trans hx) hn

/-- What point t writes back to output two is block t of the features with each row scaled by the
    second column's entry: the row block and the column block are both rows 5000·t … 5000·t + 4999. -/
theorem flushed3_4 (c : Dev nD) (t : Fin cfg3.N) :
    (dat3 (F := Ideal) V c).flushed 4 t
      = ((cfg3.win 4).blk t).view.read (Elt Ideal) (scaleRows (V c main_v53) (V c main_v80)) := by
  show (cfg3.win 4).cut (grid3.coords t) ((dat3 (F := Ideal) V c).after 4 t) = _
  rw [after3_4]
  unfold out3_4
  rw [View.canon_unit_zero zeroOff]
  simp only [View.ld_unit_zero (S := S5000x128) zeroOff, View.ld_unit_zero (S := S5000x1) zeroOff]
  obtain ⟨x0, x1, -, -, n0, n1, -, -, o0, o1⟩ := blockIdx3 t
  funext j
  refine pay3_4_at (iblk3 V c 0 t) (iblk3 V c 2 t) (V c main_v53) (V c main_v80)
    ((cfg3.win 4).xinj (grid3.coords t) j) (((cfg3.win 4).blk t).view.emb j) ?_ ?_
  · show V c main_v53 (((cfg3.win 0).blk t).view.emb j) = V c main_v53 (((cfg3.win 4).blk t).view.emb j)
    refine congrArg (V c main_v53) (funext fun a => Fin.ext ?_)
    match a with
    | ⟨0, _⟩ =>
      show win3_0.index t (0 : Fin 2) * 5000 + 1 * (j 0).val = win3_4.index t (0 : Fin 2) * 5000 + 1 * (j 0).val
      rw [x0, o0]
    | ⟨1, _⟩ =>
      show win3_0.index t (1 : Fin 2) * 128 + 1 * (j 1).val = win3_4.index t (1 : Fin 2) * 128 + 1 * (j 1).val
      rw [x1, o1]
  · show V c main_v80 (((cfg3.win 2).blk t).view.emb (ix2 (n0 := 5000) (n1 := 1) (j 0) 0))
      = V c main_v80 (ix2 (n0 := 50000) (n1 := 1) ((((cfg3.win 4).blk t).view.emb j) 0) 0)
    refine congrArg (V c main_v80) (funext fun a => Fin.ext ?_)
    match a with
    | ⟨0, _⟩ =>
      show win3_2.index t (0 : Fin 2) * 5000 + 1 * (j 0).val = win3_4.index t (0 : Fin 2) * 5000 + 1 * (j 0).val
      rw [n0, o0]
    | ⟨1, _⟩ =>
      show win3_2.index t (1 : Fin 2) * 1 + 1 * 0 = 0
      rw [n1]

/-- An array index lies in the block written back at point t iff each coordinate lies in the block's range. -/
theorem mem_blk3_4 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v81_1).slice (win3_4.rect t)).set ↔ _
  rw [View.set_slice_whole, Rect.mem_set_unit]
  exact Iff.rfl

/-- Row r is written back at point r / 5000: the ten row blocks cover the array. -/
theorem rowsCovered3_4 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, -, -, o0, o1⟩ := blockIdx3 t
  refine ⟨t, flush3_4 t, ?_⟩
  rw [mem_blk3_4]
  intro a
  match a with
  | ⟨0, _⟩ =>
    show win3_4.index t (0 : Fin 2) * 5000 ≤ (i 0).val ∧ (i 0).val < win3_4.index t (0 : Fin 2) * 5000 + 5000
    rw [o0, ht]; omega
  | ⟨1, _⟩ =>
    show win3_4.index t (1 : Fin 2) * 128 ≤ (i 1).val ∧ (i 1).val < win3_4.index t (1 : Fin 2) * 128 + 128
    rw [o1]; omega

/-- The second region's output two: the features, each row scaled by the second column's entry. -/
theorem scale3_out4 (c : Dev nD) :
    (dat3 (F := Ideal) V c).arrAt 4 cfg3.N = scaleRows (V c main_v53) (V c main_v80) :=
  (dat3 (F := Ideal) V c).arrAt_eq_of_cover 4 (scaleRows (V c main_v53) (V c main_v80))
    (fun t _ => flushed3_4 V c t) rowsCovered3_4

end Cert.KernelIdeal.RegionScale

end
-- ==== Proof.RegionConv.lean ====
/-
  The two graph-convolution regions of the kernel, each read as ONE whole-array function of the arrays the
  region finds.

  A region walks the 50000 node rows in 10 blocks of 5000 rows. At block t it holds rows 5000t … 5000t+4999 of
  the aggregated messages [50000,128] and of the destination norm [50000,1], and the whole weight matrix
  [128,128] and bias row [1,128]. Entry (p,q) of the block it stores is

      Σ_k (agg(p,k) · norm(p,0)) · W(k,q) + b(0,q)         (rounding to bf16 is the identity on extended reals;
                                                            the product accumulates from the zero matrix)

  and region 1 takes the maximum of that with the zero word. Entry (p,q) depends on row p of the messages and of
  the norm only, so block t of the output is block t of `convOut` / `convOutRelu` of the whole arrays; the 10
  blocks tile the 50000 rows (row r is in block r / 5000) and every block is written back, so the array the region
  leaves IS that function.
-/
import proofs.«162621_j68298569941171_1_alg».proof.Proof.Gen.KernelIdeal.Frame
import proofs.«162621_j68298569941171_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionConv

open Cert.KernelIdeal Cert.KernelIdeal.Gen Idealize.ShloMosaic Idealize.ShloMosaic.TcCoe Idealize.SL.Sem HeteroConv
open Idealize.ShloMosaic.ValueIdx
open Facts₀

/-! ## The block operations at an entry -/

/-- A column [5000,1] broadcast along the 128 features reads, at (p, k), the column's entry p. -/
theorem bcastCol_apply (x1 : FVec Ideal S5000x1 .f32) (h : S5000x1.Broadcasts S5000x128) (p : Fin 5000) (k : Fin 128) :
    broadcastTo S5000x128 x1 h (ix2 p k) = x1 (ix2 p (0 : Fin 1)) := by
  refine broadcastTo_apply x1 h (ix2 p k) (ix2 p (0 : Fin 1)) fun a => ?_
  match a with
  | ⟨0, _⟩ =>
    show p.val = if (5000 : Nat) = 1 then 0 else p.val
    rw [if_neg (by decide)]
  | ⟨1, _⟩ =>
    show (0 : Nat) = if (1 : Nat) = 1 then 0 else k.val
    rw [if_pos rfl]

/-- The block product's dimension numbers: rows of the left operand against columns of the right, contracting the
    128 features. -/
abbrev blockDot := dot_S5000x128_S128x128_S5000x128_1_0_0_1_n_n

theorem lhs_row (i : S5000x128.Idx) (s : blockDot.contr.Idx) : (blockDot.lhsIdx i s 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_col (i : S5000x128.Idx) (s : blockDot.contr.Idx) : (blockDot.lhsIdx i s 1).val = (s ⟨0, by decide⟩).val :=
  blockDot.lhsIdx_val_of_single rfl i s
theorem rhs_row (i : S5000x128.Idx) (s : blockDot.contr.Idx) : (blockDot.rhsIdx i s 0).val = (s ⟨0, by decide⟩).val :=
  blockDot.rhsIdx_val_of_single rfl i s
theorem rhs_col (i : S5000x128.Idx) (s : blockDot.contr.Idx) : (blockDot.rhsIdx i s 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- The block matrix product into a zero accumulator: entry (p,q) is the sum over k of a(p,k) · w(k,q). -/
theorem matmul_block_apply (a : FVec Ideal S5000x128 .bf16) (w : FVec Ideal S128x128 .bf16) (p : Fin 5000) (q : Fin 128) :
    matmul blockDot none a w (constant (F := Ideal) S5000x128 .f32 0x00000000#32) (ix2 p q)
      = ∑ k : Fin 128, a (ix2 p k) * w (ix2 k q) := by
  show FloatOps.matmul blockDot none a w (constant (F := Ideal) S5000x128 .f32 0x00000000#32) (ix2 p q) = _
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun ax => Fin.ext (by
    match ax with
    | ⟨0, _⟩ => exact lhs_row _ _
    | ⟨1, _⟩ => exact (lhs_col _ _).trans hk)
  have er : blockDot.rhsIdx (ix2 p q) ((contrEquiv1 blockDot 128 rfl rfl).symm k) = ix2 k q := funext fun ax => Fin.ext (by
    match ax with
    | ⟨0, _⟩ => exact (rhs_row _ _).trans hk
    | ⟨1, _⟩ => exact rhs_col _ _)
  rw [el, er]

/-! ## The block payloads at an entry -/

/-- The graph convolution's block payload (no rectifier) at row p, column q of a block:
    Σ_k (x0(p,k) · x1(p,0)) · x2(k,q) + x3(0,q). -/
theorem conv_pay_apply (x0 : Vec Ideal S5000x128 .f32) (x1 : Vec Ideal S5000x1 .f32)
    (x2 : Vec Ideal S128x128 .f32) (x3 : Vec Ideal S1x128 .f32) (p : Fin 5000) (q : Fin 128) :
    k4_pay1 (F := Ideal) x0 x1 x2 x3 (ix2 p q)
      = (∑ k : Fin 128, (x0 (ix2 p k) * x1 (ix2 p (0 : Fin 1))) * x2 (ix2 k q)) + x3 (ix2 (0 : Fin 1) q) := by
  unfold k4_pay1
  simp only [shapeCast_self]
  refine congrArg₂ (· + ·) ?_ (broadcastTo_1b_ab_apply x3 _ p q)
  refine (matmul_block_apply _ _ p q).trans ?_
  refine Finset.sum_congr rfl fun k _ => ?_
  exact congrArg (· * x2 (ix2 k q)) (congrArg (x0 (ix2 p k) * ·) (bcastCol_apply x1 _ p k))

/-- The rectified block payload: the maximum of the same entry and the zero word. -/
theorem convRelu_pay_apply (x0 : Vec Ideal S5000x128 .f32) (x1 : Vec Ideal S5000x1 .f32)
    (x2 : Vec Ideal S128x128 .f32) (x3 : Vec Ideal S1x128 .f32) (p : Fin 5000) (q : Fin 128) :
    k1_pay1 (F := Ideal) x0 x1 x2 x3 (ix2 p q)
      = max ((∑ k : Fin 128, (x0 (ix2 p k) * x1 (ix2 p (0 : Fin 1))) * x2 (ix2 k q)) + x3 (ix2 (0 : Fin 1) q))
          (Ideal.ofBits .f32 0x00000000#32) := by
  unfold k1_pay1
  simp only [shapeCast_self]
  refine congrArg₂ max ?_ rfl
  refine congrArg₂ (· + ·) ?_ (broadcastTo_1b_ab_apply x3 _ p q)
  refine (matmul_block_apply _ _ p q).trans ?_
  refine Finset.sum_congr rfl fun k _ => ?_
  exact congrArg (· * x2 (ix2 k q)) (congrArg (x0 (ix2 p k) * ·) (bcastCol_apply x1 _ p k))

/-! ## A block entry against the whole arrays -/

/-- The rectified entry (p,q) of a block, when row p of the block is row r of the arrays: the rectified graph
    convolution at (r,q). The weights and the bias are read whole. -/
theorem convRelu_point (x0 : Vec Ideal S5000x128 .f32) (x1 : Vec Ideal S5000x1 .f32)
    (x2 : Vec Ideal S128x128 .f32) (x3 : Vec Ideal S1x128 .f32)
    (agg : NxD.Idx → EReal) (n : Nx1.Idx → EReal) (W : DxD.Idx → EReal) (b : OnexD.Idx → EReal)
    (p : Fin 5000) (q : Fin 128) (r : Fin 50000)
    (h0 : ∀ k : Fin 128, x0 (ix2 p k) = agg (ix2 r k))
    (h1 : x1 (ix2 p (0 : Fin 1)) = n (ix2 r (0 : Fin 1)))
    (h2 : ∀ k : Fin 128, x2 (ix2 k q) = W (ix2 k q))
    (h3 : x3 (ix2 (0 : Fin 1) q) = b (ix2 (0 : Fin 1) q)) :
    k1_pay1 (F := Ideal) x0 x1 x2 x3 (ix2 p q) = convOutRelu agg n W b (ix2 r q) := by
  refine (convRelu_pay_apply x0 x1 x2 x3 p q).trans ?_
  show max ((∑ k : Fin 128, (x0 (ix2 p k) * x1 (ix2 p (0 : Fin 1))) * x2 (ix2 k q)) + x3 (ix2 (0 : Fin 1) q)) (Ideal.ofBits .f32 0x00000000#32)
    = max ((∑ k : Fin 128, (agg (ix2 r k) * n (ix2 r (0 : Fin 1))) * W (ix2 k q)) + b (ix2 (0 : Fin 1) q)) zeroLit
  rw [h1, h3]
  refine congrArg (fun s => max (s + b (ix2 (0 : Fin 1) q)) zeroLit) (Finset.sum_congr rfl fun k _ => ?_)
  rw [h0 k, h2 k]

/-- The same without the rectifier. -/
theorem conv_point (x0 : Vec Ideal S5000x128 .f32) (x1 : Vec Ideal S5000x1 .f32)
    (x2 : Vec Ideal S128x128 .f32) (x3 : Vec Ideal S1x128 .f32)
    (agg : NxD.Idx → EReal) (n : Nx1.Idx → EReal) (W : DxD.Idx → EReal) (b : OnexD.Idx → EReal)
    (p : Fin 5000) (q : Fin 128) (r : Fin 50000)
    (h0 : ∀ k : Fin 128, x0 (ix2 p k) = agg (ix2 r k))
    (h1 : x1 (ix2 p (0 : Fin 1)) = n (ix2 r (0 : Fin 1)))
    (h2 : ∀ k : Fin 128, x2 (ix2 k q) = W (ix2 k q))
    (h3 : x3 (ix2 (0 : Fin 1) q) = b (ix2 (0 : Fin 1) q)) :
    k4_pay1 (F := Ideal) x0 x1 x2 x3 (ix2 p q) = convOut agg n W b (ix2 r q) := by
  refine (conv_pay_apply x0 x1 x2 x3 p q).trans ?_
  show (∑ k : Fin 128, (x0 (ix2 p k) * x1 (ix2 p (0 : Fin 1))) * x2 (ix2 k q)) + x3 (ix2 (0 : Fin 1) q)
    = (∑ k : Fin 128, (agg (ix2 r k) * n (ix2 r (0 : Fin 1))) * W (ix2 k q)) + b (ix2 (0 : Fin 1) q)
  rw [h1, h3]
  refine congrArg (fun s => s + b (ix2 (0 : Fin 1) q)) (Finset.sum_congr rfl fun k _ => ?_)
  rw [h0 k, h2 k]

/-! ## From blocks to the array -/

variable (V : (c : Dev nD) → (b : Ref sig .tc) → Buf (Elt Ideal) ((c : Thread nD τ).loc b))

theorem zeroOff : (![0, 0] : Fin 2 → Nat) = fun _ => 0 := funext fun a => by fin_cases a <;> rfl

/-! ## Region 1 (with the rectifier) -/

/-- The printed index maps of region 1, decided over its 10 points: the node blocks (messages, norm, output)
    sit at block (t,0); the weights and the bias at block (0,0). -/
theorem blockIdx1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The messages' block at point t is rows 5000t … 5000t+4999 of the array. -/
theorem agg1_block (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v50 : S50000x128.Idx → Elt Ideal .f32) k := by
  obtain ⟨e0, e1, -⟩ := blockIdx1 t
  unfold iblk1
  rw [View.read_apply]
  show V c main_v50 _ = V c main_v50 _
  refine congrArg (V c main_v50) (funext fun a => Fin.ext ?_)
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The norm's block at point t is rows 5000t … 5000t+4999 of the column. -/
theorem norm1_block (c : Dev nD) (t : Fin cfg1.N) (x : S5000x1.Idx) (k : S50000x1.Idx)
    (hk0 : (k 0).val = t.val * 5000 + (x 0).val) (hk1 : (k 1).val = (x 1).val) :
    (iblk1 V c 1 t : Vec Ideal S5000x1 .f32) x = (V c main_v51 : S50000x1.Idx → Elt Ideal .f32) k := by
  obtain ⟨-, -, e0, e1, -⟩ := blockIdx1 t
  unfold iblk1
  rw [View.read_apply]
  show V c main_v51 _ = V c main_v51 _
  refine congrArg (V c main_v51) (funext fun a => Fin.ext ?_)
  match a with
  | ⟨0, _⟩ => show win1_1.index t (0 : Fin 2) * 5000 + 1 * (x 0).val = (k 0).val; rw [e0, hk0]; omega
  | ⟨1, _⟩ => show win1_1.index t (1 : Fin 2) * 1 + 1 * (x 1).val = (k 1).val; rw [e1, hk1]; omega

/-- The weights' block at every point is the whole matrix. -/
theorem weight1_block (c : Dev nD) (t : Fin cfg1.N) (x : S128x128.Idx) :
    (iblk1 V c 2 t : Vec Ideal S128x128 .f32) x = (V c main_arg2 : S128x128.Idx → Elt Ideal .f32) x := by
  obtain ⟨-, -, -, -, e0, e1, -⟩ := blockIdx1 t
  unfold iblk1
  rw [View.read_apply]
  show V c main_arg2 _ = V c main_arg2 _
  refine congrArg (V c main_arg2) (funext fun a => Fin.ext ?_)
  match a with
  | ⟨0, _⟩ => show win1_2.index t (0 : Fin 2) * 128 + 1 * (x 0).val = (x 0).val; rw [e0]; omega
  | ⟨1, _⟩ => show win1_2.index t (1 : Fin 2) * 128 + 1 * (x 1).val = (x 1).val; rw [e1]; omega

/-- The bias' block at every point is the whole row. -/
theorem bias1_block (c : Dev nD) (t : Fin cfg1.N) (x : S1x128.Idx) :
    (iblk1 V c 3 t : Vec Ideal S1x128 .f32) x = (V c main_v52 : S1x128.Idx → Elt Ideal .f32) x := by
  obtain ⟨-, -, -, -, -, -, e0, e1, -⟩ := blockIdx1 t
  unfold iblk1
  rw [View.read_apply]
  show V c main_v52 _ = V c main_v52 _
  refine congrArg (V c main_v52) (funext fun a => Fin.ext ?_)
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- What point t writes back is block t of the rectified graph convolution of the arrays the region finds. -/
theorem conv1_flushed (c : Dev nD) (t : Fin cfg1.N) :
    (dat1 (F := Ideal) V c).flushed 4 t
      = ((cfg1.win 4).blk t).view.read (Elt Ideal)
          (convOutRelu (V c main_v50) (V c main_v51) (V c main_arg2) (V c main_v52)) := by
  show (cfg1.win 4).cut (grid1.coords t) ((dat1 V c).after 4 t) = _
  rw [after1_4]
  unfold out1_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1⟩ := blockIdx1 t
  funext j
  have hN : t.val < 10 := Nat.lt_of_lt_of_eq t.isLt (show cfg1.N = 10 from N_1)
  have hj0 : (j 0).val < 5000 := (j 0).isLt
  have hr : t.val * 5000 + (j 0).val < 50000 := by omega
  have hi : ((cfg1.win 4).blk t).view.emb j = ix2 (n0 := 50000) (n1 := 128) ⟨t.val * 5000 + (j 0).val, hr⟩ (j 1) :=
    funext fun a => Fin.ext (by
      match a with
      | ⟨0, _⟩ => show win1_4.index t (0 : Fin 2) * 5000 + 1 * (j 0).val = t.val * 5000 + (j 0).val; rw [e0]; omega
      | ⟨1, _⟩ => show win1_4.index t (1 : Fin 2) * 128 + 1 * (j 1).val = (j 1).val; rw [e1]; omega)
  show k1_pay1 (iblk1 V c 0 t) (iblk1 V c 1 t) (iblk1 V c 2 t) (iblk1 V c 3 t) j
    = convOutRelu (V c main_v50) (V c main_v51) (V c main_arg2) (V c main_v52) (((cfg1.win 4).blk t).view.emb j)
  rw [hi]
  refine (congrArg (k1_pay1 (F := Ideal) (iblk1 V c 0 t) (iblk1 V c 1 t) (iblk1 V c 2 t) (iblk1 V c 3 t))
    (eq_ix2 (n0 := 5000) (n1 := 128) j)).trans ?_
  exact convRelu_point (iblk1 V c 0 t) (iblk1 V c 1 t) (iblk1 V c 2 t) (iblk1 V c 3 t)
    (V c main_v50) (V c main_v51) (V c main_arg2) (V c main_v52) (j 0) (j 1) ⟨t.val * 5000 + (j 0).val, hr⟩
    (fun k => agg1_block V c t _ _ rfl rfl) (norm1_block V c t _ _ rfl rfl)
    (fun k => weight1_block V c t _) (bias1_block V c t _)

/-- An index of the array is in point t's block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v53).slice (win1_4.rect t)).set ↔ _
  rw [View.set_slice_whole, Rect.mem_set_unit]
  exact Iff.rfl

/-- Every node row r is in the block of point r / 5000, and every point writes its block back. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, -, -, -, -, e0, e1⟩ := blockIdx1 t
  refine ⟨t, flush1_4 t, ?_⟩
  rw [mem_block1]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- REGION 1: the array it leaves is the rectified graph convolution of the arrays it finds. -/
theorem conv1_out4 (c : Dev nD) :
    (dat1 (F := Ideal) V c).arrAt 4 cfg1.N
      = convOutRelu (V c main_v50) (V c main_v51) (V c main_arg2) (V c main_v52) :=
  (dat1 (F := Ideal) V c).arrAt_eq_of_cover 4
    (convOutRelu (V c main_v50) (V c main_v51) (V c main_arg2) (V c main_v52))
    (fun t _ => conv1_flushed V c t) cover1

/-! ## Region 4 (no rectifier) -/

/-- The printed index maps of region 4, decided over its 10 points: the node blocks (messages, norm, output)
    sit at block (t,0); the weights and the bias at block (0,0). -/
theorem blockIdx4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The messages' block at point t is rows 5000t … 5000t+4999 of the array. -/
theorem agg4_block (c : Dev nD) (t : Fin cfg4.N) (x : S5000x128.Idx) (k : S50000x128.Idx)
    (hk0 : (k 0).val = t.val * 5000 + (x 0).val) (hk1 : (k 1).val = (x 1).val) :
    (iblk4 V c 0 t : Vec Ideal S5000x128 .f32) x = (V c main_v91 : S50000x128.Idx → Elt Ideal .f32) k := by
  obtain ⟨e0, e1, -⟩ := blockIdx4 t
  unfold iblk4
  rw [View.read_apply]
  show V c main_v91 _ = V c main_v91 _
  refine congrArg (V c main_v91) (funext fun a => Fin.ext ?_)
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The norm's block at point t is rows 5000t … 5000t+4999 of the column. -/
theorem norm4_block (c : Dev nD) (t : Fin cfg4.N) (x : S5000x1.Idx) (k : S50000x1.Idx)
    (hk0 : (k 0).val = t.val * 5000 + (x 0).val) (hk1 : (k 1).val = (x 1).val) :
    (iblk4 V c 1 t : Vec Ideal S5000x1 .f32) x = (V c main_v92 : S50000x1.Idx → Elt Ideal .f32) k := by
  obtain ⟨-, -, e0, e1, -⟩ := blockIdx4 t
  unfold iblk4
  rw [View.read_apply]
  show V c main_v92 _ = V c main_v92 _
  refine congrArg (V c main_v92) (funext fun a => Fin.ext ?_)
  match a with
  | ⟨0, _⟩ => show win4_1.index t (0 : Fin 2) * 5000 + 1 * (x 0).val = (k 0).val; rw [e0, hk0]; omega
  | ⟨1, _⟩ => show win4_1.index t (1 : Fin 2) * 1 + 1 * (x 1).val = (k 1).val; rw [e1, hk1]; omega

/-- The weights' block at every point is the whole matrix. -/
theorem weight4_block (c : Dev nD) (t : Fin cfg4.N) (x : S128x128.Idx) :
    (iblk4 V c 2 t : Vec Ideal S128x128 .f32) x = (V c main_arg9 : S128x128.Idx → Elt Ideal .f32) x := by
  obtain ⟨-, -, -, -, e0, e1, -⟩ := blockIdx4 t
  unfold iblk4
  rw [View.read_apply]
  show V c main_arg9 _ = V c main_arg9 _
  refine congrArg (V c main_arg9) (funext fun a => Fin.ext ?_)
  match a with
  | ⟨0, _⟩ => show win4_2.index t (0 : Fin 2) * 128 + 1 * (x 0).val = (x 0).val; rw [e0]; omega
  | ⟨1, _⟩ => show win4_2.index t (1 : Fin 2) * 128 + 1 * (x 1).val = (x 1).val; rw [e1]; omega

/-- The bias' block at every point is the whole row. -/
theorem bias4_block (c : Dev nD) (t : Fin cfg4.N) (x : S1x128.Idx) :
    (iblk4 V c 3 t : Vec Ideal S1x128 .f32) x = (V c main_v93 : S1x128.Idx → Elt Ideal .f32) x := by
  obtain ⟨-, -, -, -, -, -, e0, e1, -⟩ := blockIdx4 t
  unfold iblk4
  rw [View.read_apply]
  show V c main_v93 _ = V c main_v93 _
  refine congrArg (V c main_v93) (funext fun a => Fin.ext ?_)
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- What point t writes back is block t of the graph convolution of the arrays the region finds. -/
theorem conv4_flushed (c : Dev nD) (t : Fin cfg4.N) :
    (dat4 (F := Ideal) V c).flushed 4 t
      = ((cfg4.win 4).blk t).view.read (Elt Ideal)
          (convOut (V c main_v91) (V c main_v92) (V c main_arg9) (V c main_v93)) := by
  show (cfg4.win 4).cut (grid4.coords t) ((dat4 V c).after 4 t) = _
  rw [after4_4]
  unfold out4_4
  rw [View.canon_unit_zero zeroOff]
  simp only [View.ld_unit_zero (S := S5000x128) zeroOff, View.ld_unit_zero (S := S5000x1) zeroOff,
    View.ld_unit_zero (S := S128x128) zeroOff, View.ld_unit_zero (S := S1x128) zeroOff]
  obtain ⟨-, -, -, -, -, -, -, -, e0, e1⟩ := blockIdx4 t
  funext j
  have hN : t.val < 10 := Nat.lt_of_lt_of_eq t.isLt (show cfg4.N = 10 from N_4)
  have hj0 : (j 0).val < 5000 := (j 0).isLt
  have hr : t.val * 5000 + (j 0).val < 50000 := by omega
  have hi : ((cfg4.win 4).blk t).view.emb j = ix2 (n0 := 50000) (n1 := 128) ⟨t.val * 5000 + (j 0).val, hr⟩ (j 1) :=
    funext fun a => Fin.ext (by
      match a with
      | ⟨0, _⟩ => show win4_4.index t (0 : Fin 2) * 5000 + 1 * (j 0).val = t.val * 5000 + (j 0).val; rw [e0]; omega
      | ⟨1, _⟩ => show win4_4.index t (1 : Fin 2) * 128 + 1 * (j 1).val = (j 1).val; rw [e1]; omega)
  show k4_pay1 (iblk4 V c 0 t) (iblk4 V c 1 t) (iblk4 V c 2 t) (iblk4 V c 3 t) j
    = convOut (V c main_v91) (V c main_v92) (V c main_arg9) (V c main_v93) (((cfg4.win 4).blk t).view.emb j)
  rw [hi]
  refine (congrArg (k4_pay1 (F := Ideal) (iblk4 V c 0 t) (iblk4 V c 1 t) (iblk4 V c 2 t) (iblk4 V c 3 t))
    (eq_ix2 (n0 := 5000) (n1 := 128) j)).trans ?_
  exact conv_point (iblk4 V c 0 t) (iblk4 V c 1 t) (iblk4 V c 2 t) (iblk4 V c 3 t)
    (V c main_v91) (V c main_v92) (V c main_arg9) (V c main_v93) (j 0) (j 1) ⟨t.val * 5000 + (j 0).val, hr⟩
    (fun k => agg4_block V c t _ _ rfl rfl) (norm4_block V c t _ _ rfl rfl)
    (fun k => weight4_block V c t _) (bias4_block V c t _)

/-- An index of the array is in point t's block iff each coordinate is in the block's range on its axis. -/
theorem mem_block4 (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v94).slice (win4_4.rect t)).set ↔ _
  rw [View.set_slice_whole, Rect.mem_set_unit]
  exact Iff.rfl

/-- Every node row r is in the block of point r / 5000, and every point writes its block back. -/
theorem cover4 (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ : ∃ t : Fin cfg4.N, t.val = (i 0).val / 5000 :=
    ⟨⟨(i 0).val / 5000, by rw [show cfg4.N = 10 from N_4]; omega⟩, rfl⟩
  obtain ⟨-, -, -, -, -, -, -, -, e0, e1⟩ := blockIdx4 t
  refine ⟨t, flush4_4 t, ?_⟩
  rw [mem_block4]
  intro a
  match a with
  | ⟨0, _⟩ =>
    show win4_4.index t (0 : Fin 2) * 5000 ≤ (i 0).val ∧ (i 0).val < win4_4.index t (0 : Fin 2) * 5000 + 5000
    rw [e0, ht]; omega
  | ⟨1, _⟩ =>
    show win4_4.index t (1 : Fin 2) * 128 ≤ (i 1).val ∧ (i 1).val < win4_4.index t (1 : Fin 2) * 128 + 128
    rw [e1]; omega

/-- REGION 4: the array it leaves is the graph convolution (no rectifier) of the arrays it finds. -/
theorem conv4_out4 (c : Dev nD) :
    (dat4 (F := Ideal) V c).arrAt 4 cfg4.N
      = convOut (V c main_v91) (V c main_v92) (V c main_arg9) (V c main_v93) :=
  (dat4 (F := Ideal) V c).arrAt_eq_of_cover 4
    (convOut (V c main_v91) (V c main_v92) (V c main_arg9) (V c main_v93))
    (fun t _ => conv4_flushed V c t) cover4

end Cert.KernelIdeal.RegionConv

end
-- ==== Proof.RegionHetero.lean ====
/-
  The two node-type-sum regions of the kernel, read as whole arrays.

  Each of the two regions runs over ten row blocks of 5000 nodes.  At a block the body forms
      (((a·n) W + b) + x Ws) + (g·r) Wn) + bn
  on the block's 5000 rows, and the first of the two regions then takes the maximum with zero: three
  products of a [5000,128] block with a whole [128,128] weight matrix into a zero accumulator, two
  scalings of rows by a [5000,1] column, two biases spread from a [1,128] row.  Entry (p, q) of the
  result depends on row p of the three row-blocked inputs, on entry p of the two columns, on column q
  of the three weight matrices and on entry q of the two biases.  Row p of block t is row 5000 t + p of
  the array, the weights and the biases are the same whole arrays at every block, and the ten blocks
  cover the 50000 rows: so the array a region leaves is `heteroOut` (for the first region
  `heteroOutRelu`) of the region's input arrays, with the sums added in the body's own order.
-/
import proofs.«162621_j68298569941171_1_alg».proof.Proof.Gen.KernelIdeal.Frame
import proofs.«162621_j68298569941171_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionHetero

open Cert.KernelIdeal Cert.KernelIdeal.Gen Idealize.ShloMosaic Idealize.ShloMosaic.TcCoe Idealize.SL.Sem HeteroConv
open Idealize.ShloMosaic.ValueIdx

/-! ## The body's operations at an entry -/

/-- The left operand of the product is read at the result's row. -/
theorem lhs_row (i : S5000x128.Idx) (κ : dot_S5000x128_S128x128_S5000x128_1_0_0_1_n_n.contr.Idx) : (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand of the product is read at the result's column. -/
theorem rhs_col (i : S5000x128.Idx) (κ : dot_S5000x128_S128x128_S5000x128_1_0_0_1_n_n.contr.Idx) : (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block-times-weights product into the zero accumulator: entry (p, q) is Σ_k a(p,k) · w(k,q). -/
theorem matmul_at (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun ax => Fin.ext (by
    match ax with
    | ⟨0, _⟩ => exact lhs_row _ _
    | ⟨1, _⟩ => exact (dot_S5000x128_S128x128_S5000x128_1_0_0_1_n_n.lhsIdx_val_of_single rfl (ix2 p q) _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun ax => Fin.ext (by
    match ax with
    | ⟨0, _⟩ => exact (dot_S5000x128_S128x128_S5000x128_1_0_0_1_n_n.rhsIdx_val_of_single rfl (ix2 p q) _).trans hk
    | ⟨1, _⟩ => exact rhs_col _ _)
  rw [el, er]

/-- A [5000,1] column spread along the 128 features reads, at (p, q), the column's entry p. -/
theorem bcast_col_at {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-- A [1,128] row spread over the 5000 rows reads, at (p, q), the row's entry q. -/
theorem bcast_row_at {α : Type} (v : S1x128.Idx → α) (h : S1x128.Broadcasts S5000x128) (p : Fin 5000) (q : Fin 128) :
    broadcastTo S5000x128 v h (ix2 p q) = v (ix2 (0 : Fin 1) q) :=
  broadcastTo_1b_ab_apply v h p q

/-! ## The body's result at an entry

  Entry (p, q) of a block's result, from the ten loaded blocks; the hypotheses say where each block's
  entries sit in its array (row p of a row block is row P of the array; weights and biases are whole). -/

/-- The node-type sum of the second of the two regions (no rectifier), entry by entry. -/
theorem sum_at (A : NxD.Idx → EReal) (n : Nx1.Idx → EReal) (W : DxD.Idx → EReal) (b : OnexD.Idx → EReal)
    (X : NxD.Idx → EReal) (Ws : DxD.Idx → EReal) (G : NxD.Idx → EReal) (r : Nx1.Idx → EReal) (Wn : DxD.Idx → EReal) (bn : OnexD.Idx → EReal)
    (x0 : Vec Ideal S5000x128 .f32) (x1 : Vec Ideal S5000x1 .f32) (x2 : Vec Ideal S128x128 .f32) (x3 : Vec Ideal S1x128 .f32)
    (x4 : Vec Ideal S5000x128 .f32) (x5 : Vec Ideal S128x128 .f32) (x6 : Vec Ideal S5000x128 .f32) (x7 : Vec Ideal S5000x1 .f32)
    (x8 : Vec Ideal S128x128 .f32) (x9 : Vec Ideal S1x128 .f32)
    (P : Fin 50000) (p : Fin 5000) (q : Fin 128)
    (h0 : ∀ k : Fin 128, x0 (ix2 p k) = A (ix2 P k)) (h1 : x1 (ix2 p (0 : Fin 1)) = n (ix2 P (0 : Fin 1)))
    (h2 : ∀ k : Fin 128, x2 (ix2 k q) = W (ix2 k q)) (h3 : x3 (ix2 (0 : Fin 1) q) = b (ix2 (0 : Fin 1) q))
    (h4 : ∀ k : Fin 128, x4 (ix2 p k) = X (ix2 P k)) (h5 : ∀ k : Fin 128, x5 (ix2 k q) = Ws (ix2 k q))
    (h6 : ∀ k : Fin 128, x6 (ix2 p k) = G (ix2 P k)) (h7 : x7 (ix2 p (0 : Fin 1)) = r (ix2 P (0 : Fin 1)))
    (h8 : ∀ k : Fin 128, x8 (ix2 k q) = Wn (ix2 k q)) (h9 : x9 (ix2 (0 : Fin 1) q) = bn (ix2 (0 : Fin 1) q)) :
    k5_pay1 x0 x1 x2 x3 x4 x5 x6 x7 x8 x9 (ix2 p q) = heteroOut A n W b X Ws G r Wn bn (ix2 P q) := by
  unfold k5_pay1 heteroOut rowDot scaleRows
  simp only [shapeCast_self]
  simp only [addf_apply, matmul_at, truncf_apply, mulf_apply, bcast_col_at, bcast_row_at, h0, h1, h2, h3, h4, h5, h6, h7, h8, h9]

/-- The same sum inside the first region, before its rectifier. -/
theorem presum_at (A : NxD.Idx → EReal) (n : Nx1.Idx → EReal) (W : DxD.Idx → EReal) (b : OnexD.Idx → EReal)
    (X : NxD.Idx → EReal) (Ws : DxD.Idx → EReal) (G : NxD.Idx → EReal) (r : Nx1.Idx → EReal) (Wn : DxD.Idx → EReal) (bn : OnexD.Idx → EReal)
    (x0 : Vec Ideal S5000x128 .f32) (x1 : Vec Ideal S5000x1 .f32) (x2 : Vec Ideal S128x128 .f32) (x3 : Vec Ideal S1x128 .f32)
    (x4 : Vec Ideal S5000x128 .f32) (x5 : Vec Ideal S128x128 .f32) (x6 : Vec Ideal S5000x128 .f32) (x7 : Vec Ideal S5000x1 .f32)
    (x8 : Vec Ideal S128x128 .f32) (x9 : Vec Ideal S1x128 .f32)
    (P : Fin 50000) (p : Fin 5000) (q : Fin 128)
    (h0 : ∀ k : Fin 128, x0 (ix2 p k) = A (ix2 P k)) (h1 : x1 (ix2 p (0 : Fin 1)) = n (ix2 P (0 : Fin 1)))
    (h2 : ∀ k : Fin 128, x2 (ix2 k q) = W (ix2 k q)) (h3 : x3 (ix2 (0 : Fin 1) q) = b (ix2 (0 : Fin 1) q))
    (h4 : ∀ k : Fin 128, x4 (ix2 p k) = X (ix2 P k)) (h5 : ∀ k : Fin 128, x5 (ix2 k q) = Ws (ix2 k q))
    (h6 : ∀ k : Fin 128, x6 (ix2 p k) = G (ix2 P k)) (h7 : x7 (ix2 p (0 : Fin 1)) = r (ix2 P (0 : Fin 1)))
    (h8 : ∀ k : Fin 128, x8 (ix2 k q) = Wn (ix2 k q)) (h9 : x9 (ix2 (0 : Fin 1) q) = bn (ix2 (0 : Fin 1) q)) :
    k2_pay2 x0 x1 x2 x3 x4 x5 x6 x7 x8 x9 (ix2 p q) = heteroOut A n W b X Ws G r Wn bn (ix2 P q) := by
  unfold k2_pay2 heteroOut rowDot scaleRows
  simp only [shapeCast_self]
  simp only [addf_apply, matmul_at, truncf_apply, mulf_apply, bcast_col_at, bcast_row_at, h0, h1, h2, h3, h4, h5, h6, h7, h8, h9]

/-- The first region's result: the sum, then the maximum with the zero word. -/
theorem relu_at (A : NxD.Idx → EReal) (n : Nx1.Idx → EReal) (W : DxD.Idx → EReal) (b : OnexD.Idx → EReal)
    (X : NxD.Idx → EReal) (Ws : DxD.Idx → EReal) (G : NxD.Idx → EReal) (r : Nx1.Idx → EReal) (Wn : DxD.Idx → EReal) (bn : OnexD.Idx → EReal)
    (x0 : Vec Ideal S5000x128 .f32) (x1 : Vec Ideal S5000x1 .f32) (x2 : Vec Ideal S128x128 .f32) (x3 : Vec Ideal S1x128 .f32)
    (x4 : Vec Ideal S5000x128 .f32) (x5 : Vec Ideal S128x128 .f32) (x6 : Vec Ideal S5000x128 .f32) (x7 : Vec Ideal S5000x1 .f32)
    (x8 : Vec Ideal S128x128 .f32) (x9 : Vec Ideal S1x128 .f32)
    (P : Fin 50000) (p : Fin 5000) (q : Fin 128)
    (h0 : ∀ k : Fin 128, x0 (ix2 p k) = A (ix2 P k)) (h1 : x1 (ix2 p (0 : Fin 1)) = n (ix2 P (0 : Fin 1)))
    (h2 : ∀ k : Fin 128, x2 (ix2 k q) = W (ix2 k q)) (h3 : x3 (ix2 (0 : Fin 1) q) = b (ix2 (0 : Fin 1) q))
    (h4 : ∀ k : Fin 128, x4 (ix2 p k) = X (ix2 P k)) (h5 : ∀ k : Fin 128, x5 (ix2 k q) = Ws (ix2 k q))
    (h6 : ∀ k : Fin 128, x6 (ix2 p k) = G (ix2 P k)) (h7 : x7 (ix2 p (0 : Fin 1)) = r (ix2 P (0 : Fin 1)))
    (h8 : ∀ k : Fin 128, x8 (ix2 k q) = Wn (ix2 k q)) (h9 : x9 (ix2 (0 : Fin 1) q) = bn (ix2 (0 : Fin 1) q)) :
    k2_pay1 (k2_pay2 x0 x1 x2 x3 x4 x5 x6 x7 x8 x9) (Scalar.ofBits .f32 0x00000000#32) (ix2 p q)
      = heteroOutRelu A n W b X Ws G r Wn bn (ix2 P q) := by
  show max (k2_pay2 x0 x1 x2 x3 x4 x5 x6 x7 x8 x9 (ix2 p q)) zeroLit = max (heteroOut A n W b X Ws G r Wn bn (ix2 P q)) zeroLit
  rw [presum_at A n W b X Ws G r Wn bn x0 x1 x2 x3 x4 x5 x6 x7 x8 x9 P p q h0 h1 h2 h3 h4 h5 h6 h7 h8 h9]

variable (V : (c : Dev nD) → (b : Ref sig .tc) → Buf (Elt Ideal) ((c : Thread nD τ).loc b))

/-- Every access of the body is at offsets (0, 0) of its buffer. -/
theorem zero_offsets : (![0, 0] : Fin 2 → Nat) = fun _ => 0 := funext fun a => by fin_cases a <;> rfl

/-! ## Region with the rectifier: the blocks -/

/-- The block index maps over the ten row blocks: a row-blocked window (features, degree columns, the result)
    is at block (t, 0) at point t; the weights and the biases are at block (0, 0) at every point. -/
theorem block_index2 : ∀ t : Fin cfg2.N,
    (win2_10.index t (0 : Fin 2) = t.val ∧ win2_10.index t (1 : Fin 2) = 0)
    ∧ (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = t.val ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- Row p of window 0's block at point t is row P = 5000 t + p of its array. -/
theorem rows2_0 (c : Dev nD) (t : Fin cfg2.N) (p : Fin 5000) (k : Fin 128) (P : Fin 50000) (hP : P.val = t.val * 5000 + p.val) :
    (iblk2 V c 0 t : Vec Ideal S5000x128 .f32) (ix2 p k) = (V c main_v63 : NxD.Idx → EReal) (ix2 P k) := by
  have e0 := (block_index2 t).2.1.1
  have e1 := (block_index2 t).2.1.2
  unfold iblk2
  rw [View.read_apply]
  show V c main_v63 _ = V c main_v63 _
  refine congrArg _ (funext fun a => Fin.ext ?_)
  match a with
  | ⟨0, _⟩ => show win2_0.index t (0 : Fin 2) * 5000 + 1 * p.val = P.val; rw [e0, hP]; omega
  | ⟨1, _⟩ => show win2_0.index t (1 : Fin 2) * 128 + 1 * k.val = k.val; rw [e1]; omega

/-- Entry p of window 1's block at point t is entry P = 5000 t + p of its column. -/
theorem col2_1 (c : Dev nD) (t : Fin cfg2.N) (p : Fin 5000) (P : Fin 50000) (hP : P.val = t.val * 5000 + p.val) :
    (iblk2 V c 1 t : Vec Ideal S5000x1 .f32) (ix2 p (0 : Fin 1)) = (V c main_v74 : Nx1.Idx → EReal) (ix2 P (0 : Fin 1)) := by
  have e0 := (block_index2 t).2.2.1.1
  have e1 := (block_index2 t).2.2.1.2
  unfold iblk2
  rw [View.read_apply]
  show V c main_v74 _ = V c main_v74 _
  refine congrArg _ (funext fun a => Fin.ext ?_)
  match a with
  | ⟨0, _⟩ => show win2_1.index t (0 : Fin 2) * 5000 + 1 * p.val = P.val; rw [e0, hP]; omega
  | ⟨1, _⟩ => show win2_1.index t (1 : Fin 2) * 1 + 1 * 0 = 0; rw [e1]

/-- Window 2's block is the whole weight matrix at every point. -/
theorem wt2_2 (c : Dev nD) (t : Fin cfg2.N) (k q : Fin 128) :
    (iblk2 V c 2 t : Vec Ideal S128x128 .f32) (ix2 k q) = (V c main_arg4 : DxD.Idx → EReal) (ix2 k q) := by
  have e0 := (block_index2 t).2.2.2.1.1
  have e1 := (block_index2 t).2.2.2.1.2
  unfold iblk2
  rw [View.read_apply]
  show V c main_arg4 _ = V c main_arg4 _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Window 3's block is the whole bias row at every point. -/
theorem bias2_3 (c : Dev nD) (t : Fin cfg2.N) (q : Fin 128) :
    (iblk2 V c 3 t : Vec Ideal S1x128 .f32) (ix2 (0 : Fin 1) q) = (V c main_v75 : OnexD.Idx → EReal) (ix2 (0 : Fin 1) q) := by
  have e0 := (block_index2 t).2.2.2.2.1.1
  have e1 := (block_index2 t).2.2.2.2.1.2
  unfold iblk2
  rw [View.read_apply]
  show V c main_v75 _ = V c main_v75 _
  refine congrArg _ (funext fun a => Fin.ext ?_)
  match a with
  | ⟨0, _⟩ => show win2_3.index t (0 : Fin 2) * 1 + 1 * 0 = 0; rw [e0]
  | ⟨1, _⟩ => show win2_3.index t (1 : Fin 2) * 128 + 1 * q.val = q.val; rw [e1]; omega

/-- Row p of window 4's block at point t is row P = 5000 t + p of its array. -/
theorem rows2_4 (c : Dev nD) (t : Fin cfg2.N) (p : Fin 5000) (k : Fin 128) (P : Fin 50000) (hP : P.val = t.val * 5000 + p.val) :
    (iblk2 V c 4 t : Vec Ideal S5000x128 .f32) (ix2 p k) = (V c main_arg1 : NxD.Idx → EReal) (ix2 P k) := by
  have e0 := (block_index2 t).2.2.2.2.2.1.1
  have e1 := (block_index2 t).2.2.2.2.2.1.2
  unfold iblk2
  rw [View.read_apply]
  show V c main_arg1 _ = V c main_arg1 _
  refine congrArg _ (funext fun a => Fin.ext ?_)
  match a with
  | ⟨0, _⟩ => show win2_4.index t (0 : Fin 2) * 5000 + 1 * p.val = P.val; rw [e0, hP]; omega
  | ⟨1, _⟩ => show win2_4.index t (1 : Fin 2) * 128 + 1 * k.val = k.val; rw [e1]; omega

/-- Window 5's block is the whole weight matrix at every point. -/
theorem wt2_5 (c : Dev nD) (t : Fin cfg2.N) (k q : Fin 128) :
    (iblk2 V c 5 t : Vec Ideal S128x128 .f32) (ix2 k q) = (V c main_arg6 : DxD.Idx → EReal) (ix2 k q) := by
  have e0 := (block_index2 t).2.2.2.2.2.2.1.1
  have e1 := (block_index2 t).2.2.2.2.2.2.1.2
  unfold iblk2
  rw [View.read_apply]
  show V c main_arg6 _ = V c main_arg6 _
  refine congrArg _ (funext fun a => Fin.ext ?_)
  match a with
  | ⟨0, _⟩ => show win2_5.index t (0 : Fin 2) * 128 + 1 * k.val = k.val; rw [e0]; omega
  | ⟨1, _⟩ => show win2_5.index t (1 : Fin 2) * 128 + 1 * q.val = q.val; rw [e1]; omega

/-- Row p of window 6's block at point t is row P = 5000 t + p of its array. -/
theorem rows2_6 (c : Dev nD) (t : Fin cfg2.N) (p : Fin 5000) (k : Fin 128) (P : Fin 50000) (hP : P.val = t.val * 5000 + p.val) :
    (iblk2 V c 6 t : Vec Ideal S5000x128 .f32) (ix2 p k) = (V c main_v73 : NxD.Idx → EReal) (ix2 P k) := by
  have e0 := (block_index2 t).2.2.2.2.2.2.2.1.1
  have e1 := (block_index2 t).2.2.2.2.2.2.2.1.2
  unfold iblk2
  rw [View.read_apply]
  show V c main_v73 _ = V c main_v73 _
  refine congrArg _ (funext fun a => Fin.ext ?_)
  match a with
  | ⟨0, _⟩ => show win2_6.index t (0 : Fin 2) * 5000 + 1 * p.val = P.val; rw [e0, hP]; omega
  | ⟨1, _⟩ => show win2_6.index t (1 : Fin 2) * 128 + 1 * k.val = k.val; rw [e1]; omega

/-- Entry p of window 7's block at point t is entry P = 5000 t + p of its column. -/
theorem col2_7 (c : Dev nD) (t : Fin cfg2.N) (p : Fin 5000) (P : Fin 50000) (hP : P.val = t.val * 5000 + p.val) :
    (iblk2 V c 7 t : Vec Ideal S5000x1 .f32) (ix2 p (0 : Fin 1)) = (V c main_v76 : Nx1.Idx → EReal) (ix2 P (0 : Fin 1)) := by
  have e0 := (block_index2 t).2.2.2.2.2.2.2.2.1.1
  have e1 := (block_index2 t).2.2.2.2.2.2.2.2.1.2
  unfold iblk2
  rw [View.read_apply]
  show V c main_v76 _ = V c main_v76 _
  refine congrArg _ (funext fun a => Fin.ext ?_)
  match a with
  | ⟨0, _⟩ => show win2_7.index t (0 : Fin 2) * 5000 + 1 * p.val = P.val; rw [e0, hP]; omega
  | ⟨1, _⟩ => show win2_7.index t (1 : Fin 2) * 1 + 1 * 0 = 0; rw [e1]

/-- Window 8's block is the whole weight matrix at every point. -/
theorem wt2_8 (c : Dev nD) (t : Fin cfg2.N) (k q : Fin 128) :
    (iblk2 V c 8 t : Vec Ideal S128x128 .f32) (ix2 k q) = (V c main_arg7 : DxD.Idx → EReal) (ix2 k q) := by
  have e0 := (block_index2 t).2.2.2.2.2.2.2.2.2.1.1
  have e1 := (block_index2 t).2.2.2.2.2.2.2.2.2.1.2
  unfold iblk2
  rw [View.read_apply]
  show V c main_arg7 _ = V c main_arg7 _
  refine congrArg _ (funext fun a => Fin.ext ?_)
  match a with
  | ⟨0, _⟩ => show win2_8.index t (0 : Fin 2) * 128 + 1 * k.val = k.val; rw [e0]; omega
  | ⟨1, _⟩ => show win2_8.index t (1 : Fin 2) * 128 + 1 * q.val = q.val; rw [e1]; omega

/-- Window 9's block is the whole bias row at every point. -/
theorem bias2_9 (c : Dev nD) (t : Fin cfg2.N) (q : Fin 128) :
    (iblk2 V c 9 t : Vec Ideal S1x128 .f32) (ix2 (0 : Fin 1) q) = (V c main_v77 : OnexD.Idx → EReal) (ix2 (0 : Fin 1) q) := by
  have e0 := (block_index2 t).2.2.2.2.2.2.2.2.2.2.1
  have e1 := (block_index2 t).2.2.2.2.2.2.2.2.2.2.2
  unfold iblk2
  rw [View.read_apply]
  show V c main_v77 _ = V c main_v77 _
  refine congrArg _ (funext fun a => Fin.ext ?_)
  match a with
  | ⟨0, _⟩ => show win2_9.index t (0 : Fin 2) * 1 + 1 * 0 = 0; rw [e0]
  | ⟨1, _⟩ => show win2_9.index t (1 : Fin 2) * 128 + 1 * q.val = q.val; rw [e1]; omega

/-! ## Region with the rectifier: from the blocks to the array -/

/-- What point t writes back is block t of `heteroOutRelu` of the region's input arrays. -/
theorem flushed2_eq (c : Dev nD) (t : Fin cfg2.N) :
    (dat2 (F := Ideal) V c).flushed 10 t
      = ((cfg2.win 10).blk t).view.read (Elt Ideal) (heteroOutRelu (V c main_v63) (V c main_v74) (V c main_arg4) (V c main_v75) (V c main_arg1) (V c main_arg6) (V c main_v73) (V c main_v76) (V c main_arg7) (V c main_v77)) := by
  show (cfg2.win 10).cut (grid2.coords t) ((dat2 (F := Ideal) V c).after 10 t) = _
  rw [after2_10]
  unfold out2_10
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  have hN : cfg2.N = 10 := N_2
  have e0 := (block_index2 t).1.1
  have e1 := (block_index2 t).1.2
  funext j
  obtain ⟨p, q, rfl⟩ : ∃ (p : Fin 5000) (q : Fin 128), j = ix2 p q := ⟨j 0, j 1, eq_ix2 j⟩
  have ht : t.val < 10 := hN ▸ t.isLt
  obtain ⟨P, hP⟩ : ∃ P : Fin 50000, P.val = t.val * 5000 + p.val := ⟨⟨t.val * 5000 + p.val, by have := p.isLt; omega⟩, rfl⟩
  have hi : ((cfg2.win 10).blk t).view.emb (ix2 p q) = (ix2 P q : NxD.Idx) := by
    funext a; apply Fin.ext
    match a with
    | ⟨0, _⟩ => show win2_10.index t (0 : Fin 2) * 5000 + 1 * p.val = P.val; rw [e0, hP]; omega
    | ⟨1, _⟩ => show win2_10.index t (1 : Fin 2) * 128 + 1 * q.val = q.val; rw [e1]; omega
  rw [View.read_apply, hi]
  exact relu_at (V c main_v63) (V c main_v74) (V c main_arg4) (V c main_v75) (V c main_arg1) (V c main_arg6) (V c main_v73) (V c main_v76) (V c main_arg7) (V c main_v77)
      (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) P p q
      (fun k => rows2_0 V c t p k P hP)
      (col2_1 V c t p P hP)
      (fun k => wt2_2 V c t k q)
      (bias2_3 V c t q)
      (fun k => rows2_4 V c t p k P hP)
      (fun k => wt2_5 V c t k q)
      (fun k => rows2_6 V c t p k P hP)
      (col2_7 V c t p P hP)
      (fun k => wt2_8 V c t k q)
      (bias2_9 V c t q)

/-- An index of the result array is in point t's block iff each coordinate is in the block's range. -/
theorem mem_blk2 (t : Fin cfg2.N) (i : S50000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v78).slice (win2_10.rect t)).set ↔ _
  rw [View.set_slice_whole, Rect.mem_set_unit]
  exact Iff.rfl

/-- Row r of the result is written back by point r / 5000: the ten blocks cover the 50000 rows. -/
theorem cover2 (i : S50000x128.Idx) :
    ∃ t : Fin cfg2.N, (cfg2.win 10).flush t = true ∧ i ∈ ((cfg2.win 10).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  have e0 := (block_index2 t).1.1
  have e1 := (block_index2 t).1.2
  refine ⟨t, flush2_10 t, ?_⟩
  rw [mem_blk2]
  intro a
  match a with
  | ⟨0, _⟩ => show win2_10.index t (0 : Fin 2) * 5000 ≤ (i 0).val ∧ (i 0).val < win2_10.index t (0 : Fin 2) * 5000 + 5000; rw [e0, ht]; omega
  | ⟨1, _⟩ => show win2_10.index t (1 : Fin 2) * 128 ≤ (i 1).val ∧ (i 1).val < win2_10.index t (1 : Fin 2) * 128 + 128; rw [e1]; omega

/-- The array the region leaves: `heteroOutRelu` of its input arrays as the region finds them. -/
theorem hetero2_out10 (c : Dev nD) :
    (dat2 (F := Ideal) V c).arrAt 10 cfg2.N
      = heteroOutRelu (V c main_v63) (V c main_v74) (V c main_arg4) (V c main_v75) (V c main_arg1) (V c main_arg6) (V c main_v73) (V c main_v76) (V c main_arg7) (V c main_v77) :=
  (dat2 (F := Ideal) V c).arrAt_eq_of_cover 10 (heteroOutRelu (V c main_v63) (V c main_v74) (V c main_arg4) (V c main_v75) (V c main_arg1) (V c main_arg6) (V c main_v73) (V c main_v76) (V c main_arg7) (V c main_v77))
    (fun t _ => flushed2_eq V c t) cover2

/-! ## Region without the rectifier: the blocks -/

/-- The block index maps over the ten row blocks: a row-blocked window (features, degree columns, the result)
    is at block (t, 0) at point t; the weights and the biases are at block (0, 0) at every point. -/
theorem block_index5 : ∀ t : Fin cfg5.N,
    (win5_10.index t (0 : Fin 2) = t.val ∧ win5_10.index t (1 : Fin 2) = 0)
    ∧ (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0)
    ∧ (win5_5.index t (0 : Fin 2) = 0 ∧ win5_5.index t (1 : Fin 2) = 0)
    ∧ (win5_6.index t (0 : Fin 2) = t.val ∧ win5_6.index t (1 : Fin 2) = 0)
    ∧ (win5_7.index t (0 : Fin 2) = t.val ∧ win5_7.index t (1 : Fin 2) = 0)
    ∧ (win5_8.index t (0 : Fin 2) = 0 ∧ win5_8.index t (1 : Fin 2) = 0)
    ∧ (win5_9.index t (0 : Fin 2) = 0 ∧ win5_9.index t (1 : Fin 2) = 0) :=
  (by decide +kernel : ∀ t : Fin grid5.N, _)

/-- Row p of window 0's block at point t is row P = 5000 t + p of its array. -/
theorem rows5_0 (c : Dev nD) (t : Fin cfg5.N) (p : Fin 5000) (k : Fin 128) (P : Fin 50000) (hP : P.val = t.val * 5000 + p.val) :
    (iblk5 V c 0 t : Vec Ideal S5000x128 .f32) (ix2 p k) = (V c main_v104 : NxD.Idx → EReal) (ix2 P k) := by
  have e0 := (block_index5 t).2.1.1
  have e1 := (block_index5 t).2.1.2
  unfold iblk5
  rw [View.read_apply]
  show V c main_v104 _ = V c main_v104 _
  refine congrArg _ (funext fun a => Fin.ext ?_)
  match a with
  | ⟨0, _⟩ => show win5_0.index t (0 : Fin 2) * 5000 + 1 * p.val = P.val; rw [e0, hP]; omega
  | ⟨1, _⟩ => show win5_0.index t (1 : Fin 2) * 128 + 1 * k.val = k.val; rw [e1]; omega

/-- Entry p of window 1's block at point t is entry P = 5000 t + p of its column. -/
theorem col5_1 (c : Dev nD) (t : Fin cfg5.N) (p : Fin 5000) (P : Fin 50000) (hP : P.val = t.val * 5000 + p.val) :
    (iblk5 V c 1 t : Vec Ideal S5000x1 .f32) (ix2 p (0 : Fin 1)) = (V c main_v115 : Nx1.Idx → EReal) (ix2 P (0 : Fin 1)) := by
  have e0 := (block_index5 t).2.2.1.1
  have e1 := (block_index5 t).2.2.1.2
  unfold iblk5
  rw [View.read_apply]
  show V c main_v115 _ = V c main_v115 _
  refine congrArg _ (funext fun a => Fin.ext ?_)
  match a with
  | ⟨0, _⟩ => show win5_1.index t (0 : Fin 2) * 5000 + 1 * p.val = P.val; rw [e0, hP]; omega
  | ⟨1, _⟩ => show win5_1.index t (1 : Fin 2) * 1 + 1 * 0 = 0; rw [e1]

/-- Window 2's block is the whole weight matrix at every point. -/
theorem wt5_2 (c : Dev nD) (t : Fin cfg5.N) (k q : Fin 128) :
    (iblk5 V c 2 t : Vec Ideal S128x128 .f32) (ix2 k q) = (V c main_arg11 : DxD.Idx → EReal) (ix2 k q) := by
  have e0 := (block_index5 t).2.2.2.1.1
  have e1 := (block_index5 t).2.2.2.1.2
  unfold iblk5
  rw [View.read_apply]
  show V c main_arg11 _ = V c main_arg11 _
  refine congrArg _ (funext fun a => Fin.ext ?_)
  match a with
  | ⟨0, _⟩ => show win5_2.index t (0 : Fin 2) * 128 + 1 * k.val = k.val; rw [e0]; omega
  | ⟨1, _⟩ => show win5_2.index t (1 : Fin 2) * 128 + 1 * q.val = q.val; rw [e1]; omega

/-- Window 3's block is the whole bias row at every point. -/
theorem bias5_3 (c : Dev nD) (t : Fin cfg5.N) (q : Fin 128) :
    (iblk5 V c 3 t : Vec Ideal S1x128 .f32) (ix2 (0 : Fin 1) q) = (V c main_v116 : OnexD.Idx → EReal) (ix2 (0 : Fin 1) q) := by
  have e0 := (block_index5 t).2.2.2.2.1.1
  have e1 := (block_index5 t).2.2.2.2.1.2
  unfold iblk5
  rw [View.read_apply]
  show V c main_v116 _ = V c main_v116 _
  refine congrArg _ (funext fun a => Fin.ext ?_)
  match a with
  | ⟨0, _⟩ => show win5_3.index t (0 : Fin 2) * 1 + 1 * 0 = 0; rw [e0]
  | ⟨1, _⟩ => show win5_3.index t (1 : Fin 2) * 128 + 1 * q.val = q.val; rw [e1]; omega

/-- Row p of window 4's block at point t is row P = 5000 t + p of its array. -/
theorem rows5_4 (c : Dev nD) (t : Fin cfg5.N) (p : Fin 5000) (k : Fin 128) (P : Fin 50000) (hP : P.val = t.val * 5000 + p.val) :
    (iblk5 V c 4 t : Vec Ideal S5000x128 .f32) (ix2 p k) = (V c main_v78 : NxD.Idx → EReal) (ix2 P k) := by
  have e0 := (block_index5 t).2.2.2.2.2.1.1
  have e1 := (block_index5 t).2.2.2.2.2.1.2
  unfold iblk5
  rw [View.read_apply]
  show V c main_v78 _ = V c main_v78 _
  refine congrArg _ (funext fun a => Fin.ext ?_)
  match a with
  | ⟨0, _⟩ => show win5_4.index t (0 : Fin 2) * 5000 + 1 * p.val = P.val; rw [e0, hP]; omega
  | ⟨1, _⟩ => show win5_4.index t (1 : Fin 2) * 128 + 1 * k.val = k.val; rw [e1]; omega

/-- Window 5's block is the whole weight matrix at every point. -/
theorem wt5_5 (c : Dev nD) (t : Fin cfg5.N) (k q : Fin 128) :
    (iblk5 V c 5 t : Vec Ideal S128x128 .f32) (ix2 k q) = (V c main_arg13 : DxD.Idx → EReal) (ix2 k q) := by
  have e0 := (block_index5 t).2.2.2.2.2.2.1.1
  have e1 := (block_index5 t).2.2.2.2.2.2.1.2
  unfold iblk5
  rw [View.read_apply]
  show V c main_arg13 _ = V c main_arg13 _
  refine congrArg _ (funext fun a => Fin.ext ?_)
  match a with
  | ⟨0, _⟩ => show win5_5.index t (0 : Fin 2) * 128 + 1 * k.val = k.val; rw [e0]; omega
  | ⟨1, _⟩ => show win5_5.index t (1 : Fin 2) * 128 + 1 * q.val = q.val; rw [e1]; omega

/-- Row p of window 6's block at point t is row P = 5000 t + p of its array. -/
theorem rows5_6 (c : Dev nD) (t : Fin cfg5.N) (p : Fin 5000) (k : Fin 128) (P : Fin 50000) (hP : P.val = t.val * 5000 + p.val) :
    (iblk5 V c 6 t : Vec Ideal S5000x128 .f32) (ix2 p k) = (V c main_v114 : NxD.Idx → EReal) (ix2 P k) := by
  have e0 := (block_index5 t).2.2.2.2.2.2.2.1.1
  have e1 := (block_index5 t).2.2.2.2.2.2.2.1.2
  unfold iblk5
  rw [View.read_apply]
  show V c main_v114 _ = V c main_v114 _
  refine congrArg _ (funext fun a => Fin.ext ?_)
  match a with
  | ⟨0, _⟩ => show win5_6.index t (0 : Fin 2) * 5000 + 1 * p.val = P.val; rw [e0, hP]; omega
  | ⟨1, _⟩ => show win5_6.index t (1 : Fin 2) * 128 + 1 * k.val = k.val; rw [e1]; omega

/-- Entry p of window 7's block at point t is entry P = 5000 t + p of its column. -/
theorem col5_7 (c : Dev nD) (t : Fin cfg5.N) (p : Fin 5000) (P : Fin 50000) (hP : P.val = t.val * 5000 + p.val) :
    (iblk5 V c 7 t : Vec Ideal S5000x1 .f32) (ix2 p (0 : Fin 1)) = (V c main_v117 : Nx1.Idx → EReal) (ix2 P (0 : Fin 1)) := by
  have e0 := (block_index5 t).2.2.2.2.2.2.2.2.1.1
  have e1 := (block_index5 t).2.2.2.2.2.2.2.2.1.2
  unfold iblk5
  rw [View.read_apply]
  show V c main_v117 _ = V c main_v117 _
  refine congrArg _ (funext fun a => Fin.ext ?_)
  match a with
  | ⟨0, _⟩ => show win5_7.index t (0 : Fin 2) * 5000 + 1 * p.val = P.val; rw [e0, hP]; omega
  | ⟨1, _⟩ => show win5_7.index t (1 : Fin 2) * 1 + 1 * 0 = 0; rw [e1]

/-- Window 8's block is the whole weight matrix at every point. -/
theorem wt5_8 (c : Dev nD) (t : Fin cfg5.N) (k q : Fin 128) :
    (iblk5 V c 8 t : Vec Ideal S128x128 .f32) (ix2 k q) = (V c main_arg14 : DxD.Idx → EReal) (ix2 k q) := by
  have e0 := (block_index5 t).2.2.2.2.2.2.2.2.2.1.1
  have e1 := (block_index5 t).2.2.2.2.2.2.2.2.2.1.2
  unfold iblk5
  rw [View.read_apply]
  show V c main_arg14 _ = V c main_arg14 _
  refine congrArg _ (funext fun a => Fin.ext ?_)
  match a with
  | ⟨0, _⟩ => show win5_8.index t (0 : Fin 2) * 128 + 1 * k.val = k.val; rw [e0]; omega
  | ⟨1, _⟩ => show win5_8.index t (1 : Fin 2) * 128 + 1 * q.val = q.val; rw [e1]; omega

/-- Window 9's block is the whole bias row at every point. -/
theorem bias5_9 (c : Dev nD) (t : Fin cfg5.N) (q : Fin 128) :
    (iblk5 V c 9 t : Vec Ideal S1x128 .f32) (ix2 (0 : Fin 1) q) = (V c main_v118 : OnexD.Idx → EReal) (ix2 (0 : Fin 1) q) := by
  have e0 := (block_index5 t).2.2.2.2.2.2.2.2.2.2.1
  have e1 := (block_index5 t).2.2.2.2.2.2.2.2.2.2.2
  unfold iblk5
  rw [View.read_apply]
  show V c main_v118 _ = V c main_v118 _
  refine congrArg _ (funext fun a => Fin.ext ?_)
  match a with
  | ⟨0, _⟩ => show win5_9.index t (0 : Fin 2) * 1 + 1 * 0 = 0; rw [e0]
  | ⟨1, _⟩ => show win5_9.index t (1 : Fin 2) * 128 + 1 * q.val = q.val; rw [e1]; omega

/-! ## Region without the rectifier: from the blocks to the array -/

/-- What point t writes back is block t of `heteroOut` of the region's input arrays. -/
theorem flushed5_eq (c : Dev nD) (t : Fin cfg5.N) :
    (dat5 (F := Ideal) V c).flushed 10 t
      = ((cfg5.win 10).blk t).view.read (Elt Ideal) (heteroOut (V c main_v104) (V c main_v115) (V c main_arg11) (V c main_v116) (V c main_v78) (V c main_arg13) (V c main_v114) (V c main_v117) (V c main_arg14) (V c main_v118)) := by
  show (cfg5.win 10).cut (grid5.coords t) ((dat5 (F := Ideal) V c).after 10 t) = _
  rw [after5_10]
  unfold out5_10
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  have hN : cfg5.N = 10 := N_5
  have e0 := (block_index5 t).1.1
  have e1 := (block_index5 t).1.2
  funext j
  obtain ⟨p, q, rfl⟩ : ∃ (p : Fin 5000) (q : Fin 128), j = ix2 p q := ⟨j 0, j 1, eq_ix2 j⟩
  have ht : t.val < 10 := hN ▸ t.isLt
  obtain ⟨P, hP⟩ : ∃ P : Fin 50000, P.val = t.val * 5000 + p.val := ⟨⟨t.val * 5000 + p.val, by have := p.isLt; omega⟩, rfl⟩
  have hi : ((cfg5.win 10).blk t).view.emb (ix2 p q) = (ix2 P q : NxD.Idx) := by
    funext a; apply Fin.ext
    match a with
    | ⟨0, _⟩ => show win5_10.index t (0 : Fin 2) * 5000 + 1 * p.val = P.val; rw [e0, hP]; omega
    | ⟨1, _⟩ => show win5_10.index t (1 : Fin 2) * 128 + 1 * q.val = q.val; rw [e1]; omega
  rw [View.read_apply, hi]
  exact sum_at (V c main_v104) (V c main_v115) (V c main_arg11) (V c main_v116) (V c main_v78) (V c main_arg13) (V c main_v114) (V c main_v117) (V c main_arg14) (V c main_v118)
      (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) P p q
      (fun k => rows5_0 V c t p k P hP)
      (col5_1 V c t p P hP)
      (fun k => wt5_2 V c t k q)
      (bias5_3 V c t q)
      (fun k => rows5_4 V c t p k P hP)
      (fun k => wt5_5 V c t k q)
      (fun k => rows5_6 V c t p k P hP)
      (col5_7 V c t p P hP)
      (fun k => wt5_8 V c t k q)
      (bias5_9 V c t q)

/-- An index of the result array is in point t's block iff each coordinate is in the block's range. -/
theorem mem_blk5 (t : Fin cfg5.N) (i : S50000x128.Idx) :
    i ∈ ((cfg5.win 10).blk t).view.set ↔ ∀ a : Fin 2, win5_10.index t a * S5000x128.size a ≤ (i a).val ∧ (i a).val < win5_10.index t a * S5000x128.size a + S5000x128.size a := by
  show i ∈ ((View.whole main_v119).slice (win5_10.rect t)).set ↔ _
  rw [View.set_slice_whole, Rect.mem_set_unit]
  exact Iff.rfl

/-- Row r of the result is written back by point r / 5000: the ten blocks cover the 50000 rows. -/
theorem cover5 (i : S50000x128.Idx) :
    ∃ t : Fin cfg5.N, (cfg5.win 10).flush t = true ∧ i ∈ ((cfg5.win 10).blk t).view.set := by
  have hN : cfg5.N = 10 := N_5
  have hi0 : (i 0).val < 50000 := (i 0).isLt
  have hi1 : (i 1).val < 128 := (i 1).isLt
  obtain ⟨t, ht⟩ : ∃ t : Fin cfg5.N, t.val = (i 0).val / 5000 := ⟨⟨(i 0).val / 5000, by rw [hN]; omega⟩, rfl⟩
  have e0 := (block_index5 t).1.1
  have e1 := (block_index5 t).1.2
  refine ⟨t, flush5_10 t, ?_⟩
  rw [mem_blk5]
  intro a
  match a with
  | ⟨0, _⟩ => show win5_10.index t (0 : Fin 2) * 5000 ≤ (i 0).val ∧ (i 0).val < win5_10.index t (0 : Fin 2) * 5000 + 5000; rw [e0, ht]; omega
  | ⟨1, _⟩ => show win5_10.index t (1 : Fin 2) * 128 ≤ (i 1).val ∧ (i 1).val < win5_10.index t (1 : Fin 2) * 128 + 128; rw [e1]; omega

/-- The array the region leaves: `heteroOut` of its input arrays as the region finds them. -/
theorem hetero5_out10 (c : Dev nD) :
    (dat5 (F := Ideal) V c).arrAt 10 cfg5.N
      = heteroOut (V c main_v104) (V c main_v115) (V c main_arg11) (V c main_v116) (V c main_v78) (V c main_arg13) (V c main_v114) (V c main_v117) (V c main_arg14) (V c main_v118) :=
  (dat5 (F := Ideal) V c).arrAt_eq_of_cover 10 (heteroOut (V c main_v104) (V c main_v115) (V c main_arg11) (V c main_v116) (V c main_v78) (V c main_arg13) (V c main_v114) (V c main_v117) (V c main_arg14) (V c main_v118))
    (fun t _ => flushed5_eq V c t) cover5

end Cert.KernelIdeal.RegionHetero

end
-- ==== Proof.KernelStages.lean ====
/-
  What every intermediate array of the idealized kernel holds, as a term of the network (Net): boundary by
  boundary through @main.  A stretch of host operations computes degree norms, gathers rows along a relation's
  edges and sums them per destination; a grid region applies one dense layer block by block, and leaves the
  whole-array layer function of its input arrays.  The last two facts are the program's two results.
-/
import proofs.«162621_j68298569941171_1_alg».proof.Proof.Gen.KernelIdeal.Frame
import proofs.«162621_j68298569941171_1_alg».proof.Proof.KernelKeep
import proofs.«162621_j68298569941171_1_alg».proof.Proof.Net
import proofs.«162621_j68298569941171_1_alg».proof.Proof.RegionScale
import proofs.«162621_j68298569941171_1_alg».proof.Proof.RegionConv
import proofs.«162621_j68298569941171_1_alg».proof.Proof.RegionHetero
import Idealize.ShloMosaic.PureOps.Ideal
import Idealize.ShloMosaic.Lib.StableHlo.Run
set_option maxRecDepth 16384

noncomputable section

namespace Cert.KernelIdeal.KernelStages

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open HeteroConv HeteroConv.Net Cert.KernelIdeal.KernelKeep

variable (m : (ℓ : Loc nD τ sig) → Buf (Elt Ideal) ℓ) (ρ : Dev nD → PrngReg)

theorem F1_v10 (c : Dev nD) : W1 m ρ c (Proc.devRef .tc main_v10) = invSqrtDeg (m ((c : Thread nD τ).loc main_arg16)) := by
  show StableHlo.after hostOps0 (W0 m ρ c) (Proc.devRef .tc main_v10) = _
  after_results_simp
  rfl
theorem F1_v14 (c : Dev nD) : W1 m ρ c (Proc.devRef .tc main_v14) = invSqrtDeg (m ((c : Thread nD τ).loc main_arg17)) := by
  show StableHlo.after hostOps0 (W0 m ρ c) (Proc.devRef .tc main_v14) = _
  after_results_simp
  rfl
theorem F1_v25 (c : Dev nD) : W1 m ρ c (Proc.devRef .tc main_v25) = invSqrtDeg (m ((c : Thread nD τ).loc main_arg18)) := by
  show StableHlo.after hostOps0 (W0 m ρ c) (Proc.devRef .tc main_v25) = _
  after_results_simp
  rfl
theorem F1_v29 (c : Dev nD) : W1 m ρ c (Proc.devRef .tc main_v29) = invSqrtDeg (m ((c : Thread nD τ).loc main_arg19)) := by
  show StableHlo.after hostOps0 (W0 m ρ c) (Proc.devRef .tc main_v29) = _
  after_results_simp
  rfl
theorem F1_v37 (c : Dev nD) : W1 m ρ c (Proc.devRef .tc main_v37) = recipDeg (m ((c : Thread nD τ).loc main_arg21)) := by
  show StableHlo.after hostOps0 (W0 m ρ c) (Proc.devRef .tc main_v37) = _
  after_results_simp
  rfl
theorem F1_v38 (c : Dev nD) : W1 m ρ c (Proc.devRef .tc main_v38) = col (invSqrtDeg (m ((c : Thread nD τ).loc main_arg16))) := by
  show StableHlo.after hostOps0 (W0 m ρ c) (Proc.devRef .tc main_v38) = _
  after_results_simp
  rfl
theorem F1_v39 (c : Dev nD) : W1 m ρ c (Proc.devRef .tc main_v39) = col (invSqrtDeg (m ((c : Thread nD τ).loc main_arg18))) := by
  show StableHlo.after hostOps0 (W0 m ρ c) (Proc.devRef .tc main_v39) = _
  after_results_simp
  rfl
theorem F2_v40_0 (c : Dev nD) : W2 m ρ c (Proc.devRef .tc main_v40_0) = scaleRows (m ((c : Thread nD τ).loc main_arg0)) (col (invSqrtDeg (m ((c : Thread nD τ).loc main_arg16)))) := by
  refine (W2_arr m ρ c 3).trans ((RegionScale.scale0_out3 (V1 m ρ) c).trans ?_)
  show scaleRows (W1 m ρ c (Proc.devRef .tc main_arg0)) (W1 m ρ c (Proc.devRef .tc main_v38)) = _
  rw [arg0_at1 m ρ c, F1_v38 m ρ c]
theorem F2_v40_1 (c : Dev nD) : W2 m ρ c (Proc.devRef .tc main_v40_1) = scaleRows (m ((c : Thread nD τ).loc main_arg0)) (col (invSqrtDeg (m ((c : Thread nD τ).loc main_arg18)))) := by
  refine (W2_arr m ρ c 4).trans ((RegionScale.scale0_out4 (V1 m ρ) c).trans ?_)
  show scaleRows (W1 m ρ c (Proc.devRef .tc main_arg0)) (W1 m ρ c (Proc.devRef .tc main_v39)) = _
  rw [arg0_at1 m ρ c, F1_v39 m ρ c]
theorem F3_v50 (c : Dev nD) : W3 m ρ c (Proc.devRef .tc main_v50) = convAgg (m ((c : Thread nD τ).loc main_arg0)) (m ((c : Thread nD τ).loc main_arg16)) (m ((c : Thread nD τ).loc main_arg17)) := by
  show StableHlo.after hostOps1 (W2 m ρ c) (Proc.devRef .tc main_v50) = _
  after_results_simp
  rw [F2_v40_0 m ρ c, arg16_at2 m ρ c, arg17_at2 m ρ c]
  rfl
theorem F3_v51 (c : Dev nD) : W3 m ρ c (Proc.devRef .tc main_v51) = col (invSqrtDeg (m ((c : Thread nD τ).loc main_arg17))) := by
  show StableHlo.after hostOps1 (W2 m ρ c) (Proc.devRef .tc main_v51) = _
  after_results_simp
  rw [v14_at2 m ρ c, F1_v14 m ρ c]
  rfl
theorem F3_v52 (c : Dev nD) : W3 m ρ c (Proc.devRef .tc main_v52) = row (m ((c : Thread nD τ).loc main_arg3)) := by
  show StableHlo.after hostOps1 (W2 m ρ c) (Proc.devRef .tc main_v52) = _
  after_results_simp
  rw [arg3_at2 m ρ c]
  rfl
theorem F4_v53 (c : Dev nD) : W4 m ρ c (Proc.devRef .tc main_v53) = (hC (m ((c : Thread nD τ).loc main_arg0)) (m ((c : Thread nD τ).loc main_arg2)) (m ((c : Thread nD τ).loc main_arg3)) (m ((c : Thread nD τ).loc main_arg16)) (m ((c : Thread nD τ).loc main_arg17))) := by
  refine (W4_arr m ρ c 4).trans ((RegionConv.conv1_out4 (V3 m ρ) c).trans ?_)
  show convOutRelu (W3 m ρ c (Proc.devRef .tc main_v50)) (W3 m ρ c (Proc.devRef .tc main_v51)) (W3 m ρ c (Proc.devRef .tc main_arg2)) (W3 m ρ c (Proc.devRef .tc main_v52)) = _
  rw [F3_v50 m ρ c, F3_v51 m ρ c, arg2_at3 m ρ c, F3_v52 m ρ c]
  rfl
theorem F5_v63 (c : Dev nD) : W5 m ρ c (Proc.devRef .tc main_v63) = convAgg (m ((c : Thread nD τ).loc main_arg0)) (m ((c : Thread nD τ).loc main_arg18)) (m ((c : Thread nD τ).loc main_arg19)) := by
  show StableHlo.after hostOps2 (W4 m ρ c) (Proc.devRef .tc main_v63) = _
  after_results_simp
  rw [v40_1_at4 m ρ c, F2_v40_1 m ρ c, arg18_at4 m ρ c, arg19_at4 m ρ c]
  rfl
theorem F5_v73 (c : Dev nD) : W5 m ρ c (Proc.devRef .tc main_v73) = aggregate (m ((c : Thread nD τ).loc main_arg1)) (m ((c : Thread nD τ).loc main_arg20)) (m ((c : Thread nD τ).loc main_arg21)) := by
  show StableHlo.after hostOps2 (W4 m ρ c) (Proc.devRef .tc main_v73) = _
  after_results_simp
  rw [arg1_at4 m ρ c, arg20_at4 m ρ c, arg21_at4 m ρ c]
  rfl
theorem F5_v74 (c : Dev nD) : W5 m ρ c (Proc.devRef .tc main_v74) = col (invSqrtDeg (m ((c : Thread nD τ).loc main_arg19))) := by
  show StableHlo.after hostOps2 (W4 m ρ c) (Proc.devRef .tc main_v74) = _
  after_results_simp
  rw [v29_at4 m ρ c, F1_v29 m ρ c]
  rfl
theorem F5_v75 (c : Dev nD) : W5 m ρ c (Proc.devRef .tc main_v75) = row (m ((c : Thread nD τ).loc main_arg5)) := by
  show StableHlo.after hostOps2 (W4 m ρ c) (Proc.devRef .tc main_v75) = _
  after_results_simp
  rw [arg5_at4 m ρ c]
  rfl
theorem F5_v76 (c : Dev nD) : W5 m ρ c (Proc.devRef .tc main_v76) = col (recipDeg (m ((c : Thread nD τ).loc main_arg21))) := by
  show StableHlo.after hostOps2 (W4 m ρ c) (Proc.devRef .tc main_v76) = _
  after_results_simp
  rw [v37_at4 m ρ c, F1_v37 m ρ c]
  rfl
theorem F5_v77 (c : Dev nD) : W5 m ρ c (Proc.devRef .tc main_v77) = row (m ((c : Thread nD τ).loc main_arg8)) := by
  show StableHlo.after hostOps2 (W4 m ρ c) (Proc.devRef .tc main_v77) = _
  after_results_simp
  rw [arg8_at4 m ρ c]
  rfl
theorem F6_v78 (c : Dev nD) : W6 m ρ c (Proc.devRef .tc main_v78) = (hN (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg18)) (m ((c : Thread nD τ).loc main_arg19)) (m ((c : Thread nD τ).loc main_arg20)) (m ((c : Thread nD τ).loc main_arg21))) := by
  refine (W6_arr m ρ c 10).trans ((RegionHetero.hetero2_out10 (V5 m ρ) c).trans ?_)
  show heteroOutRelu (W5 m ρ c (Proc.devRef .tc main_v63)) (W5 m ρ c (Proc.devRef .tc main_v74)) (W5 m ρ c (Proc.devRef .tc main_arg4)) (W5 m ρ c (Proc.devRef .tc main_v75)) (W5 m ρ c (Proc.devRef .tc main_arg1)) (W5 m ρ c (Proc.devRef .tc main_arg6)) (W5 m ρ c (Proc.devRef .tc main_v73)) (W5 m ρ c (Proc.devRef .tc main_v76)) (W5 m ρ c (Proc.devRef .tc main_arg7)) (W5 m ρ c (Proc.devRef .tc main_v77)) = _
  rw [F5_v63 m ρ c, F5_v74 m ρ c, arg4_at5 m ρ c, F5_v75 m ρ c, arg1_at5 m ρ c, arg6_at5 m ρ c, F5_v73 m ρ c, F5_v76 m ρ c, arg7_at5 m ρ c, F5_v77 m ρ c]
  rfl
theorem F7_v79 (c : Dev nD) : W7 m ρ c (Proc.devRef .tc main_v79) = col (invSqrtDeg (m ((c : Thread nD τ).loc main_arg16))) := by
  show StableHlo.after hostOps3 (W6 m ρ c) (Proc.devRef .tc main_v79) = _
  after_results_simp
  rw [v10_at6 m ρ c, F1_v10 m ρ c]
  rfl
theorem F7_v80 (c : Dev nD) : W7 m ρ c (Proc.devRef .tc main_v80) = col (invSqrtDeg (m ((c : Thread nD τ).loc main_arg18))) := by
  show StableHlo.after hostOps3 (W6 m ρ c) (Proc.devRef .tc main_v80) = _
  after_results_simp
  rw [v25_at6 m ρ c, F1_v25 m ρ c]
  rfl
theorem F8_v81_0 (c : Dev nD) : W8 m ρ c (Proc.devRef .tc main_v81_0) = scaleRows (hC (m ((c : Thread nD τ).loc main_arg0)) (m ((c : Thread nD τ).loc main_arg2)) (m ((c : Thread nD τ).loc main_arg3)) (m ((c : Thread nD τ).loc main_arg16)) (m ((c : Thread nD τ).loc main_arg17))) (col (invSqrtDeg (m ((c : Thread nD τ).loc main_arg16)))) := by
  refine (W8_arr m ρ c 3).trans ((RegionScale.scale3_out3 (V7 m ρ) c).trans ?_)
  show scaleRows (W7 m ρ c (Proc.devRef .tc main_v53)) (W7 m ρ c (Proc.devRef .tc main_v79)) = _
  rw [v53_at7 m ρ c, F4_v53 m ρ c, F7_v79 m ρ c]
theorem F8_v81_1 (c : Dev nD) : W8 m ρ c (Proc.devRef .tc main_v81_1) = scaleRows (hC (m ((c : Thread nD τ).loc main_arg0)) (m ((c : Thread nD τ).loc main_arg2)) (m ((c : Thread nD τ).loc main_arg3)) (m ((c : Thread nD τ).loc main_arg16)) (m ((c : Thread nD τ).loc main_arg17))) (col (invSqrtDeg (m ((c : Thread nD τ).loc main_arg18)))) := by
  refine (W8_arr m ρ c 4).trans ((RegionScale.scale3_out4 (V7 m ρ) c).trans ?_)
  show scaleRows (W7 m ρ c (Proc.devRef .tc main_v53)) (W7 m ρ c (Proc.devRef .tc main_v80)) = _
  rw [v53_at7 m ρ c, F4_v53 m ρ c, F7_v80 m ρ c]
theorem F9_v91 (c : Dev nD) : W9 m ρ c (Proc.devRef .tc main_v91) = convAgg (hC (m ((c : Thread nD τ).loc main_arg0)) (m ((c : Thread nD τ).loc main_arg2)) (m ((c : Thread nD τ).loc main_arg3)) (m ((c : Thread nD τ).loc main_arg16)) (m ((c : Thread nD τ).loc main_arg17))) (m ((c : Thread nD τ).loc main_arg16)) (m ((c : Thread nD τ).loc main_arg17)) := by
  show StableHlo.after hostOps4 (W8 m ρ c) (Proc.devRef .tc main_v91) = _
  after_results_simp
  rw [F8_v81_0 m ρ c, arg16_at8 m ρ c, arg17_at8 m ρ c]
  rfl
theorem F9_v92 (c : Dev nD) : W9 m ρ c (Proc.devRef .tc main_v92) = col (invSqrtDeg (m ((c : Thread nD τ).loc main_arg17))) := by
  show StableHlo.after hostOps4 (W8 m ρ c) (Proc.devRef .tc main_v92) = _
  after_results_simp
  rw [v14_at8 m ρ c, F1_v14 m ρ c]
  rfl
theorem F9_v93 (c : Dev nD) : W9 m ρ c (Proc.devRef .tc main_v93) = row (m ((c : Thread nD τ).loc main_arg10)) := by
  show StableHlo.after hostOps4 (W8 m ρ c) (Proc.devRef .tc main_v93) = _
  after_results_simp
  rw [arg10_at8 m ρ c]
  rfl
theorem F10_v94 (c : Dev nD) : W10 m ρ c (Proc.devRef .tc main_v94) = oC (hC (m ((c : Thread nD τ).loc main_arg0)) (m ((c : Thread nD τ).loc main_arg2)) (m ((c : Thread nD τ).loc main_arg3)) (m ((c : Thread nD τ).loc main_arg16)) (m ((c : Thread nD τ).loc main_arg17))) (m ((c : Thread nD τ).loc main_arg9)) (m ((c : Thread nD τ).loc main_arg10)) (m ((c : Thread nD τ).loc main_arg16)) (m ((c : Thread nD τ).loc main_arg17)) := by
  refine (W10_arr m ρ c 4).trans ((RegionConv.conv4_out4 (V9 m ρ) c).trans ?_)
  show convOut (W9 m ρ c (Proc.devRef .tc main_v91)) (W9 m ρ c (Proc.devRef .tc main_v92)) (W9 m ρ c (Proc.devRef .tc main_arg9)) (W9 m ρ c (Proc.devRef .tc main_v93)) = _
  rw [F9_v91 m ρ c, F9_v92 m ρ c, arg9_at9 m ρ c, F9_v93 m ρ c]
  rfl
theorem F11_v104 (c : Dev nD) : W11 m ρ c (Proc.devRef .tc main_v104) = convAgg (hC (m ((c : Thread nD τ).loc main_arg0)) (m ((c : Thread nD τ).loc main_arg2)) (m ((c : Thread nD τ).loc main_arg3)) (m ((c : Thread nD τ).loc main_arg16)) (m ((c : Thread nD τ).loc main_arg17))) (m ((c : Thread nD τ).loc main_arg18)) (m ((c : Thread nD τ).loc main_arg19)) := by
  show StableHlo.after hostOps5 (W10 m ρ c) (Proc.devRef .tc main_v104) = _
  after_results_simp
  rw [v81_1_at10 m ρ c, F8_v81_1 m ρ c, arg18_at10 m ρ c, arg19_at10 m ρ c]
  rfl
theorem F11_v114 (c : Dev nD) : W11 m ρ c (Proc.devRef .tc main_v114) = aggregate (hN (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg18)) (m ((c : Thread nD τ).loc main_arg19)) (m ((c : Thread nD τ).loc main_arg20)) (m ((c : Thread nD τ).loc main_arg21))) (m ((c : Thread nD τ).loc main_arg20)) (m ((c : Thread nD τ).loc main_arg21)) := by
  show StableHlo.after hostOps5 (W10 m ρ c) (Proc.devRef .tc main_v114) = _
  after_results_simp
  rw [v78_at10 m ρ c, F6_v78 m ρ c, arg20_at10 m ρ c, arg21_at10 m ρ c]
  rfl
theorem F11_v115 (c : Dev nD) : W11 m ρ c (Proc.devRef .tc main_v115) = col (invSqrtDeg (m ((c : Thread nD τ).loc main_arg19))) := by
  show StableHlo.after hostOps5 (W10 m ρ c) (Proc.devRef .tc main_v115) = _
  after_results_simp
  rw [v29_at10 m ρ c, F1_v29 m ρ c]
  rfl
theorem F11_v116 (c : Dev nD) : W11 m ρ c (Proc.devRef .tc main_v116) = row (m ((c : Thread nD τ).loc main_arg12)) := by
  show StableHlo.after hostOps5 (W10 m ρ c) (Proc.devRef .tc main_v116) = _
  after_results_simp
  rw [arg12_at10 m ρ c]
  rfl
theorem F11_v117 (c : Dev nD) : W11 m ρ c (Proc.devRef .tc main_v117) = col (recipDeg (m ((c : Thread nD τ).loc main_arg21))) := by
  show StableHlo.after hostOps5 (W10 m ρ c) (Proc.devRef .tc main_v117) = _
  after_results_simp
  rw [v37_at10 m ρ c, F1_v37 m ρ c]
  rfl
theorem F11_v118 (c : Dev nD) : W11 m ρ c (Proc.devRef .tc main_v118) = row (m ((c : Thread nD τ).loc main_arg15)) := by
  show StableHlo.after hostOps5 (W10 m ρ c) (Proc.devRef .tc main_v118) = _
  after_results_simp
  rw [arg15_at10 m ρ c]
  rfl
theorem F12_v119 (c : Dev nD) : W12 m ρ c (Proc.devRef .tc main_v119) = oN (hC (m ((c : Thread nD τ).loc main_arg0)) (m ((c : Thread nD τ).loc main_arg2)) (m ((c : Thread nD τ).loc main_arg3)) (m ((c : Thread nD τ).loc main_arg16)) (m ((c : Thread nD τ).loc main_arg17))) (hN (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg18)) (m ((c : Thread nD τ).loc main_arg19)) (m ((c : Thread nD τ).loc main_arg20)) (m ((c : Thread nD τ).loc main_arg21))) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg18)) (m ((c : Thread nD τ).loc main_arg19)) (m ((c : Thread nD τ).loc main_arg20)) (m ((c : Thread nD τ).loc main_arg21)) := by
  refine (W12_arr m ρ c 10).trans ((RegionHetero.hetero5_out10 (V11 m ρ) c).trans ?_)
  show heteroOut (W11 m ρ c (Proc.devRef .tc main_v104)) (W11 m ρ c (Proc.devRef .tc main_v115)) (W11 m ρ c (Proc.devRef .tc main_arg11)) (W11 m ρ c (Proc.devRef .tc main_v116)) (W11 m ρ c (Proc.devRef .tc main_v78)) (W11 m ρ c (Proc.devRef .tc main_arg13)) (W11 m ρ c (Proc.devRef .tc main_v114)) (W11 m ρ c (Proc.devRef .tc main_v117)) (W11 m ρ c (Proc.devRef .tc main_arg14)) (W11 m ρ c (Proc.devRef .tc main_v118)) = _
  rw [F11_v104 m ρ c, F11_v115 m ρ c, arg11_at11 m ρ c, F11_v116 m ρ c, v78_at11 m ρ c, F6_v78 m ρ c, arg13_at11 m ρ c, F11_v114 m ρ c, F11_v117 m ρ c, arg14_at11 m ρ c, F11_v118 m ρ c]
  rfl
/-- The first result: layer 2 on the C nodes. -/
theorem F12_v94 (c : Dev nD) : W12 m ρ c (Proc.devRef .tc main_v94) = oC (hC (m ((c : Thread nD τ).loc main_arg0)) (m ((c : Thread nD τ).loc main_arg2)) (m ((c : Thread nD τ).loc main_arg3)) (m ((c : Thread nD τ).loc main_arg16)) (m ((c : Thread nD τ).loc main_arg17))) (m ((c : Thread nD τ).loc main_arg9)) (m ((c : Thread nD τ).loc main_arg10)) (m ((c : Thread nD τ).loc main_arg16)) (m ((c : Thread nD τ).loc main_arg17)) :=
  (v94_at12 m ρ c).trans (F10_v94 m ρ c)

end Cert.KernelIdeal.KernelStages

end
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.RefBridge.lean ====
/-
  The reference's host-only stages are the network's named functions of the same index lists.

  Both programs print the same host computations: a node's degree (ones scattered by an index list and summed),
  max(degree, 1), its power -1/2, its reciprocal, a per-node vector read as a column, a bias read as a row, and the
  message passing along an edge list (rows gathered by source, then summed by destination).  The reference prints a
  column as a broadcast along axis 0 and a row as a broadcast along axis 1 where the network's functions use the cast;
  the two are one array.  Everything else is the same term, operation for operation.
-/
import proofs.«162621_j68298569941171_1_alg».proof.Proof.Gen.ReferenceIdeal.Read
import proofs.«162621_j68298569941171_1_alg».proof.Proof.Net
import proofs.«162621_j68298569941171_1_alg».proof.Proof.LibColumn
import proofs.«162621_j68298569941171_1_alg».proof.Proof.LibRow

noncomputable section

namespace Cert.ReferenceIdeal.RefBridge

open Cert.ReferenceIdeal Cert.ReferenceIdeal.Gen Cert.ReferenceIdeal.Read Idealize.ShloMosaic Idealize.SL.Sem HeteroConv

/-! ## Degrees and norms -/

/-- max(degree, 1) to the power -1/2 of one index list: the same scatter of ones, maximum and power. -/
theorem bridge_v10 (x16 : (⟨S500000, .i32⟩ : BufTy).Contents (Elt Ideal)) : val_main_v10 (F := Ideal) x16 = Net.invSqrtDeg x16 := rfl

/-- max(degree, 1) to the power -1/2 of one index list: the same scatter of ones, maximum and power. -/
theorem bridge_v14 (x17 : (⟨S500000, .i32⟩ : BufTy).Contents (Elt Ideal)) : val_main_v14 (F := Ideal) x17 = Net.invSqrtDeg x17 := rfl

/-- max(degree, 1) to the power -1/2 of one index list: the same scatter of ones, maximum and power. -/
theorem bridge_v45 (x18 : (⟨S500000, .i32⟩ : BufTy).Contents (Elt Ideal)) : val_main_v45 (F := Ideal) x18 = Net.invSqrtDeg x18 := rfl

/-- max(degree, 1) to the power -1/2 of one index list: the same scatter of ones, maximum and power. -/
theorem bridge_v49 (x19 : (⟨S500000, .i32⟩ : BufTy).Contents (Elt Ideal)) : val_main_v49 (F := Ideal) x19 = Net.invSqrtDeg x19 := rfl

/-- max(degree, 1) to the power -1/2 of one index list: the same scatter of ones, maximum and power. -/
theorem bridge_v108 (x16 : (⟨S500000, .i32⟩ : BufTy).Contents (Elt Ideal)) : val_main_v108 (F := Ideal) x16 = Net.invSqrtDeg x16 := rfl

/-- max(degree, 1) to the power -1/2 of one index list: the same scatter of ones, maximum and power. -/
theorem bridge_v112 (x17 : (⟨S500000, .i32⟩ : BufTy).Contents (Elt Ideal)) : val_main_v112 (F := Ideal) x17 = Net.invSqrtDeg x17 := rfl

/-- max(degree, 1) to the power -1/2 of one index list: the same scatter of ones, maximum and power. -/
theorem bridge_v143 (x18 : (⟨S500000, .i32⟩ : BufTy).Contents (Elt Ideal)) : val_main_v143 (F := Ideal) x18 = Net.invSqrtDeg x18 := rfl

/-- max(degree, 1) to the power -1/2 of one index list: the same scatter of ones, maximum and power. -/
theorem bridge_v147 (x19 : (⟨S500000, .i32⟩ : BufTy).Contents (Elt Ideal)) : val_main_v147 (F := Ideal) x19 = Net.invSqrtDeg x19 := rfl

/-- max(degree, 1) of one index list: the same scatter of ones, maximum. -/
theorem bridge_v75 (x21 : (⟨S500000, .i32⟩ : BufTy).Contents (Elt Ideal)) : val_main_v75 (F := Ideal) x21 = Net.degree1 x21 := rfl

/-- max(degree, 1) of one index list: the same scatter of ones, maximum. -/
theorem bridge_v173 (x21 : (⟨S500000, .i32⟩ : BufTy).Contents (Elt Ideal)) : val_main_v173 (F := Ideal) x21 = Net.degree1 x21 := rfl

/-! ## Columns -/

/-- The norm as a column: the broadcast along axis 0 is the cast to [50000, 1]. -/
theorem bridge_v15 (x16 : (⟨S500000, .i32⟩ : BufTy).Contents (Elt Ideal)) : val_main_v15 (F := Ideal) x16 = Net.col (Net.invSqrtDeg x16) := by
  unfold val_main_v15
  rw [bridge_v10]
  exact (Cert.LibColumn.shapeCast_col_eq_broadcastInDim (Net.invSqrtDeg x16) _ _).symm

/-- The norm as a column: the broadcast along axis 0 is the cast to [50000, 1]. -/
theorem bridge_v28 (x17 : (⟨S500000, .i32⟩ : BufTy).Contents (Elt Ideal)) : val_main_v28 (F := Ideal) x17 = Net.col (Net.invSqrtDeg x17) := by
  unfold val_main_v28
  rw [bridge_v14]
  exact (Cert.LibColumn.shapeCast_col_eq_broadcastInDim (Net.invSqrtDeg x17) _ _).symm

/-- The norm as a column: the broadcast along axis 0 is the cast to [50000, 1]. -/
theorem bridge_v50 (x18 : (⟨S500000, .i32⟩ : BufTy).Contents (Elt Ideal)) : val_main_v50 (F := Ideal) x18 = Net.col (Net.invSqrtDeg x18) := by
  unfold val_main_v50
  rw [bridge_v45]
  exact (Cert.LibColumn.shapeCast_col_eq_broadcastInDim (Net.invSqrtDeg x18) _ _).symm

/-- The norm as a column: the broadcast along axis 0 is the cast to [50000, 1]. -/
theorem bridge_v63 (x19 : (⟨S500000, .i32⟩ : BufTy).Contents (Elt Ideal)) : val_main_v63 (F := Ideal) x19 = Net.col (Net.invSqrtDeg x19) := by
  unfold val_main_v63
  rw [bridge_v49]
  exact (Cert.LibColumn.shapeCast_col_eq_broadcastInDim (Net.invSqrtDeg x19) _ _).symm

/-- The norm as a column: the broadcast along axis 0 is the cast to [50000, 1]. -/
theorem bridge_v113 (x16 : (⟨S500000, .i32⟩ : BufTy).Contents (Elt Ideal)) : val_main_v113 (F := Ideal) x16 = Net.col (Net.invSqrtDeg x16) := by
  unfold val_main_v113
  rw [bridge_v108]
  exact (Cert.LibColumn.shapeCast_col_eq_broadcastInDim (Net.invSqrtDeg x16) _ _).symm

/-- The norm as a column: the broadcast along axis 0 is the cast to [50000, 1]. -/
theorem bridge_v126 (x17 : (⟨S500000, .i32⟩ : BufTy).Contents (Elt Ideal)) : val_main_v126 (F := Ideal) x17 = Net.col (Net.invSqrtDeg x17) := by
  unfold val_main_v126
  rw [bridge_v112]
  exact (Cert.LibColumn.shapeCast_col_eq_broadcastInDim (Net.invSqrtDeg x17) _ _).symm

/-- The norm as a column: the broadcast along axis 0 is the cast to [50000, 1]. -/
theorem bridge_v148 (x18 : (⟨S500000, .i32⟩ : BufTy).Contents (Elt Ideal)) : val_main_v148 (F := Ideal) x18 = Net.col (Net.invSqrtDeg x18) := by
  unfold val_main_v148
  rw [bridge_v143]
  exact (Cert.LibColumn.shapeCast_col_eq_broadcastInDim (Net.invSqrtDeg x18) _ _).symm

/-- The norm as a column: the broadcast along axis 0 is the cast to [50000, 1]. -/
theorem bridge_v161 (x19 : (⟨S500000, .i32⟩ : BufTy).Contents (Elt Ideal)) : val_main_v161 (F := Ideal) x19 = Net.col (Net.invSqrtDeg x19) := by
  unfold val_main_v161
  rw [bridge_v147]
  exact (Cert.LibColumn.shapeCast_col_eq_broadcastInDim (Net.invSqrtDeg x19) _ _).symm

/-! ## Rows -/

/-- A bias as a row: the broadcast along axis 1 is the cast to [1, 128]. -/
theorem bridge_v32 (x3 : (⟨S128, .f32⟩ : BufTy).Contents (Elt Ideal)) : val_main_v32 (F := Ideal) x3 = Net.row x3 := by
  unfold val_main_v32
  exact (Cert.LibRow.shapeCast_row_eq_broadcastInDim x3 _ _).symm

/-- A bias as a row: the broadcast along axis 1 is the cast to [1, 128]. -/
theorem bridge_v67 (x5 : (⟨S128, .f32⟩ : BufTy).Contents (Elt Ideal)) : val_main_v67 (F := Ideal) x5 = Net.row x5 := by
  unfold val_main_v67
  exact (Cert.LibRow.shapeCast_row_eq_broadcastInDim x5 _ _).symm

/-- A bias as a row: the broadcast along axis 1 is the cast to [1, 128]. -/
theorem bridge_v92 (x8 : (⟨S128, .f32⟩ : BufTy).Contents (Elt Ideal)) : val_main_v92 (F := Ideal) x8 = Net.row x8 := by
  unfold val_main_v92
  exact (Cert.LibRow.shapeCast_row_eq_broadcastInDim x8 _ _).symm

/-- A bias as a row: the broadcast along axis 1 is the cast to [1, 128]. -/
theorem bridge_v130 (x10 : (⟨S128, .f32⟩ : BufTy).Contents (Elt Ideal)) : val_main_v130 (F := Ideal) x10 = Net.row x10 := by
  unfold val_main_v130
  exact (Cert.LibRow.shapeCast_row_eq_broadcastInDim x10 _ _).symm

/-- A bias as a row: the broadcast along axis 1 is the cast to [1, 128]. -/
theorem bridge_v165 (x12 : (⟨S128, .f32⟩ : BufTy).Contents (Elt Ideal)) : val_main_v165 (F := Ideal) x12 = Net.row x12 := by
  unfold val_main_v165
  exact (Cert.LibRow.shapeCast_row_eq_broadcastInDim x12 _ _).symm

/-- A bias as a row: the broadcast along axis 1 is the cast to [1, 128]. -/
theorem bridge_v190 (x15 : (⟨S128, .f32⟩ : BufTy).Contents (Elt Ideal)) : val_main_v190 (F := Ideal) x15 = Net.row x15 := by
  unfold val_main_v190
  exact (Cert.LibRow.shapeCast_row_eq_broadcastInDim x15 _ _).symm

/-! ## The reciprocal degree as a column -/

/-- The host's quotient of two per-node vectors, at a node. -/
theorem hostDivf_at (A B : FVec Ideal Cert.KernelIdeal.S50000 .f32) (k : Cert.KernelIdeal.S50000.Idx) :
    Host.divf (F := Ideal) A B k = Ideal.div (A k) (B k) := rfl

/-- The reciprocal degree is the quotient of the constant 1.0 by max(degree, 1). -/
theorem recipDeg_eq (idx : Net.EdgeIdx) :
    Net.recipDeg idx = Host.divf (F := Ideal) (broadcastInDim Cert.KernelIdeal.S50000 ![] Cert.KernelIdeal.Gen.bcast_S_S50000 (constant (F := Ideal) Cert.KernelIdeal.S_ .f32 0x3F800000#32)) (Net.degree1 idx) := by
  unfold Net.recipDeg
  rfl

/-- The constant 1.0 spread over the nodes reads the word of 1.0 at every node. -/
theorem ones_at (k : Cert.KernelIdeal.S50000.Idx) :
    broadcastInDim Cert.KernelIdeal.S50000 ![] Cert.KernelIdeal.Gen.bcast_S_S50000 (constant (F := Ideal) Cert.KernelIdeal.S_ .f32 0x3F800000#32) k = Ideal.ofBits .f32 0x3F800000#32 :=
  (broadcastInDim_apply _ Cert.KernelIdeal.Gen.bcast_S_S50000 (constant (F := Ideal) Cert.KernelIdeal.S_ .f32 0x3F800000#32) k (fun a => a.elim0) (fun a => a.elim0)).trans rfl

/-- At node k the reciprocal degree is 1 / max(degree(k), 1). -/
theorem recipDeg_apply (idx : Net.EdgeIdx) (k : Cert.KernelIdeal.S50000.Idx) :
    Net.recipDeg idx k = Ideal.div oneLit (Net.degree1 idx k) := by
  rw [recipDeg_eq, hostDivf_at, ones_at]

/-- Entry p of either column is 1 / max(degree(p), 1). -/
theorem bridge_v86 (x21 : (⟨S500000, .i32⟩ : BufTy).Contents (Elt Ideal)) : HeteroConv.recipCol (val_main_v86 (F := Ideal) x21) = Net.col (Net.recipDeg x21) := by
  funext i
  unfold HeteroConv.recipCol Net.col val_main_v86
  rw [Cert.LibColumn.shapeCast_col_apply, Cert.LibColumn.broadcastInDim_col_apply, bridge_v75, recipDeg_apply]

/-- Entry p of either column is 1 / max(degree(p), 1). -/
theorem bridge_v184 (x21 : (⟨S500000, .i32⟩ : BufTy).Contents (Elt Ideal)) : HeteroConv.recipCol (val_main_v184 (F := Ideal) x21) = Net.col (Net.recipDeg x21) := by
  funext i
  unfold HeteroConv.recipCol Net.col val_main_v184
  rw [Cert.LibColumn.shapeCast_col_apply, Cert.LibColumn.broadcastInDim_col_apply, bridge_v173, recipDeg_apply]

/-! ## Message passing -/

/-- Rows gathered by source (negative indices wrapped) and summed by destination from zero. -/
theorem bridge_v27 (x0 : (⟨S50000x128, .f32⟩ : BufTy).Contents (Elt Ideal)) (x16 : (⟨S500000, .i32⟩ : BufTy).Contents (Elt Ideal)) (x17 : (⟨S500000, .i32⟩ : BufTy).Contents (Elt Ideal)) : val_main_v27 (F := Ideal) x0 x16 x17 = Net.aggregate (val_main_v17 (F := Ideal) x0 x16) x16 x17 := rfl

/-- Rows gathered by source (negative indices wrapped) and summed by destination from zero. -/
theorem bridge_v62 (x0 : (⟨S50000x128, .f32⟩ : BufTy).Contents (Elt Ideal)) (x18 : (⟨S500000, .i32⟩ : BufTy).Contents (Elt Ideal)) (x19 : (⟨S500000, .i32⟩ : BufTy).Contents (Elt Ideal)) : val_main_v62 (F := Ideal) x0 x18 x19 = Net.aggregate (val_main_v52 (F := Ideal) x0 x18) x18 x19 := rfl

/-- Rows gathered by source (negative indices wrapped) and summed by destination from zero. -/
theorem bridge_v85 (x1 : (⟨S50000x128, .f32⟩ : BufTy).Contents (Elt Ideal)) (x20 : (⟨S500000, .i32⟩ : BufTy).Contents (Elt Ideal)) (x21 : (⟨S500000, .i32⟩ : BufTy).Contents (Elt Ideal)) : val_main_v85 (F := Ideal) x1 x20 x21 = Net.aggregate x1 x20 x21 := rfl

/-- Rows gathered by source (negative indices wrapped) and summed by destination from zero. -/
theorem bridge_v125 (x0 : (⟨S50000x128, .f32⟩ : BufTy).Contents (Elt Ideal)) (x2 : (⟨S128x128, .f32⟩ : BufTy).Contents (Elt Ideal)) (x3 : (⟨S128, .f32⟩ : BufTy).Contents (Elt Ideal)) (x16 : (⟨S500000, .i32⟩ : BufTy).Contents (Elt Ideal)) (x17 : (⟨S500000, .i32⟩ : BufTy).Contents (Elt Ideal)) : val_main_v125 (F := Ideal) x0 x2 x3 x16 x17 = Net.aggregate (val_main_v115 (F := Ideal) x0 x2 x3 x16 x17) x16 x17 := rfl

/-- Rows gathered by source (negative indices wrapped) and summed by destination from zero. -/
theorem bridge_v160 (x0 : (⟨S50000x128, .f32⟩ : BufTy).Contents (Elt Ideal)) (x2 : (⟨S128x128, .f32⟩ : BufTy).Contents (Elt Ideal)) (x3 : (⟨S128, .f32⟩ : BufTy).Contents (Elt Ideal)) (x16 : (⟨S500000, .i32⟩ : BufTy).Contents (Elt Ideal)) (x17 : (⟨S500000, .i32⟩ : BufTy).Contents (Elt Ideal)) (x18 : (⟨S500000, .i32⟩ : BufTy).Contents (Elt Ideal)) (x19 : (⟨S500000, .i32⟩ : BufTy).Contents (Elt Ideal)) : val_main_v160 (F := Ideal) x0 x2 x3 x16 x17 x18 x19 = Net.aggregate (val_main_v150 (F := Ideal) x0 x2 x3 x16 x17 x18) x18 x19 := rfl

/-- Rows gathered by source (negative indices wrapped) and summed by destination from zero. -/
theorem bridge_v183 (x0 : (⟨S50000x128, .f32⟩ : BufTy).Contents (Elt Ideal)) (x1 : (⟨S50000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128x128, .f32⟩ : BufTy).Contents (Elt Ideal)) (x8 : (⟨S128, .f32⟩ : BufTy).Contents (Elt Ideal)) (x18 : (⟨S500000, .i32⟩ : BufTy).Contents (Elt Ideal)) (x19 : (⟨S500000, .i32⟩ : BufTy).Contents (Elt Ideal)) (x20 : (⟨S500000, .i32⟩ : BufTy).Contents (Elt Ideal)) (x21 : (⟨S500000, .i32⟩ : BufTy).Contents (Elt Ideal)) : val_main_v183 (F := Ideal) x0 x1 x4 x5 x6 x7 x8 x18 x19 x20 x21 = Net.aggregate (val_main_v97 (F := Ideal) x0 x1 x4 x5 x6 x7 x8 x18 x19 x20 x21) x20 x21 := rfl

end Cert.ReferenceIdeal.RefBridge

end
-- ==== Proof.RefLayersScale.lean ====
/-
  The row scalings of the reference network: each of the stages 17, 52, 115 and 150 multiplies a feature
  array by a source-norm column broadcast along the rows, which is `scaleRows` of the specification.
-/
import proofs.«162621_j68298569941171_1_alg».proof.Proof.Gen.ReferenceIdeal.Read
import proofs.«162621_j68298569941171_1_alg».proof.Proof.Spec

noncomputable section

open scoped BigOperators

namespace Cert.ReferenceIdeal.RefLayers

open Cert.ReferenceIdeal Cert.ReferenceIdeal.Read Idealize.ShloMosaic Idealize.ShloMosaic.ValueIdx HeteroConv

variable (x0 : (⟨S50000x128, .f32⟩ : BufTy).Contents (Elt Ideal))
variable (x2 : (⟨S128x128, .f32⟩ : BufTy).Contents (Elt Ideal))
variable (x3 : (⟨S128, .f32⟩ : BufTy).Contents (Elt Ideal))
variable (x16 : (⟨S500000, .i32⟩ : BufTy).Contents (Elt Ideal))
variable (x17 : (⟨S500000, .i32⟩ : BufTy).Contents (Elt Ideal))
variable (x18 : (⟨S500000, .i32⟩ : BufTy).Contents (Elt Ideal))

/-- Stage 17 is the input features with row p multiplied by the source norm of node p (first relation,
    first layer): the norm column is broadcast along the row, so entry (p,q) reads the column at (p,0). -/
theorem layer_v17 :
    val_main_v17 (F := Ideal) x0 x16 = scaleRows x0 (val_main_v15 (F := Ideal) x16) := by
  funext i
  obtain ⟨p, q, rfl⟩ : ∃ (p : Fin 50000) (q : Fin 128), i = ix2 p q := ⟨i 0, i 1, eq_ix2 i⟩
  rw [val_main_v17_apply, val_main_v16_apply]
  have e : idx_main_v16 (ix2 p q) = ix2 (n0 := 50000) (n1 := 1) p 0 :=
    funext fun a => Fin.ext (by match a with | ⟨0, _⟩ => rfl | ⟨1, _⟩ => rfl)
  rw [e]
  rfl

/-- Stage 52: the same scaling by the source norm of the second relation. -/
theorem layer_v52 :
    val_main_v52 (F := Ideal) x0 x18 = scaleRows x0 (val_main_v50 (F := Ideal) x18) := by
  funext i
  obtain ⟨p, q, rfl⟩ : ∃ (p : Fin 50000) (q : Fin 128), i = ix2 p q := ⟨i 0, i 1, eq_ix2 i⟩
  rw [val_main_v52_apply, val_main_v51_apply]
  have e : idx_main_v51 (ix2 p q) = ix2 (n0 := 50000) (n1 := 1) p 0 :=
    funext fun a => Fin.ext (by match a with | ⟨0, _⟩ => rfl | ⟨1, _⟩ => rfl)
  rw [e]
  rfl

/-- Stage 115: the first layer's output of the first node type, rows scaled by the source norm (second layer). -/
theorem layer_v115 :
    val_main_v115 (F := Ideal) x0 x2 x3 x16 x17 = scaleRows (val_main_v96 (F := Ideal) x0 x2 x3 x16 x17) (val_main_v113 (F := Ideal) x16) := by
  funext i
  obtain ⟨p, q, rfl⟩ : ∃ (p : Fin 50000) (q : Fin 128), i = ix2 p q := ⟨i 0, i 1, eq_ix2 i⟩
  rw [val_main_v115_apply, val_main_v114_apply]
  have e : idx_main_v114 (ix2 p q) = ix2 (n0 := 50000) (n1 := 1) p 0 :=
    funext fun a => Fin.ext (by match a with | ⟨0, _⟩ => rfl | ⟨1, _⟩ => rfl)
  rw [e]
  rfl

/-- Stage 150: the same output, rows scaled by the source norm of the second relation. -/
theorem layer_v150 :
    val_main_v150 (F := Ideal) x0 x2 x3 x16 x17 x18 = scaleRows (val_main_v96 (F := Ideal) x0 x2 x3 x16 x17) (val_main_v148 (F := Ideal) x18) := by
  funext i
  obtain ⟨p, q, rfl⟩ : ∃ (p : Fin 50000) (q : Fin 128), i = ix2 p q := ⟨i 0, i 1, eq_ix2 i⟩
  rw [val_main_v150_apply, val_main_v149_apply]
  have e : idx_main_v149 (ix2 p q) = ix2 (n0 := 50000) (n1 := 1) p 0 :=
    funext fun a => Fin.ext (by match a with | ⟨0, _⟩ => rfl | ⟨1, _⟩ => rfl)
  rw [e]
  rfl

end Cert.ReferenceIdeal.RefLayers

end
-- ==== Proof.RefLayersConv.lean ====
/-
  The two graph-convolution layers of the reference, each as the specification's layer function of the stages
  before it.

  A layer's own operations are: multiply the aggregated messages A [50000,128] by the destination norm n [50000,1]
  broadcast along the 128 features; the matrix product with the weights W [128,128]; add the bias row b [1,128]
  broadcast down the 50000 rows; and, in the first layer, the maximum with the zero word broadcast everywhere.
  Read at entry (p,q) that is  Σ_k (A(p,k) · n(p,0)) · W(k,q) + b(0,q)  (and its maximum with zero): `convOut`
  (`convOutRelu`) of A, n, W, b.  The stages A, n, b come from are never opened.
-/
import proofs.«162621_j68298569941171_1_alg».proof.Proof.Gen.ReferenceIdeal.Read
import proofs.«162621_j68298569941171_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefLayers

open Cert.ReferenceIdeal Cert.ReferenceIdeal.Read Idealize.ShloMosaic Idealize.ShloMosaic.ValueIdx HeteroConv

/-! ## The layer's operations at an entry, over variables -/

/-- The norm column broadcast along the features reads, at (p,k), the column's entry p. -/
theorem normCol_apply (n : FVec Ideal S50000x1 .f32)
    (hn : S50000x1.BroadcastsInDim S50000x128 ![0, 1]) (p : Fin 50000) (k : Fin 128) :
    broadcastInDim S50000x128 ![0, 1] hn n (ix2 p k) = n (ix2 p (0 : Fin 1)) :=
  broadcastInDim_apply _ hn n (ix2 p k) (ix2 p (0 : Fin 1)) (fun a => match a with
    | ⟨0, _⟩ => by show p.val = if (50000 : Nat) = 1 then 0 else p.val; rw [if_neg (by decide)]
    | ⟨1, _⟩ => by show (0 : Nat) = if (1 : Nat) = 1 then 0 else k.val; rw [if_pos rfl])

/-- The bias row broadcast down the rows reads, at (p,q), the row's entry q. -/
theorem biasRow_apply (b : FVec Ideal S1x128 .f32)
    (hb : S1x128.BroadcastsInDim S50000x128 ![0, 1]) (p : Fin 50000) (q : Fin 128) :
    broadcastInDim S50000x128 ![0, 1] hb b (ix2 p q) = b (ix2 (0 : Fin 1) q) :=
  broadcastInDim_apply _ hb b (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The zero word broadcast everywhere reads the zero word. -/
theorem zeroSplat_apply (hz : S_.BroadcastsInDim S50000x128 (![] : Fin 0 → Fin S50000x128.rank)) (i : S50000x128.Idx) :
    broadcastInDim S50000x128 ![] hz (constant (F := Ideal) S_ .f32 0x00000000#32) i = zeroLit :=
  broadcastInDim_apply _ hz (constant (F := Ideal) S_ .f32 0x00000000#32) i (fun a => a.elim0) (fun a => a.elim0)

/-- The matrix product [50000,128] · [128,128] at (p,q): the sum over k of a(p,k) · w(k,q). -/
theorem rowsDot_apply (a : FVec Ideal S50000x128 .f32) (w : FVec Ideal S128x128 .f32)
    (p : Fin 50000) (q : Fin 128) :
    Host.dotGeneral (F := Ideal) dot_S50000x128_S128x128_S50000x128_1_0_0_1_n_n none a w (ix2 p q)
      = ∑ k : Fin 128, a (ix2 p k) * w (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k :=
    funext fun ax => Fin.ext (by
      match ax with
      | ⟨0, _⟩ => exact lhs_main_v31_0 _ _
      | ⟨1, _⟩ => exact (lhs_main_v31_1 _ _).trans hk)
  have er : dot_S50000x128_S128x128_S50000x128_1_0_0_1_n_n.rhsIdx (ix2 p q) ((contrEquiv1 dot_S50000x128_S128x128_S50000x128_1_0_0_1_n_n 128 rfl rfl).symm k) = ix2 k q :=
    funext fun ax => Fin.ext (by
      match ax with
      | ⟨0, _⟩ => exact (rhs_main_v31_0 _ _).trans hk
      | ⟨1, _⟩ => exact rhs_main_v31_1 _ _)
  rw [el, er]

/-- Scale by the norm, multiply by the weights, add the bias: the graph convolution of A, n, W, b. -/
theorem conv_ops (A : FVec Ideal S50000x128 .f32) (n : FVec Ideal S50000x1 .f32)
    (W : FVec Ideal S128x128 .f32) (b : FVec Ideal S1x128 .f32)
    (hn : S50000x1.BroadcastsInDim S50000x128 ![0, 1]) (hb : S1x128.BroadcastsInDim S50000x128 ![0, 1]) :
    addf (Host.dotGeneral (F := Ideal) dot_S50000x128_S128x128_S50000x128_1_0_0_1_n_n none
        (mulf A (broadcastInDim S50000x128 ![0, 1] hn n)) W) (broadcastInDim S50000x128 ![0, 1] hb b)
      = convOut A n W b := by
  funext i
  obtain ⟨p, q, rfl⟩ : ∃ (p : Fin 50000) (q : Fin 128), i = ix2 p q := ⟨i 0, i 1, eq_ix2 i⟩
  show Host.dotGeneral (F := Ideal) dot_S50000x128_S128x128_S50000x128_1_0_0_1_n_n none
        (mulf A (broadcastInDim S50000x128 ![0, 1] hn n)) W (ix2 p q) + broadcastInDim S50000x128 ![0, 1] hb b (ix2 p q)
      = (∑ k : Fin 128, (A (ix2 p k) * n (ix2 p (0 : Fin 1))) * W (ix2 k q)) + b (ix2 (0 : Fin 1) q)
  rw [rowsDot_apply, biasRow_apply]
  refine congrArg (fun s => s + b (ix2 (0 : Fin 1) q)) (Finset.sum_congr rfl fun k _ => ?_)
  show A (ix2 p k) * broadcastInDim S50000x128 ![0, 1] hn n (ix2 p k) * W (ix2 k q) = _
  rw [normCol_apply]

/-- The same, then the maximum with the zero word: the rectified graph convolution. -/
theorem convRelu_ops (A : FVec Ideal S50000x128 .f32) (n : FVec Ideal S50000x1 .f32)
    (W : FVec Ideal S128x128 .f32) (b : FVec Ideal S1x128 .f32)
    (hn : S50000x1.BroadcastsInDim S50000x128 ![0, 1]) (hb : S1x128.BroadcastsInDim S50000x128 ![0, 1])
    (hz : S_.BroadcastsInDim S50000x128 (![] : Fin 0 → Fin S50000x128.rank)) :
    maximumf (addf (Host.dotGeneral (F := Ideal) dot_S50000x128_S128x128_S50000x128_1_0_0_1_n_n none
        (mulf A (broadcastInDim S50000x128 ![0, 1] hn n)) W) (broadcastInDim S50000x128 ![0, 1] hb b))
        (broadcastInDim S50000x128 ![] hz (constant (F := Ideal) S_ .f32 0x00000000#32))
      = convOutRelu A n W b := by
  rw [conv_ops A n W b hn hb]
  funext i
  show max (convOut A n W b i) (broadcastInDim S50000x128 ![] hz (constant (F := Ideal) S_ .f32 0x00000000#32) i) = max (convOut A n W b i) zeroLit
  rw [zeroSplat_apply]

/-! ## The two layers -/

variable (x0 : (⟨S50000x128, .f32⟩ : BufTy).Contents (Elt Ideal))
variable (x2 : (⟨S128x128, .f32⟩ : BufTy).Contents (Elt Ideal))
variable (x3 : (⟨S128, .f32⟩ : BufTy).Contents (Elt Ideal))
variable (x9 : (⟨S128x128, .f32⟩ : BufTy).Contents (Elt Ideal))
variable (x10 : (⟨S128, .f32⟩ : BufTy).Contents (Elt Ideal))
variable (x16 : (⟨S500000, .i32⟩ : BufTy).Contents (Elt Ideal))
variable (x17 : (⟨S500000, .i32⟩ : BufTy).Contents (Elt Ideal))

/-- Stage 96 (the first layer's output of the first node type) is the rectified graph convolution of the
    aggregated messages of stage 27 with the destination norm of stage 28, the weights and the bias row of stage 32. -/
theorem layer_v96 :
    val_main_v96 (F := Ideal) x0 x2 x3 x16 x17
      = convOutRelu (val_main_v27 (F := Ideal) x0 x16 x17) (val_main_v28 (F := Ideal) x17) x2 (val_main_v32 (F := Ideal) x3) := by
  unfold val_main_v96 val_main_v34 val_main_v33 val_main_v31 val_main_v30 val_main_v29 val_main_call0_v0 val_main_call0_cst
  generalize val_main_v27 (F := Ideal) x0 x16 x17 = A
  generalize val_main_v28 (F := Ideal) x17 = n
  generalize val_main_v32 (F := Ideal) x3 = b
  exact convRelu_ops A n x2 b _ _ _

/-- Stage 132 (the second layer's output of the first node type) is the graph convolution, not rectified, of the
    aggregated messages of stage 125 with the destination norm of stage 126, the weights and the bias row of stage 130. -/
theorem layer_v132 :
    val_main_v132 (F := Ideal) x0 x2 x3 x9 x10 x16 x17
      = convOut (val_main_v125 (F := Ideal) x0 x2 x3 x16 x17) (val_main_v126 (F := Ideal) x17) x9 (val_main_v130 (F := Ideal) x10) := by
  unfold val_main_v132 val_main_v131 val_main_v129 val_main_v128 val_main_v127
  generalize val_main_v125 (F := Ideal) x0 x2 x3 x16 x17 = A
  generalize val_main_v126 (F := Ideal) x17 = n
  generalize val_main_v130 (F := Ideal) x10 = b
  exact conv_ops A n x9 b _ _

end Cert.ReferenceIdeal.RefLayers

end
-- ==== Proof.RefLayersAlg.lean ====
/-
  The algebra of the node-type sum on the extended reals: the word of 1.0 is 1, the product with the
  reciprocal of a nonzero real is the quotient, addition is associative, and with these the reference's
  arrangement (A + b) + ((X + N') + bn), N' built on the quotient by the in-degree, is the specification's
  `heteroOut` with the reciprocal column.
-/
import proofs.«162621_j68298569941171_1_alg».proof.Proof.Spec
import Idealize.ShloMosaic.PureOps.Ideal.Laws

noncomputable section

open scoped BigOperators

namespace Cert.ReferenceIdeal.RefLayers

open Idealize.ShloMosaic Idealize.ShloMosaic.ValueIdx HeteroConv

/-- The float word of 1.0 is the extended real 1: sign 0, exponent 127, fraction 0, that is 2^23 · 2^(-23). -/
theorem oneLit_eq : oneLit = 1 := by
  simp [Ideal.ofBits, Ideal.ieee]
  rw [← EReal.coe_mul]
  norm_num

/-- For a nonzero real y, multiplying by the quotient 1 / y is dividing by y, for every extended real x:
    both sides are x · (1/y), the second by the same law with numerator the word of 1.0. -/
theorem mul_recip (x : EReal) {y : ℝ} (hy : y ≠ 0) :
    x * Ideal.div oneLit ((y : ℝ) : EReal) = Ideal.div x ((y : ℝ) : EReal) := by
  rw [Ideal.div_coe hy, Ideal.div_coe hy, oneLit_eq, one_mul]

/-- Addition of extended reals is associative: the reference's grouping s + ((X + N) + bn) of the
    node-type sum is the specification's left-to-right one. -/
theorem reassoc (s X N bn : EReal) : s + ((X + N) + bn) = ((s + X) + N) + bn := by
  rw [add_assoc, add_assoc, add_assoc]

/-- The node-type sum at the entry (p,q), as the reference computes it — the graph convolution of the first
    relation plus its bias, added to ((self term + neighbour term) + second bias), the neighbour term with the
    QUOTIENT of the scattered sum g by the in-degree d(p) — is the specification's `heteroOut` with the
    reciprocal column of d, provided d(p) is a nonzero real. -/
theorem heteroOut_pt (a : NxD.Idx → EReal) (n : Nx1.Idx → EReal) (W : DxD.Idx → EReal) (b : OnexD.Idx → EReal)
    (x : NxD.Idx → EReal) (Ws : DxD.Idx → EReal) (g : NxD.Idx → EReal) (d : Nx1.Idx → EReal)
    (Wn : DxD.Idx → EReal) (bn : OnexD.Idx → EReal) (p : Fin 50000) (q : Fin 128)
    (hd : ∃ y : ℝ, y ≠ 0 ∧ d (ix2 (n0 := 50000) (n1 := 1) p 0) = ((y : ℝ) : EReal)) :
    ((∑ k : Fin 128, (a (ix2 (n0 := 50000) (n1 := 128) p k) * n (ix2 (n0 := 50000) (n1 := 1) p 0))
          * W (ix2 (n0 := 128) (n1 := 128) k q))
        + b (ix2 (n0 := 1) (n1 := 128) 0 q))
      + (((∑ k : Fin 128, x (ix2 (n0 := 50000) (n1 := 128) p k) * Ws (ix2 (n0 := 128) (n1 := 128) k q))
          + ∑ k : Fin 128, Ideal.div (g (ix2 (n0 := 50000) (n1 := 128) p k)) (d (ix2 (n0 := 50000) (n1 := 1) p 0))
              * Wn (ix2 (n0 := 128) (n1 := 128) k q))
        + bn (ix2 (n0 := 1) (n1 := 128) 0 q))
    = heteroOut a n W b x Ws g (recipCol d) Wn bn (ix2 (n0 := 50000) (n1 := 128) p q) := by
  obtain ⟨y, hy, hyd⟩ := hd
  have hN : (∑ k : Fin 128, Ideal.div (g (ix2 (n0 := 50000) (n1 := 128) p k)) (d (ix2 (n0 := 50000) (n1 := 1) p 0))
        * Wn (ix2 (n0 := 128) (n1 := 128) k q))
      = ∑ k : Fin 128, (g (ix2 (n0 := 50000) (n1 := 128) p k) * Ideal.div oneLit (d (ix2 (n0 := 50000) (n1 := 1) p 0)))
        * Wn (ix2 (n0 := 128) (n1 := 128) k q) :=
    Finset.sum_congr rfl fun k _ => by rw [hyd, mul_recip _ hy]
  rw [hN, reassoc]
  rfl

end Cert.ReferenceIdeal.RefLayers

end
-- ==== Proof.RefLayersHeteroOps.lean ====
/-
  The node-type sum's own operations, over variables.  A layer of the second node type computes, from the
  aggregated messages a [50000,128] of one relation with its destination norm n [50000,1], weights W and bias
  row b [1,128], the node's own features x with weights Ws, and the scattered neighbour sum g [50000,128] of the
  other relation with its in-degree column d [50000,1], weights Wn and bias row bn:
      ((a · n) W + b) + ((x Ws + (g / d) Wn) + bn),
  the norm and the in-degree broadcast along the 128 features, the bias rows down the 50000 rows, the quotient
  entry by entry.  Read at (p,q), and with d(p) a nonzero real, this is the specification's `heteroOut` with the
  reciprocal column of d (and `heteroOutRelu` after the maximum with the zero word).
-/
import proofs.«162621_j68298569941171_1_alg».proof.Proof.RefLayersConv
import proofs.«162621_j68298569941171_1_alg».proof.Proof.RefLayersAlg

noncomputable section

open scoped BigOperators

namespace Cert.ReferenceIdeal.RefLayers

open Cert.ReferenceIdeal Cert.ReferenceIdeal.Read Idealize.ShloMosaic Idealize.ShloMosaic.ValueIdx HeteroConv

/-- The node-type sum, not rectified. -/
theorem hetero_ops (a : FVec Ideal S50000x128 .f32) (n : FVec Ideal S50000x1 .f32)
    (W : FVec Ideal S128x128 .f32) (b : FVec Ideal S1x128 .f32)
    (x : FVec Ideal S50000x128 .f32) (Ws : FVec Ideal S128x128 .f32)
    (g : FVec Ideal S50000x128 .f32) (d : FVec Ideal S50000x1 .f32)
    (Wn : FVec Ideal S128x128 .f32) (bn : FVec Ideal S1x128 .f32)
    (hn hdc : S50000x1.BroadcastsInDim S50000x128 ![0, 1]) (hb hbn : S1x128.BroadcastsInDim S50000x128 ![0, 1])
    (hd : ∀ i, ∃ y : ℝ, y ≠ 0 ∧ d i = ((y : ℝ) : EReal)) :
    addf
        (addf (Host.dotGeneral (F := Ideal) dot_S50000x128_S128x128_S50000x128_1_0_0_1_n_n none
            (mulf a (broadcastInDim S50000x128 ![0, 1] hn n)) W) (broadcastInDim S50000x128 ![0, 1] hb b))
        (addf
          (addf (Host.dotGeneral (F := Ideal) dot_S50000x128_S128x128_S50000x128_1_0_0_1_n_n none x Ws)
            (Host.dotGeneral (F := Ideal) dot_S50000x128_S128x128_S50000x128_1_0_0_1_n_n none
              (Host.divf g (broadcastInDim S50000x128 ![0, 1] hdc d)) Wn))
          (broadcastInDim S50000x128 ![0, 1] hbn bn))
      = heteroOut a n W b x Ws g (recipCol d) Wn bn := by
  funext i
  obtain ⟨p, q, rfl⟩ : ∃ (p : Fin 50000) (q : Fin 128), i = ix2 p q := ⟨i 0, i 1, eq_ix2 i⟩
  show (Host.dotGeneral (F := Ideal) dot_S50000x128_S128x128_S50000x128_1_0_0_1_n_n none
            (mulf a (broadcastInDim S50000x128 ![0, 1] hn n)) W (ix2 p q)
          + broadcastInDim S50000x128 ![0, 1] hb b (ix2 p q))
        + ((Host.dotGeneral (F := Ideal) dot_S50000x128_S128x128_S50000x128_1_0_0_1_n_n none x Ws (ix2 p q)
            + Host.dotGeneral (F := Ideal) dot_S50000x128_S128x128_S50000x128_1_0_0_1_n_n none
                (Host.divf g (broadcastInDim S50000x128 ![0, 1] hdc d)) Wn (ix2 p q))
          + broadcastInDim S50000x128 ![0, 1] hbn bn (ix2 p q))
      = heteroOut a n W b x Ws g (recipCol d) Wn bn (ix2 p q)
  rw [rowsDot_apply, rowsDot_apply, rowsDot_apply, biasRow_apply, biasRow_apply]
  have h1 : ∀ k : Fin 128, mulf a (broadcastInDim S50000x128 ![0, 1] hn n) (ix2 p k)
      = a (ix2 p k) * n (ix2 p (0 : Fin 1)) := fun k => by
    show a (ix2 p k) * broadcastInDim S50000x128 ![0, 1] hn n (ix2 p k) = _
    rw [normCol_apply]
  have h2 : ∀ k : Fin 128, Host.divf g (broadcastInDim S50000x128 ![0, 1] hdc d) (ix2 p k)
      = Ideal.div (g (ix2 p k)) (d (ix2 p (0 : Fin 1))) := fun k => by
    show Ideal.div (g (ix2 p k)) (broadcastInDim S50000x128 ![0, 1] hdc d (ix2 p k)) = _
    rw [normCol_apply]
  simp only [h1, h2]
  exact heteroOut_pt a n W b x Ws g d Wn bn p q (hd _)

/-- The same, then the maximum with the zero word: the rectified node-type sum. -/
theorem heteroRelu_ops (a : FVec Ideal S50000x128 .f32) (n : FVec Ideal S50000x1 .f32)
    (W : FVec Ideal S128x128 .f32) (b : FVec Ideal S1x128 .f32)
    (x : FVec Ideal S50000x128 .f32) (Ws : FVec Ideal S128x128 .f32)
    (g : FVec Ideal S50000x128 .f32) (d : FVec Ideal S50000x1 .f32)
    (Wn : FVec Ideal S128x128 .f32) (bn : FVec Ideal S1x128 .f32)
    (hn hdc : S50000x1.BroadcastsInDim S50000x128 ![0, 1]) (hb hbn : S1x128.BroadcastsInDim S50000x128 ![0, 1])
    (hz : S_.BroadcastsInDim S50000x128 (![] : Fin 0 → Fin S50000x128.rank))
    (hd : ∀ i, ∃ y : ℝ, y ≠ 0 ∧ d i = ((y : ℝ) : EReal)) :
    maximumf
        (addf
          (addf (Host.dotGeneral (F := Ideal) dot_S50000x128_S128x128_S50000x128_1_0_0_1_n_n none
              (mulf a (broadcastInDim S50000x128 ![0, 1] hn n)) W) (broadcastInDim S50000x128 ![0, 1] hb b))
          (addf
            (addf (Host.dotGeneral (F := Ideal) dot_S50000x128_S128x128_S50000x128_1_0_0_1_n_n none x Ws)
              (Host.dotGeneral (F := Ideal) dot_S50000x128_S128x128_S50000x128_1_0_0_1_n_n none
                (Host.divf g (broadcastInDim S50000x128 ![0, 1] hdc d)) Wn))
            (broadcastInDim S50000x128 ![0, 1] hbn bn)))
        (broadcastInDim S50000x128 ![] hz (constant (F := Ideal) S_ .f32 0x00000000#32))
      = heteroOutRelu a n W b x Ws g (recipCol d) Wn bn := by
  rw [hetero_ops a n W b x Ws g d Wn bn hn hdc hb hbn hd]
  funext i
  show max (heteroOut a n W b x Ws g (recipCol d) Wn bn i)
      (broadcastInDim S50000x128 ![] hz (constant (F := Ideal) S_ .f32 0x00000000#32) i)
    = max (heteroOut a n W b x Ws g (recipCol d) Wn bn i) zeroLit
  rw [zeroSplat_apply]

end Cert.ReferenceIdeal.RefLayers

end
-- ==== Proof.RefLayersHetero1.lean ====
/-
  The first layer's output of the second node type (stage 97 of the reference) is the rectified node-type sum
  of the specification, applied to the stages before it: the aggregated messages of stage 62 with the
  destination norm of stage 63, the node's own input features, and the scattered neighbour sum of stage 85
  with the in-degree column of stage 86.  Those stages are never opened.
-/
import proofs.«162621_j68298569941171_1_alg».proof.Proof.RefLayersHeteroOps

noncomputable section

open scoped BigOperators

namespace Cert.ReferenceIdeal.RefLayers

open Cert.ReferenceIdeal Cert.ReferenceIdeal.Read Idealize.ShloMosaic Idealize.ShloMosaic.ValueIdx HeteroConv

variable (x0 : (⟨S50000x128, .f32⟩ : BufTy).Contents (Elt Ideal))
variable (x1 : (⟨S50000x128, .f32⟩ : BufTy).Contents (Elt Ideal))
variable (x4 : (⟨S128x128, .f32⟩ : BufTy).Contents (Elt Ideal))
variable (x5 : (⟨S128, .f32⟩ : BufTy).Contents (Elt Ideal))
variable (x6 : (⟨S128x128, .f32⟩ : BufTy).Contents (Elt Ideal))
variable (x7 : (⟨S128x128, .f32⟩ : BufTy).Contents (Elt Ideal))
variable (x8 : (⟨S128, .f32⟩ : BufTy).Contents (Elt Ideal))
variable (x18 : (⟨S500000, .i32⟩ : BufTy).Contents (Elt Ideal))
variable (x19 : (⟨S500000, .i32⟩ : BufTy).Contents (Elt Ideal))
variable (x20 : (⟨S500000, .i32⟩ : BufTy).Contents (Elt Ideal))
variable (x21 : (⟨S500000, .i32⟩ : BufTy).Contents (Elt Ideal))

/-- Stage 97 is `heteroOutRelu` of the stages before it, the in-degree column holding nonzero reals. -/
theorem layer_v97
    (hd : ∀ i, ∃ y : ℝ, y ≠ 0 ∧ val_main_v86 (F := Ideal) x21 i = ((y : ℝ) : EReal)) :
    val_main_v97 (F := Ideal) x0 x1 x4 x5 x6 x7 x8 x18 x19 x20 x21 =
      heteroOutRelu (val_main_v62 (F := Ideal) x0 x18 x19) (val_main_v63 (F := Ideal) x19) x4
        (val_main_v67 (F := Ideal) x5) x1 x6 (val_main_v85 (F := Ideal) x1 x20 x21)
        (recipCol (val_main_v86 (F := Ideal) x21)) x7 (val_main_v92 (F := Ideal) x8) := by
  unfold val_main_v97 val_main_v95 val_main_v69 val_main_v68 val_main_v66 val_main_v65 val_main_v64
    val_main_v94 val_main_v93 val_main_v91 val_main_v90 val_main_v89 val_main_v88 val_main_v87
    val_main_call1_v0 val_main_call1_cst
  revert hd
  generalize val_main_v62 (F := Ideal) x0 x18 x19 = a
  generalize val_main_v63 (F := Ideal) x19 = n
  generalize val_main_v67 (F := Ideal) x5 = b
  generalize val_main_v85 (F := Ideal) x1 x20 x21 = g
  generalize val_main_v86 (F := Ideal) x21 = d
  generalize val_main_v92 (F := Ideal) x8 = bn
  intro hd
  exact heteroRelu_ops a n x4 b x1 x6 g d x7 bn _ _ _ _ _ hd

end Cert.ReferenceIdeal.RefLayers

end
-- ==== Proof.RefLayersHetero2.lean ====
/-
  The second layer's output of the second node type (stage 193 of the reference) is the node-type sum of the
  specification, not rectified, applied to the stages before it: the aggregated messages of stage 160 with the
  destination norm of stage 161, the node's own hidden features (stage 97), and the scattered neighbour sum of
  stage 183 with the in-degree column of stage 184.  Those stages are never opened.
-/
import proofs.«162621_j68298569941171_1_alg».proof.Proof.RefLayersHeteroOps

noncomputable section

open scoped BigOperators

namespace Cert.ReferenceIdeal.RefLayers

open Cert.ReferenceIdeal Cert.ReferenceIdeal.Read Idealize.ShloMosaic Idealize.ShloMosaic.ValueIdx HeteroConv

variable (x0 : (⟨S50000x128, .f32⟩ : BufTy).Contents (Elt Ideal))
variable (x1 : (⟨S50000x128, .f32⟩ : BufTy).Contents (Elt Ideal))
variable (x2 : (⟨S128x128, .f32⟩ : BufTy).Contents (Elt Ideal))
variable (x3 : (⟨S128, .f32⟩ : BufTy).Contents (Elt Ideal))
variable (x4 : (⟨S128x128, .f32⟩ : BufTy).Contents (Elt Ideal))
variable (x5 : (⟨S128, .f32⟩ : BufTy).Contents (Elt Ideal))
variable (x6 : (⟨S128x128, .f32⟩ : BufTy).Contents (Elt Ideal))
variable (x7 : (⟨S128x128, .f32⟩ : BufTy).Contents (Elt Ideal))
variable (x8 : (⟨S128, .f32⟩ : BufTy).Contents (Elt Ideal))
variable (x11 : (⟨S128x128, .f32⟩ : BufTy).Contents (Elt Ideal))
variable (x12 : (⟨S128, .f32⟩ : BufTy).Contents (Elt Ideal))
variable (x13 : (⟨S128x128, .f32⟩ : BufTy).Contents (Elt Ideal))
variable (x14 : (⟨S128x128, .f32⟩ : BufTy).Contents (Elt Ideal))
variable (x15 : (⟨S128, .f32⟩ : BufTy).Contents (Elt Ideal))
variable (x16 : (⟨S500000, .i32⟩ : BufTy).Contents (Elt Ideal))
variable (x17 : (⟨S500000, .i32⟩ : BufTy).Contents (Elt Ideal))
variable (x18 : (⟨S500000, .i32⟩ : BufTy).Contents (Elt Ideal))
variable (x19 : (⟨S500000, .i32⟩ : BufTy).Contents (Elt Ideal))
variable (x20 : (⟨S500000, .i32⟩ : BufTy).Contents (Elt Ideal))
variable (x21 : (⟨S500000, .i32⟩ : BufTy).Contents (Elt Ideal))

/-- Stage 193 is `heteroOut` of the stages before it, the in-degree column holding nonzero reals. -/
theorem layer_v193
    (hd : ∀ i, ∃ y : ℝ, y ≠ 0 ∧ val_main_v184 (F := Ideal) x21 i = ((y : ℝ) : EReal)) :
    val_main_v193 (F := Ideal) x0 x1 x2 x3 x4 x5 x6 x7 x8 x11 x12 x13 x14 x15 x16 x17 x18 x19 x20 x21 =
      heteroOut (val_main_v160 (F := Ideal) x0 x2 x3 x16 x17 x18 x19) (val_main_v161 (F := Ideal) x19) x11
        (val_main_v165 (F := Ideal) x12)
        (val_main_v97 (F := Ideal) x0 x1 x4 x5 x6 x7 x8 x18 x19 x20 x21) x13
        (val_main_v183 (F := Ideal) x0 x1 x4 x5 x6 x7 x8 x18 x19 x20 x21)
        (recipCol (val_main_v184 (F := Ideal) x21)) x14 (val_main_v190 (F := Ideal) x15) := by
  unfold val_main_v193 val_main_v167 val_main_v166 val_main_v164 val_main_v163 val_main_v162
    val_main_v192 val_main_v191 val_main_v189 val_main_v188 val_main_v187 val_main_v186 val_main_v185
  revert hd
  generalize val_main_v160 (F := Ideal) x0 x2 x3 x16 x17 x18 x19 = a
  generalize val_main_v161 (F := Ideal) x19 = n
  generalize val_main_v165 (F := Ideal) x12 = b
  generalize val_main_v97 (F := Ideal) x0 x1 x4 x5 x6 x7 x8 x18 x19 x20 x21 = x
  generalize val_main_v183 (F := Ideal) x0 x1 x4 x5 x6 x7 x8 x18 x19 x20 x21 = g
  generalize val_main_v184 (F := Ideal) x21 = d
  generalize val_main_v190 (F := Ideal) x15 = bn
  intro hd
  exact hetero_ops a n x11 b x x13 g d x14 bn _ _ _ _ hd

end Cert.ReferenceIdeal.RefLayers

end
-- ==== Proof.DegreeReal.lean ====
/-
  The in-degree column of the reference is a nonzero real at every node.

  The degree of node p is computed by adding a one into slot p for every edge whose destination is p, starting from
  zero: an exact finite sum of ones, hence a natural number.  The reference then takes the maximum of that number and
  one, which is a real number at least one, and reshapes the vector of these maxima into a column.
-/
import proofs.«162621_j68298569941171_1_alg».proof.Proof.Gen.ReferenceIdeal.Read

noncomputable section

open scoped BigOperators

namespace Cert.ReferenceIdeal.DegreeReal

open Cert.ReferenceIdeal Cert.ReferenceIdeal.Gen Idealize.ShloMosaic Idealize.ShloMosaic.TcCoe Idealize.SL.Sem
open Idealize.ShloMosaic.StableHlo

/-- The float word of 1.0 denotes the real number 1. -/
theorem ofBits_one_f32 : Ideal.ofBits .f32 0x3F800000#32 = ((1 : ℝ) : EReal) := by
  simp [Ideal.ofBits, Ideal.ieee]
  rw [← EReal.coe_mul]
  norm_num

/-- A finite sum of ones, taken in the extended reals, is the number of terms. -/
theorem sum_real_one {α : Type} (s : Finset α) : ∑ _j ∈ s, ((1 : ℝ) : EReal) = ((s.card : ℝ) : EReal) := by
  classical
  induction s using Finset.induction_on with
  | empty => simp
  | insert a s ha ih =>
    rw [Finset.sum_insert ha, ih, Finset.card_insert_of_notMem ha, ← EReal.coe_add]
    congr 1
    push_cast
    ring

/-- An accumulating scatter of ones into zeros leaves a natural number in every slot: the number of updates that land
    there. -/
theorem scatterAdd_ones {s si su : Shape} (d : ScatterDims s si su) {w : Nat} (x : s.Idx → EReal) (idx : IVec si w)
    (upd : su.Idx → EReal) (i : s.Idx) (hx : x i = 0) (hu : ∀ j, upd j = ((1 : ℝ) : EReal)) :
    ∃ n : ℕ, Ideal.hostScatterAdd d x idx upd i = ((n : ℝ) : EReal) := by
  unfold Ideal.hostScatterAdd
  exact ⟨_, by rw [hx, zero_add, Finset.sum_congr rfl (fun j _ => hu j), sum_real_one]⟩

/-- The maximum of a natural number and one is a nonzero real. -/
theorem max_nat_one (n : ℕ) : ∃ y : ℝ, y ≠ 0 ∧ max (((n : ℝ) : EReal)) (((1 : ℝ) : EReal)) = ((y : ℝ) : EReal) := by
  rcases le_total (n : ℝ) 1 with h | h
  · exact ⟨1, one_ne_zero, max_eq_right (EReal.coe_le_coe_iff.2 h)⟩
  · exact ⟨n, ne_of_gt (lt_of_lt_of_le one_pos h), max_eq_left (EReal.coe_le_coe_iff.2 h)⟩

/-- The zero the first layer's degree count starts from. -/
theorem zeros_v71 (i : S50000.Idx) : Read.val_main_v71 (F := Ideal) i = 0 := by
  rw [Read.val_main_v71_apply, Read.val_main_cst_19_apply]; exact Ideal.ofBits_zero_f32

/-- The ones the first layer's degree count adds, one per edge. -/
theorem ones_v70 (j : S500000.Idx) : Read.val_main_v70 (F := Ideal) j = ((1 : ℝ) : EReal) := by
  rw [Read.val_main_v70_apply, Read.val_main_cst_18_apply]; exact ofBits_one_f32

/-- The one the first layer's degree is compared with. -/
theorem ones_v74 (i : S50000.Idx) : Read.val_main_v74 (F := Ideal) i = ((1 : ℝ) : EReal) := by
  rw [Read.val_main_v74_apply, Read.val_main_cst_20_apply]; exact ofBits_one_f32

/-- The first layer's count of incoming edges is a natural number at every node. -/
theorem count_v73 (x21 : (⟨S500000, .i32⟩ : BufTy).Contents (Elt Ideal)) (i : S50000.Idx) :
    ∃ n : ℕ, Read.val_main_v73 (F := Ideal) x21 i = ((n : ℝ) : EReal) := by
  unfold Read.val_main_v73 Host.scatterAdd
  rw [Ideal.hostScatterAdd_def]
  exact scatterAdd_ones _ _ _ _ i (zeros_v71 i) ones_v70

/-- The first layer's degree vector: max(number of incoming edges, 1), a nonzero real at every node. -/
theorem deg_v75 (x21 : (⟨S500000, .i32⟩ : BufTy).Contents (Elt Ideal)) (i : S50000.Idx) :
    ∃ y : ℝ, y ≠ 0 ∧ Read.val_main_v75 (F := Ideal) x21 i = ((y : ℝ) : EReal) := by
  obtain ⟨n, hn⟩ := count_v73 x21 i
  obtain ⟨y, hy, e⟩ := max_nat_one n
  refine ⟨y, hy, ?_⟩
  rw [Read.val_main_v75_apply, hn, ones_v74 i]
  exact e

/-- The first layer's degree column is a nonzero real at every node. -/
theorem deg_v86 (x21 : (⟨S500000, .i32⟩ : BufTy).Contents (Elt Ideal)) :
    ∀ i, ∃ y : ℝ, y ≠ 0 ∧ Read.val_main_v86 (F := Ideal) x21 i = ((y : ℝ) : EReal) := by
  intro i
  rw [Read.val_main_v86_apply]
  exact deg_v75 x21 (Read.idx_main_v86 i)

/-- The zero the second layer's degree count starts from. -/
theorem zeros_v169 (i : S50000.Idx) : Read.val_main_v169 (F := Ideal) i = 0 := by
  rw [Read.val_main_v169_apply, Read.val_main_cst_45_apply]; exact Ideal.ofBits_zero_f32

/-- The ones the second layer's degree count adds, one per edge. -/
theorem ones_v168 (j : S500000.Idx) : Read.val_main_v168 (F := Ideal) j = ((1 : ℝ) : EReal) := by
  rw [Read.val_main_v168_apply, Read.val_main_cst_44_apply]; exact ofBits_one_f32

/-- The one the second layer's degree is compared with. -/
theorem ones_v172 (i : S50000.Idx) : Read.val_main_v172 (F := Ideal) i = ((1 : ℝ) : EReal) := by
  rw [Read.val_main_v172_apply, Read.val_main_cst_46_apply]; exact ofBits_one_f32

/-- The second layer's count of incoming edges is a natural number at every node. -/
theorem count_v171 (x21 : (⟨S500000, .i32⟩ : BufTy).Contents (Elt Ideal)) (i : S50000.Idx) :
    ∃ n : ℕ, Read.val_main_v171 (F := Ideal) x21 i = ((n : ℝ) : EReal) := by
  unfold Read.val_main_v171 Host.scatterAdd
  rw [Ideal.hostScatterAdd_def]
  exact scatterAdd_ones _ _ _ _ i (zeros_v169 i) ones_v168

/-- The second layer recomputes the same degree vector: again a nonzero real at every node. -/
theorem deg_v173 (x21 : (⟨S500000, .i32⟩ : BufTy).Contents (Elt Ideal)) (i : S50000.Idx) :
    ∃ y : ℝ, y ≠ 0 ∧ Read.val_main_v173 (F := Ideal) x21 i = ((y : ℝ) : EReal) := by
  obtain ⟨n, hn⟩ := count_v171 x21 i
  obtain ⟨y, hy, e⟩ := max_nat_one n
  refine ⟨y, hy, ?_⟩
  rw [Read.val_main_v173_apply, hn, ones_v172 i]
  exact e

/-- The second layer's degree column is a nonzero real at every node. -/
theorem deg_v184 (x21 : (⟨S500000, .i32⟩ : BufTy).Contents (Elt Ideal)) :
    ∀ i, ∃ y : ℝ, y ≠ 0 ∧ Read.val_main_v184 (F := Ideal) x21 i = ((y : ℝ) : EReal) := by
  intro i
  rw [Read.val_main_v184_apply]
  exact deg_v173 x21 (Read.idx_main_v184 i)

end Cert.ReferenceIdeal.DegreeReal

end
-- ==== Proof.RefNet.lean ====
/-
  The reference program computes the network.

  The dense stages of the reference are the specification's layer functions of the stages before them, and its
  host-only stages (norms, columns, rows, message passing) are the network's named functions of the same index
  lists.  Substituting, outermost stage first, the reference's two results are the network's two outputs:
  layer 2 on the first node type is the graph convolution of layer 1's `hC`, and layer 2 on the second node type is
  the node-type sum of `hC` and `hN`.  The in-degree column max(degree, 1) is a nonzero real at every node, which is
  what lets the reference's division by it be read as the multiplication by its reciprocal.
-/
import proofs.«162621_j68298569941171_1_alg».proof.Proof.RefBridge
import proofs.«162621_j68298569941171_1_alg».proof.Proof.RefLayersScale
import proofs.«162621_j68298569941171_1_alg».proof.Proof.RefLayersConv
import proofs.«162621_j68298569941171_1_alg».proof.Proof.RefLayersHetero1
import proofs.«162621_j68298569941171_1_alg».proof.Proof.RefLayersHetero2
import proofs.«162621_j68298569941171_1_alg».proof.Proof.DegreeReal

noncomputable section

namespace Cert.ReferenceIdeal.RefNet

open Cert.ReferenceIdeal Cert.ReferenceIdeal.Read Cert.ReferenceIdeal.RefLayers Cert.ReferenceIdeal.RefBridge Idealize.ShloMosaic Idealize.SL.Sem HeteroConv

variable (x0 : (⟨S50000x128, .f32⟩ : BufTy).Contents (Elt Ideal))
variable (x1 : (⟨S50000x128, .f32⟩ : BufTy).Contents (Elt Ideal))
variable (x2 : (⟨S128x128, .f32⟩ : BufTy).Contents (Elt Ideal))
variable (x3 : (⟨S128, .f32⟩ : BufTy).Contents (Elt Ideal))
variable (x4 : (⟨S128x128, .f32⟩ : BufTy).Contents (Elt Ideal))
variable (x5 : (⟨S128, .f32⟩ : BufTy).Contents (Elt Ideal))
variable (x6 : (⟨S128x128, .f32⟩ : BufTy).Contents (Elt Ideal))
variable (x7 : (⟨S128x128, .f32⟩ : BufTy).Contents (Elt Ideal))
variable (x8 : (⟨S128, .f32⟩ : BufTy).Contents (Elt Ideal))
variable (x9 : (⟨S128x128, .f32⟩ : BufTy).Contents (Elt Ideal))
variable (x10 : (⟨S128, .f32⟩ : BufTy).Contents (Elt Ideal))
variable (x11 : (⟨S128x128, .f32⟩ : BufTy).Contents (Elt Ideal))
variable (x12 : (⟨S128, .f32⟩ : BufTy).Contents (Elt Ideal))
variable (x13 : (⟨S128x128, .f32⟩ : BufTy).Contents (Elt Ideal))
variable (x14 : (⟨S128x128, .f32⟩ : BufTy).Contents (Elt Ideal))
variable (x15 : (⟨S128, .f32⟩ : BufTy).Contents (Elt Ideal))
variable (x16 : (⟨S500000, .i32⟩ : BufTy).Contents (Elt Ideal))
variable (x17 : (⟨S500000, .i32⟩ : BufTy).Contents (Elt Ideal))
variable (x18 : (⟨S500000, .i32⟩ : BufTy).Contents (Elt Ideal))
variable (x19 : (⟨S500000, .i32⟩ : BufTy).Contents (Elt Ideal))
variable (x20 : (⟨S500000, .i32⟩ : BufTy).Contents (Elt Ideal))
variable (x21 : (⟨S500000, .i32⟩ : BufTy).Contents (Elt Ideal))

/-- Layer 1 on the first node type: stage 96 is the rectified graph convolution along the first relation. -/
theorem ref_hC : val_main_v96 (F := Ideal) x0 x2 x3 x16 x17 = Net.hC x0 x2 x3 x16 x17 := by
  rw [layer_v96, bridge_v27, layer_v17, bridge_v15, bridge_v28, bridge_v32]
  rfl

/-- Layer 1 on the second node type: stage 97 is the rectified node-type sum of the graph convolution along the
    second relation and the neighbour mean along the third. -/
theorem ref_hN : val_main_v97 (F := Ideal) x0 x1 x4 x5 x6 x7 x8 x18 x19 x20 x21 = Net.hN x0 x1 x4 x5 x6 x7 x8 x18 x19 x20 x21 := by
  rw [layer_v97 x0 x1 x4 x5 x6 x7 x8 x18 x19 x20 x21 (DegreeReal.deg_v86 x21), bridge_v62, layer_v52, bridge_v50, bridge_v63,
    bridge_v67, bridge_v85, bridge_v86, bridge_v92]
  rfl

/-- Layer 2 on the first node type: the reference's first result is the graph convolution of layer 1's output. -/
theorem ref_oC : val_main_v132 (F := Ideal) x0 x2 x3 x9 x10 x16 x17 = Net.oC (Net.hC x0 x2 x3 x16 x17) x9 x10 x16 x17 := by
  rw [layer_v132, bridge_v125, layer_v115, bridge_v113, bridge_v126, bridge_v130, ref_hC]
  rfl

/-- Layer 2 on the second node type: the reference's second result is the node-type sum of layer 1's two outputs. -/
theorem ref_oN : val_main_v193 (F := Ideal) x0 x1 x2 x3 x4 x5 x6 x7 x8 x11 x12 x13 x14 x15 x16 x17 x18 x19 x20 x21
    = Net.oN (Net.hC x0 x2 x3 x16 x17) (Net.hN x0 x1 x4 x5 x6 x7 x8 x18 x19 x20 x21) x11 x12 x13 x14 x15 x18 x19 x20 x21 := by
  rw [layer_v193 x0 x1 x2 x3 x4 x5 x6 x7 x8 x11 x12 x13 x14 x15 x16 x17 x18 x19 x20 x21 (DegreeReal.deg_v184 x21),
    bridge_v160, layer_v150, bridge_v148, bridge_v161, bridge_v165, bridge_v183, bridge_v184, bridge_v190, ref_hC, ref_hN]
  rfl

end Cert.ReferenceIdeal.RefNet

end
-- ==== Proof.lean ====
/-
  The five claims of the certificate for the two-layer heterogeneous graph network.

  What is proved. The kernel as printed, its idealization and the reference each run to the end and keep their
  22 arguments; the idealization rewrote no operation; and on the extended reals the kernel's two results, layer 2
  on the C nodes and layer 2 on the N nodes, are the reference's two results, from memories that agree on the
  arguments.

  The road. Both programs end at ONE pair of terms of their arguments, Net.oC (Net.hC …) … and
  Net.oN (Net.hC …) (Net.hN …) … (Net: degree norms, messages gathered along a relation's edges and summed per
  destination, and the dense layers convOut / heteroOut and their rectified forms). The kernel: each of its six
  grid regions leaves a whole-array layer function — rows scaled by a column, a graph convolution, a node-type
  sum — of the arrays it finds, because entry (p,q) of a block depends on row p of its inputs only and the 10
  row blocks tile the 50000 rows; the host stretches between the regions compute the norms, the gathers and the
  segment sums. The reference: the same terms, operation by operation. Agreement on the arguments then makes the
  two pairs equal, and the run of each program gives its frame.
-/
import proofs.«162621_j68298569941171_1_alg».proof.Defs
import proofs.«162621_j68298569941171_1_alg».proof.Proof.Gen.Kernel
import proofs.«162621_j68298569941171_1_alg».proof.Proof.Gen.Kernel.Skeleton
import proofs.«162621_j68298569941171_1_alg».proof.Proof.Gen.Kernel.Launch
import proofs.«162621_j68298569941171_1_alg».proof.Proof.Gen.Kernel.Points
import proofs.«162621_j68298569941171_1_alg».proof.Proof.Gen.Kernel.Frame
import proofs.«162621_j68298569941171_1_alg».proof.Proof.Gen.KernelIdeal
import proofs.«162621_j68298569941171_1_alg».proof.Proof.Gen.KernelIdeal.Skeleton
import proofs.«162621_j68298569941171_1_alg».proof.Proof.Gen.KernelIdeal.Launch
import proofs.«162621_j68298569941171_1_alg».proof.Proof.Gen.KernelIdeal.Points
import proofs.«162621_j68298569941171_1_alg».proof.Proof.Gen.KernelIdeal.Frame
import proofs.«162621_j68298569941171_1_alg».proof.Proof.Gen.ReferenceIdeal
import proofs.«162621_j68298569941171_1_alg».proof.Proof.Gen.Pre_finite_inputs
import proofs.«162621_j68298569941171_1_alg».proof.Proof.Gen.ReferenceIdeal.Run
import proofs.«162621_j68298569941171_1_alg».proof.Proof.Gen.ReferenceIdeal.Read
import proofs.«162621_j68298569941171_1_alg».proof.Proof.Net
import proofs.«162621_j68298569941171_1_alg».proof.Proof.KernelRun
import proofs.«162621_j68298569941171_1_alg».proof.Proof.KernelStages
import proofs.«162621_j68298569941171_1_alg».proof.Proof.RefNet
import Idealize.ShloMosaic.Adequacy
import Idealize.ShloMosaic.Init

set_option maxRecDepth 16384

noncomputable section

namespace Cert.Proof

open Idealize.ShloMosaic Idealize.SL.Sem

/-- The kernel as printed runs and keeps its arguments (the generated frame certificate). -/
theorem frame_k : Cert.frame_Kernel := fun m ρ _ => Cert.Kernel.Gen.frame m ρ

/-- The idealized kernel runs and keeps its arguments (the generated frame certificate). -/
theorem frame_ki : Cert.frame_KernelIdeal := fun m ρ _ => Cert.KernelIdeal.Gen.frame m ρ

/-- The reference runs and keeps its arguments: its generated run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- On the extended reals both programs end at the two-layer network of their arguments, layer 2 on the C nodes and
    on the N nodes: the kernel through its six grid regions, each a whole-array layer function of the arrays it
    finds, the reference operation by operation; from memories that agree on the 22 arguments the two results are
    the same terms. -/
theorem algebraic : Cert.algebraic_KernelIdeal_ReferenceIdeal := by
  intro m ρ m' ρ' _ hagree
  refine ⟨fun c => HeteroConv.Net.oC (HeteroConv.Net.hC (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => HeteroConv.Net.oN (HeteroConv.Net.hC (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (HeteroConv.Net.hN (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.KernelRun.run_all m ρ)
    exact ⟨(Cert.KernelIdeal.KernelRun.run_at m ρ Cert.KernelIdeal.main_v94 (by decide) r h c).trans (Cert.KernelIdeal.KernelStages.F12_v94 m ρ c),
      (Cert.KernelIdeal.KernelRun.run_at m ρ Cert.KernelIdeal.main_v119 (by decide) r h c).trans (Cert.KernelIdeal.KernelStages.F12_v119 m ρ c),
      (Cert.KernelIdeal.KernelRun.run_at m ρ Cert.KernelIdeal.main_arg0 (by decide) r h c).trans (Cert.KernelIdeal.Gen.W12_main_arg0 m ρ c),
      (Cert.KernelIdeal.KernelRun.run_at m ρ Cert.KernelIdeal.main_arg1 (by decide) r h c).trans (Cert.KernelIdeal.Gen.W12_main_arg1 m ρ c),
      (Cert.KernelIdeal.KernelRun.run_at m ρ Cert.KernelIdeal.main_arg2 (by decide) r h c).trans (Cert.KernelIdeal.Gen.W12_main_arg2 m ρ c),
      (Cert.KernelIdeal.KernelRun.run_at m ρ Cert.KernelIdeal.main_arg3 (by decide) r h c).trans (Cert.KernelIdeal.Gen.W12_main_arg3 m ρ c),
      (Cert.KernelIdeal.KernelRun.run_at m ρ Cert.KernelIdeal.main_arg4 (by decide) r h c).trans (Cert.KernelIdeal.Gen.W12_main_arg4 m ρ c),
      (Cert.KernelIdeal.KernelRun.run_at m ρ Cert.KernelIdeal.main_arg5 (by decide) r h c).trans (Cert.KernelIdeal.Gen.W12_main_arg5 m ρ c),
      (Cert.KernelIdeal.KernelRun.run_at m ρ Cert.KernelIdeal.main_arg6 (by decide) r h c).trans (Cert.KernelIdeal.Gen.W12_main_arg6 m ρ c),
      (Cert.KernelIdeal.KernelRun.run_at m ρ Cert.KernelIdeal.main_arg7 (by decide) r h c).trans (Cert.KernelIdeal.Gen.W12_main_arg7 m ρ c),
      (Cert.KernelIdeal.KernelRun.run_at m ρ Cert.KernelIdeal.main_arg8 (by decide) r h c).trans (Cert.KernelIdeal.Gen.W12_main_arg8 m ρ c),
      (Cert.KernelIdeal.KernelRun.run_at m ρ Cert.KernelIdeal.main_arg9 (by decide) r h c).trans (Cert.KernelIdeal.Gen.W12_main_arg9 m ρ c),
      (Cert.KernelIdeal.KernelRun.run_at m ρ Cert.KernelIdeal.main_arg10 (by decide) r h c).trans (Cert.KernelIdeal.Gen.W12_main_arg10 m ρ c),
      (Cert.KernelIdeal.KernelRun.run_at m ρ Cert.KernelIdeal.main_arg11 (by decide) r h c).trans (Cert.KernelIdeal.Gen.W12_main_arg11 m ρ c),
      (Cert.KernelIdeal.KernelRun.run_at m ρ Cert.KernelIdeal.main_arg12 (by decide) r h c).trans (Cert.KernelIdeal.Gen.W12_main_arg12 m ρ c),
      (Cert.KernelIdeal.KernelRun.run_at m ρ Cert.KernelIdeal.main_arg13 (by decide) r h c).trans (Cert.KernelIdeal.Gen.W12_main_arg13 m ρ c),
      (Cert.KernelIdeal.KernelRun.run_at m ρ Cert.KernelIdeal.main_arg14 (by decide) r h c).trans (Cert.KernelIdeal.Gen.W12_main_arg14 m ρ c),
      (Cert.KernelIdeal.KernelRun.run_at m ρ Cert.KernelIdeal.main_arg15 (by decide) r h c).trans (Cert.KernelIdeal.Gen.W12_main_arg15 m ρ c),
      (Cert.KernelIdeal.KernelRun.run_at m ρ Cert.KernelIdeal.main_arg16 (by decide) r h c).trans (Cert.KernelIdeal.Gen.W12_main_arg16 m ρ c),
      (Cert.KernelIdeal.KernelRun.run_at m ρ Cert.KernelIdeal.main_arg17 (by decide) r h c).trans (Cert.KernelIdeal.Gen.W12_main_arg17 m ρ c),
      (Cert.KernelIdeal.KernelRun.run_at m ρ Cert.KernelIdeal.main_arg18 (by decide) r h c).trans (Cert.KernelIdeal.Gen.W12_main_arg18 m ρ c),
      (Cert.KernelIdeal.KernelRun.run_at m ρ Cert.KernelIdeal.main_arg19 (by decide) r h c).trans (Cert.KernelIdeal.Gen.W12_main_arg19 m ρ c),
      (Cert.KernelIdeal.KernelRun.run_at m ρ Cert.KernelIdeal.main_arg20 (by decide) r h c).trans (Cert.KernelIdeal.Gen.W12_main_arg20 m ρ c),
      (Cert.KernelIdeal.KernelRun.run_at m ρ Cert.KernelIdeal.main_arg21 (by decide) r h c).trans (Cert.KernelIdeal.Gen.W12_main_arg21 m ρ c)⟩
  · refine (θ_run Cert.ReferenceIdeal.defs _ _).mono (fun r h c => ?_) (Cert.ReferenceIdeal.Value.run (F := Ideal) m' ρ')
    obtain ⟨h0, h1, hkept⟩ := h c
    obtain ⟨e0, e1, e2, e3, e4, e5, e6, e7, e8, e9, e10, e11, e12, e13, e14, e15, e16, e17, e18, e19, e20, e21⟩ := hagree c
    refine ⟨h0.trans ?_, h1.trans ?_, hkept⟩
    · rw [Cert.ReferenceIdeal.Read.val_main_v132_eq, e0, e2, e3, e9, e10, e16, e17]
      exact Cert.ReferenceIdeal.RefNet.ref_oC ..
    · rw [Cert.ReferenceIdeal.Read.val_main_v193_eq, e0, e1, e2, e3, e4, e5, e6, e7, e8, e11, e12, e13, e14, e15, e16, e17, e18, e19, e20, e21]
      exact Cert.ReferenceIdeal.RefNet.ref_oN ..

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
